-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v170)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v170) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x2000000 : Shape := ⟨2, ![2, 2000000]⟩
abbrev S64x64 : Shape := ⟨2, ![64, 64]⟩
abbrev S64 : Shape := ⟨1, ![64]⟩
abbrev S6x64x64 : Shape := ⟨3, ![6, 64, 64]⟩
abbrev S6x64 : Shape := ⟨2, ![6, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S6x64x64 : S_.BroadcastsInDim S6x64x64 (![] : Fin 0 → Fin S6x64x64.rank)
  reducesTo_S6x64x64_S_d0_1_2 : S6x64x64.ReducesTo [0, 1, 2] S_
  bcast_S_S6x64 : S_.BroadcastsInDim S6x64 (![] : Fin 0 → Fin S6x64.rank)
  reducesTo_S6x64_S_d0_1 : S6x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S6x64 .f32) (main_arg6 : FVec F S64x1 .f32) (main_arg7 : FVec F S1 .f32) (main_v13 : IVec S_ 1) (main_v16 : IVec S6x64x64 1) : IVec S_ 1 :=
  let main_c_5 : IVec S_ 1 := constantI S_ 1 1#1
  let main_v17 : IVec S_ 1 := (fun x v => Host.reduce IntOp.andi x v reducesTo_S6x64x64_S_d0_1_2 h_S_) main_v16 main_c_5
  let main_v18 : IVec S_ 1 := andi main_v13 main_v17
  let main_v19 : FVec F S6x64 .f32 := Host.absf main_arg5
  let main_cst_6 : FVec F S_ .f32 := constant S_ .f32 0x7F800000#32
  let main_v20 : FVec F S6x64 .f32 := broadcastInDim S6x64 ![] bcast_S_S6x64 main_cst_6
  let main_v21 : IVec S6x64 1 := cmpf .olt main_v19 main_v20
  let main_c_7 : IVec S_ 1 := constantI S_ 1 1#1
  let main_v22 : IVec S_ 1 := (fun x v => Host.reduce IntOp.andi x v reducesTo_S6x64_S_d0_1 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x64 .f32) (main_arg1 : IVec S2x2000000 32) (main_arg2 : FVec F S64x64 .f32) (main_arg3 : FVec F S64 .f32) (main_arg4 : FVec F S6x64x64 .f32) (main_arg5 : FVec F S6x64 .f32) (main_arg6 : FVec F S64x1 .f32) (main_arg7 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S6x64x64 .f32 := Host.absf main_arg4
  let main_cst_4 : FVec F S_ .f32 := constant S_ .f32 0x7F800000#32
  let main_v15 : FVec F S6x64x64 .f32 := broadcastInDim S6x64x64 ![] bcast_S_S6x64x64 main_cst_4
  let main_v16 : IVec S6x64x64 1 := cmpf .olt main_v14 main_v15
  fn_part1 (F := F) main_arg5 main_arg6 main_arg7 main_v13 main_v16
-- ==== Kernel.lean ====
abbrev S100000x64 : Shape := ⟨2, ![100000, 64]⟩
abbrev S2x2000000 : Shape := ⟨2, ![2, 2000000]⟩
abbrev S64x64 : Shape := ⟨2, ![64, 64]⟩
abbrev S64 : Shape := ⟨1, ![64]⟩
abbrev S6x64x64 : Shape := ⟨3, ![6, 64, 64]⟩
abbrev S6x64 : Shape := ⟨2, ![6, 64]⟩
abbrev S64x1 : Shape := ⟨2, ![64, 1]⟩
abbrev S1 : Shape := ⟨1, ![1]⟩
abbrev S100000 : Shape := ⟨1, ![100000]⟩
abbrev S1x2000000 : Shape := ⟨2, ![1, 2000000]⟩
abbrev S2000000 : Shape := ⟨1, ![2000000]⟩
abbrev S2100000 : Shape := ⟨1, ![2100000]⟩
abbrev S_ : Shape := ⟨0, ![]⟩
abbrev S2100000x1 : Shape := ⟨2, ![2100000, 1]⟩
abbrev S10000x64 : Shape := ⟨2, ![10000, 64]⟩
abbrev S2100000x64 : Shape := ⟨2, ![2100000, 64]⟩
abbrev S1x64 : Shape := ⟨2, ![1, 64]⟩
abbrev S1x64x64 : Shape := ⟨3, ![1, 64, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 209
  | .vmem => 80
  | .smem => 0
  | _ => 0

abbrev hbmTy0_0 (i : Nat) : BufTy := match i % 128 with
  | 0 => ⟨S100000x64, .f32⟩
  | 1 => ⟨S2x2000000, .i32⟩
  | 2 => ⟨S64x64, .f32⟩
  | 3 => ⟨S64, .f32⟩
  | 4 => ⟨S6x64x64, .f32⟩
  | 5 => ⟨S6x64, .f32⟩
  | 6 => ⟨S64x1, .f32⟩
  | 7 => ⟨S1, .f32⟩
  | 8 => ⟨S100000, .i32⟩
  | 9 => ⟨S1x2000000, .i32⟩
  | 10 => ⟨S2000000, .i32⟩
  | 11 => ⟨S2100000, .i32⟩
  | 12 => ⟨S1x2000000, .i32⟩
  | 13 => ⟨S2000000, .i32⟩
  | 14 => ⟨S2100000, .i32⟩
  | 15 => ⟨S_, .f32⟩
  | 16 => ⟨S2100000, .f32⟩
  | 17 => ⟨S_, .f32⟩
  | 18 => ⟨S100000, .f32⟩
  | 19 => ⟨S2100000x1, .i32⟩
  | 20 => ⟨S100000, .f32⟩
  | 21 => ⟨S100000, .f32⟩
  | 22 => ⟨S_, .i32⟩
  | 23 => ⟨S2100000, .i32⟩
  | 24 => ⟨S2100000, .i1⟩
  | 25 => ⟨S_, .i32⟩
  | 26 => ⟨S2100000, .i32⟩
  | 27 => ⟨S2100000, .i32⟩
  | 28 => ⟨S2100000, .i32⟩
  | 29 => ⟨S2100000x1, .i32⟩
  | 30 => ⟨S2100000, .f32⟩
  | 31 => ⟨S_, .i32⟩
  | 32 => ⟨S2100000, .i32⟩
  | 33 => ⟨S2100000, .i1⟩
  | 34 => ⟨S_, .i32⟩
  | 35 => ⟨S2100000, .i32⟩
  | 36 => ⟨S2100000, .i32⟩
  | 37 => ⟨S2100000, .i32⟩
  | 38 => ⟨S2100000x1, .i32⟩
  | 39 => ⟨S2100000, .f32⟩
  | 40 => ⟨S2100000, .f32⟩
  | 41 => ⟨S2100000x1, .f32⟩
  | 42 => ⟨S100000x64, .f32⟩
  | 43 => ⟨S_, .i32⟩
  | 44 => ⟨S2100000, .i32⟩
  | 45 => ⟨S2100000, .i1⟩
  | 46 => ⟨S_, .i32⟩
  | 47 => ⟨S2100000, .i32⟩
  | 48 => ⟨S2100000, .i32⟩
  | 49 => ⟨S2100000, .i32⟩
  | 50 => ⟨S2100000x1, .i32⟩
  | 51 => ⟨S2100000x64, .f32⟩
  | 52 => ⟨S2100000x64, .f32⟩
  | 53 => ⟨S2100000x64, .f32⟩
  | 54 => ⟨S_, .f32⟩
  | 55 => ⟨S100000x64, .f32⟩
  | 56 => ⟨S2100000x1, .i32⟩
  | 57 => ⟨S100000x64, .f32⟩
  | 58 => ⟨S1x64, .f32⟩
  | 59 => ⟨S100000x64, .f32⟩
  | 60 => ⟨S1x64x64, .f32⟩
  | 61 => ⟨S64x64, .f32⟩
  | 62 => ⟨S1x64, .f32⟩
  | 63 => ⟨S64, .f32⟩
  | 64 => ⟨S100000x64, .f32⟩
  | 65 => ⟨S_, .i32⟩
  | 66 => ⟨S2100000, .i32⟩
  | 67 => ⟨S2100000, .i1⟩
  | 68 => ⟨S_, .i32⟩
  | 69 => ⟨S2100000, .i32⟩
  | 70 => ⟨S2100000, .i32⟩
  | 71 => ⟨S2100000, .i32⟩
  | 72 => ⟨S2100000x1, .i32⟩
  | 73 => ⟨S2100000x64, .f32⟩
  | 74 => ⟨S2100000x64, .f32⟩
  | 75 => ⟨S2100000x64, .f32⟩
  | 76 => ⟨S_, .f32⟩
  | 77 => ⟨S100000x64, .f32⟩
  | 78 => ⟨S2100000x1, .i32⟩
  | 79 => ⟨S100000x64, .f32⟩
  | 80 => ⟨S1x64, .f32⟩
  | 81 => ⟨S100000x64, .f32⟩
  | 82 => ⟨S1x64x64, .f32⟩
  | 83 => ⟨S64x64, .f32⟩
  | 84 => ⟨S1x64, .f32⟩
  | 85 => ⟨S64, .f32⟩
  | 86 => ⟨S100000x64, .f32⟩
  | 87 => ⟨S_, .i32⟩
  | 88 => ⟨S2100000, .i32⟩
  | 89 => ⟨S2100000, .i1⟩
  | 90 => ⟨S_, .i32⟩
  | 91 => ⟨S2100000, .i32⟩
  | 92 => ⟨S2100000, .i32⟩
  | 93 => ⟨S2100000, .i32⟩
  | 94 => ⟨S2100000x1, .i32⟩
  | 95 => ⟨S2100000x64, .f32⟩
  | 96 => ⟨S2100000x64, .f32⟩
  | 97 => ⟨S2100000x64, .f32⟩
  | 98 => ⟨S_, .f32⟩
  | 99 => ⟨S100000x64, .f32⟩
  | 100 => ⟨S2100000x1, .i32⟩
  | 101 => ⟨S100000x64, .f32⟩
  | 102 => ⟨S1x64, .f32⟩
  | 103 => ⟨S100000x64, .f32⟩
  | 104 => ⟨S1x64x64, .f32⟩
  | 105 => ⟨S64x64, .f32⟩
  | 106 => ⟨S1x64, .f32⟩
  | 107 => ⟨S64, .f32⟩
  | 108 => ⟨S100000x64, .f32⟩
  | 109 => ⟨S_, .i32⟩
  | 110 => ⟨S2100000, .i32⟩
  | 111 => ⟨S2100000, .i1⟩
  | 112 => ⟨S_, .i32⟩
  | 113 => ⟨S2100000, .i32⟩
  | 114 => ⟨S2100000, .i32⟩
  | 115 => ⟨S2100000, .i32⟩
  | 116 => ⟨S2100000x1, .i32⟩
  | 117 => ⟨S2100000x64, .f32⟩
  | 118 => ⟨S2100000x64, .f32⟩
  | 119 => ⟨S2100000x64, .f32⟩
  | 120 => ⟨S_, .f32⟩
  | 121 => ⟨S100000x64, .f32⟩
  | 122 => ⟨S2100000x1, .i32⟩
  | 123 => ⟨S100000x64, .f32⟩
  | 124 => ⟨S1x64, .f32⟩
  | 125 => ⟨S100000x64, .f32⟩
  | 126 => ⟨S1x64x64, .f32⟩
  | 127 => ⟨S64x64, .f32⟩
  | _ => ⟨S100000x64, .f32⟩

abbrev hbmTy0_1 (i : Nat) : BufTy := match i % 128 with
  | 0 => ⟨S1x64, .f32⟩
  | 1 => ⟨S64, .f32⟩
  | 2 => ⟨S100000x64, .f32⟩
  | 3 => ⟨S_, .i32⟩
  | 4 => ⟨S2100000, .i32⟩
  | 5 => ⟨S2100000, .i1⟩
  | 6 => ⟨S_, .i32⟩
  | 7 => ⟨S2100000, .i32⟩
  | 8 => ⟨S2100000, .i32⟩
  | 9 => ⟨S2100000, .i32⟩
  | 10 => ⟨S2100000x1, .i32⟩
  | 11 => ⟨S2100000x64, .f32⟩
  | 12 => ⟨S2100000x64, .f32⟩
  | 13 => ⟨S2100000x64, .f32⟩
  | 14 => ⟨S_, .f32⟩
  | 15 => ⟨S100000x64, .f32⟩
  | 16 => ⟨S2100000x1, .i32⟩
  | 17 => ⟨S100000x64, .f32⟩
  | 18 => ⟨S1x64, .f32⟩
  | 19 => ⟨S100000x64, .f32⟩
  | 20 => ⟨S1x64x64, .f32⟩
  | 21 => ⟨S64x64, .f32⟩
  | 22 => ⟨S1x64, .f32⟩
  | 23 => ⟨S64, .f32⟩
  | 24 => ⟨S100000x64, .f32⟩
  | 25 => ⟨S_, .i32⟩
  | 26 => ⟨S2100000, .i32⟩
  | 27 => ⟨S2100000, .i1⟩
  | 28 => ⟨S_, .i32⟩
  | 29 => ⟨S2100000, .i32⟩
  | 30 => ⟨S2100000, .i32⟩
  | 31 => ⟨S2100000, .i32⟩
  | 32 => ⟨S2100000x1, .i32⟩
  | 33 => ⟨S2100000x64, .f32⟩
  | 34 => ⟨S2100000x64, .f32⟩
  | 35 => ⟨S2100000x64, .f32⟩
  | 36 => ⟨S_, .f32⟩
  | 37 => ⟨S100000x64, .f32⟩
  | 38 => ⟨S2100000x1, .i32⟩
  | 39 => ⟨S100000x64, .f32⟩
  | 40 => ⟨S1x64, .f32⟩
  | 41 => ⟨S100000x64, .f32⟩
  | 42 => ⟨S1x64x64, .f32⟩
  | 43 => ⟨S64x64, .f32⟩
  | 44 => ⟨S1x64, .f32⟩
  | 45 => ⟨S64, .f32⟩
  | 46 => ⟨S100000x64, .f32⟩
  | 47 => ⟨S_, .i32⟩
  | 48 => ⟨S2100000, .i32⟩
  | 49 => ⟨S2100000, .i1⟩
  | 50 => ⟨S_, .i32⟩
  | 51 => ⟨S2100000, .i32⟩
  | 52 => ⟨S2100000, .i32⟩
  | 53 => ⟨S2100000, .i32⟩
  | 54 => ⟨S2100000x1, .i32⟩
  | 55 => ⟨S2100000x64, .f32⟩
  | 56 => ⟨S2100000x64, .f32⟩
  | 57 => ⟨S2100000x64, .f32⟩
  | 58 => ⟨S_, .f32⟩
  | 59 => ⟨S100000x64, .f32⟩
  | 60 => ⟨S2100000x1, .i32⟩
  | 61 => ⟨S100000x64, .f32⟩
  | 62 => ⟨S1x64, .f32⟩
  | 63 => ⟨S100000x64, .f32⟩
  | 64 => ⟨S100000x1, .f32⟩
  | 65 => ⟨S_, .i32⟩
  | 66 => ⟨S2100000, .i32⟩
  | 67 => ⟨S2100000, .i1⟩
  | 68 => ⟨S_, .i32⟩
  | 69 => ⟨S2100000, .i32⟩
  | 70 => ⟨S2100000, .i32⟩
  | 71 => ⟨S2100000, .i32⟩
  | 72 => ⟨S2100000x1, .i32⟩
  | 73 => ⟨S2100000x1, .f32⟩
  | 74 => ⟨S2100000x1, .f32⟩
  | 75 => ⟨S_, .f32⟩
  | 76 => ⟨S100000x1, .f32⟩
  | 77 => ⟨S2100000x1, .i32⟩
  | 78 => ⟨S100000x1, .f32⟩
  | 79 => ⟨S1x1, .f32⟩
  | 80 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S64x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S64x64, .f32⟩
  | .local _ .vmem, ⟨43, _⟩ => ⟨S10000x64, .f32⟩
  | .local _ .vmem, ⟨44, _⟩ => ⟨S10000x64, .f32⟩
  | .local _ .vmem, ⟨45, _⟩ => ⟨S10000x64, .f32⟩
  | .local _ .vmem, ⟨46, _⟩ => ⟨S10000x64, .f32⟩
  | .local _ .vmem, ⟨47, _⟩ => ⟨S1x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S64x64, .f32⟩
  | .local _ .vmem, ⟨53, _⟩ => ⟨S10000x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S1x64, .f32⟩
  | .local _ .vmem, ⟨58, _⟩ => ⟨S10000x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S64x64, .f32⟩
  | .local _ .vmem, ⟨63, _⟩ => ⟨S10000x64, .f32⟩
  | .local _ .vmem, ⟨64, _⟩ => ⟨S10000x64, .f32⟩
  | .local _ .vmem, ⟨65, _⟩ => ⟨S10000x64, .f32⟩
  | .local _ .vmem, ⟨66, _⟩ => ⟨S10000x64, .f32⟩
  | .local _ .vmem, ⟨67, _⟩ => ⟨S1x64, .f32⟩
  | .local _ .vmem, ⟨68, _⟩ => ⟨S10000x64, .f32⟩
  | .local _ .vmem, ⟨69, _⟩ => ⟨S10000x64, .f32⟩
  | .local _ .vmem, ⟨70, _⟩ => ⟨S10000x64, .f32⟩
  | .local _ .vmem, ⟨71, _⟩ => ⟨S10000x64, .f32⟩
  | .local _ .vmem, ⟨72, _⟩ => ⟨S64x1, .f32⟩
  | .local _ .vmem, ⟨73, _⟩ => ⟨S10000x1, .f32⟩
  | .local _ .vmem, ⟨74, _⟩ => ⟨S10000x1, .f32⟩
  | .local _ .vmem, ⟨75, _⟩ => ⟨S10000x1, .f32⟩
  | .local _ .vmem, ⟨76, _⟩ => ⟨S10000x1, .f32⟩
  | .local _ .vmem, ⟨77, _⟩ => ⟨S1x1, .f32⟩
  | .local _ .vmem, ⟨78, _⟩ => ⟨S10000x1, .f32⟩
  | .local _ .vmem, ⟨79, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_7 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_10 : Ref sig .tc := ⟨.hbm, 87, rfl⟩
abbrev main_v67 : Ref sig .tc := ⟨.hbm, 88, rfl⟩
abbrev main_v68 : Ref sig .tc := ⟨.hbm, 89, rfl⟩
abbrev main_c_11 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_12 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_c_13 : Ref sig .tc := ⟨.hbm, 109, rfl⟩
abbrev main_v86 : Ref sig .tc := ⟨.hbm, 110, rfl⟩
abbrev main_v87 : Ref sig .tc := ⟨.hbm, 111, rfl⟩
abbrev main_c_14 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_15 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_c_16 : Ref sig .tc := ⟨.hbm, 131, rfl⟩
abbrev main_v105 : Ref sig .tc := ⟨.hbm, 132, rfl⟩
abbrev main_v106 : Ref sig .tc := ⟨.hbm, 133, rfl⟩
abbrev main_c_17 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_18 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_c_19 : Ref sig .tc := ⟨.hbm, 153, rfl⟩
abbrev main_v124 : Ref sig .tc := ⟨.hbm, 154, rfl⟩
abbrev main_v125 : Ref sig .tc := ⟨.hbm, 155, rfl⟩
abbrev main_c_20 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_21 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_c_22 : Ref sig .tc := ⟨.hbm, 175, rfl⟩
abbrev main_v143 : Ref sig .tc := ⟨.hbm, 176, rfl⟩
abbrev main_v144 : Ref sig .tc := ⟨.hbm, 177, rfl⟩
abbrev main_c_23 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_cst_24 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_c_25 : Ref sig .tc := ⟨.hbm, 193, rfl⟩
abbrev main_v158 : Ref sig .tc := ⟨.hbm, 194, rfl⟩
abbrev main_v159 : Ref sig .tc := ⟨.hbm, 195, rfl⟩
abbrev main_c_26 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_cst_27 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg2_0 : Ref sig .tc := ⟨.vmem, 53, rfl⟩
abbrev cc10_stg2_1 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg2_0 : Ref sig .tc := ⟨.vmem, 58, rfl⟩
abbrev cc11_stg2_1 : Ref sig .tc := ⟨.vmem, 59, rfl⟩
abbrev cc12_stg0_0 : Ref sig .tc := ⟨.vmem, 60, rfl⟩
abbrev cc12_stg0_1 : Ref sig .tc := ⟨.vmem, 61, rfl⟩
abbrev cc12_stg1_0 : Ref sig .tc := ⟨.vmem, 62, rfl⟩
abbrev cc12_stg2_0 : Ref sig .tc := ⟨.vmem, 63, rfl⟩
abbrev cc12_stg2_1 : Ref sig .tc := ⟨.vmem, 64, rfl⟩
abbrev cc13_stg0_0 : Ref sig .tc := ⟨.vmem, 65, rfl⟩
abbrev cc13_stg0_1 : Ref sig .tc := ⟨.vmem, 66, rfl⟩
abbrev cc13_stg1_0 : Ref sig .tc := ⟨.vmem, 67, rfl⟩
abbrev cc13_stg2_0 : Ref sig .tc := ⟨.vmem, 68, rfl⟩
abbrev cc13_stg2_1 : Ref sig .tc := ⟨.vmem, 69, rfl⟩
abbrev cc14_stg0_0 : Ref sig .tc := ⟨.vmem, 70, rfl⟩
abbrev cc14_stg0_1 : Ref sig .tc := ⟨.vmem, 71, rfl⟩
abbrev cc14_stg1_0 : Ref sig .tc := ⟨.vmem, 72, rfl⟩
abbrev cc14_stg2_0 : Ref sig .tc := ⟨.vmem, 73, rfl⟩
abbrev cc14_stg2_1 : Ref sig .tc := ⟨.vmem, 74, rfl⟩
abbrev cc15_stg0_0 : Ref sig .tc := ⟨.vmem, 75, rfl⟩
abbrev cc15_stg0_1 : Ref sig .tc := ⟨.vmem, 76, rfl⟩
abbrev cc15_stg1_0 : Ref sig .tc := ⟨.vmem, 77, rfl⟩
abbrev cc15_stg2_0 : Ref sig .tc := ⟨.vmem, 78, rfl⟩
abbrev cc15_stg2_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59
abbrev cc12_sem0_0 : DmaSem sig := 60
abbrev cc12_sem0_1 : DmaSem sig := 61
abbrev cc12_sem1_0 : DmaSem sig := 62
abbrev cc12_sem2_0 : DmaSem sig := 63
abbrev cc12_sem2_1 : DmaSem sig := 64
abbrev cc13_sem0_0 : DmaSem sig := 65
abbrev cc13_sem0_1 : DmaSem sig := 66
abbrev cc13_sem1_0 : DmaSem sig := 67
abbrev cc13_sem2_0 : DmaSem sig := 68
abbrev cc13_sem2_1 : DmaSem sig := 69
abbrev cc14_sem0_0 : DmaSem sig := 70
abbrev cc14_sem0_1 : DmaSem sig := 71
abbrev cc14_sem1_0 : DmaSem sig := 72
abbrev cc14_sem2_0 : DmaSem sig := 73
abbrev cc14_sem2_1 : DmaSem sig := 74
abbrev cc15_sem0_0 : DmaSem sig := 75
abbrev cc15_sem0_1 : DmaSem sig := 76
abbrev cc15_sem1_0 : DmaSem sig := 77
abbrev cc15_sem2_0 : DmaSem sig := 78
abbrev cc15_sem2_1 : DmaSem sig := 79

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S10000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S10000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S10000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S10000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S10000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S64x1 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S10000x1 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S10000x1 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x1 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S10000x1 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

class Facts₀ : Prop where
  slices_S2x2000000_S1x2000000_0_0 : S2x2000000.Slices ![0, 0] S1x2000000
  shapeCasts_S1x2000000_S2000000 : S1x2000000.ShapeCasts S2000000
  concatenates_S2000000_S100000_S2100000_d0 : Shape.Concatenates [S2000000, S100000] S2100000 0
  slices_S2x2000000_S1x2000000_1_0 : S2x2000000.Slices ![1, 0] S1x2000000
  bcast_S_S2100000 : S_.BroadcastsInDim S2100000 (![] : Fin 0 → Fin S2100000.rank)
  bcast_S_S100000 : S_.BroadcastsInDim S100000 (![] : Fin 0 → Fin S100000.rank)
  bcast_S2100000_S2100000x1_0 : S2100000.BroadcastsInDim S2100000x1 (![0] : Fin 1 → Fin S2100000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S2100000x1_S2100000x64_0_1 : S2100000x1.BroadcastsInDim S2100000x64 (![0, 1] : Fin 2 → Fin S2100000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  slices_S6x64x64_S1x64x64_0_0_0 : S6x64x64.Slices ![0, 0, 0] S1x64x64
  shapeCasts_S1x64x64_S64x64 : S1x64x64.ShapeCasts S64x64
  slices_S6x64_S1x64_0_0 : S6x64.Slices ![0, 0] S1x64
  shapeCasts_S1x64_S64 : S1x64.ShapeCasts S64
  shapeCasts_S64x64_S64x64 : S64x64.ShapeCasts S64x64
  slices_S6x64x64_S1x64x64_1_0_0 : S6x64x64.Slices ![1, 0, 0] S1x64x64
  slices_S6x64_S1x64_1_0 : S6x64.Slices ![1, 0] S1x64
  slices_S6x64x64_S1x64x64_2_0_0 : S6x64x64.Slices ![2, 0, 0] S1x64x64
  slices_S6x64_S1x64_2_0 : S6x64.Slices ![2, 0] S1x64
  slices_S6x64x64_S1x64x64_3_0_0 : S6x64x64.Slices ![3, 0, 0] S1x64x64
  slices_S6x64_S1x64_3_0 : S6x64.Slices ![3, 0] S1x64
  slices_S6x64x64_S1x64x64_4_0_0 : S6x64x64.Slices ![4, 0, 0] S1x64x64
  slices_S6x64_S1x64_4_0 : S6x64.Slices ![4, 0] S1x64
  slices_S6x64x64_S1x64x64_5_0_0 : S6x64x64.Slices ![5, 0, 0] S1x64x64
  slices_S6x64_S1x64_5_0 : S6x64.Slices ![5, 0] S1x64
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  scatter_S100000_S2100000x1_S2100000_n_0_0_1_wf : ScatterDims.WF S100000 S2100000x1 S2100000 [] [0] [0] 1
  gather_S100000_S2100000x1_S2100000_n_0_n_n_0_1_1_wf : GatherDims.WF S100000 S2100000x1 S2100000 [] [0] [] [0] [] 1 ![1]
  dot_S10000x64_S64x64_S10000x64_1_0_0_1_n_n_wf : DotDims.WF S10000x64 S64x64 S10000x64 [1] [0] [0] [1] [] []
  gather_S100000x64_S2100000x1_S2100000x64_1_0_n_n_0_1_164_wf : GatherDims.WF S100000x64 S2100000x1 S2100000x64 [1] [0] [] [0] [] 1 ![1, 64]
  scatter_S100000x64_S2100000x1_S2100000x64_1_0_0_1_wf : ScatterDims.WF S100000x64 S2100000x1 S2100000x64 [1] [0] [0] 1
  dot_S10000x64_S64x1_S10000x1_1_0_0_1_n_n_wf : DotDims.WF S10000x64 S64x1 S10000x1 [1] [0] [0] [1] [] []
  gather_S100000x1_S2100000x1_S2100000x1_1_0_n_n_0_1_11_wf : GatherDims.WF S100000x1 S2100000x1 S2100000x1 [1] [0] [] [0] [] 1 ![1, 1]
  scatter_S100000x1_S2100000x1_S2100000x1_1_0_0_1_wf : ScatterDims.WF S100000x1 S2100000x1 S2100000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x64.size a ≤ S100000x64.size a
  hwx6_2 : ∀ i : grid6.Coords, EltTy.bits .f32 = 32 ∨ (Rect.block (s := S100000x64) S10000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x64.size a ≤ S100000x64.size a
  hwx7_2 : ∀ i : grid7.Coords, EltTy.bits .f32 = 32 ∨ (Rect.block (s := S100000x64) S10000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x64.size a ≤ S100000x64.size a
  hwx8_2 : ∀ i : grid8.Coords, EltTy.bits .f32 = 32 ∨ (Rect.block (s := S100000x64) S10000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x64.size a ≤ S1x64.size a
  hwx9_1 : ∀ i : grid9.Coords, EltTy.bits .f32 = 32 ∨ (Rect.block (s := S1x64) S1x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S100000x64.size a
  hwx9_2 : ∀ i : grid9.Coords, EltTy.bits .f32 = 32 ∨ (Rect.block (s := S100000x64) S10000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x64.size a ≤ S100000x64.size a
  hwx10_2 : ∀ i : grid10.Coords, EltTy.bits .f32 = 32 ∨ (Rect.block (s := S100000x64) S10000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S10000x64.size a ≤ S100000x64.size a
  hwx11_2 : ∀ i : grid11.Coords, EltTy.bits .f32 = 32 ∨ (Rect.block (s := S100000x64) S10000x64.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S100000x64.size a
  hwx12_0 : ∀ i : grid12.Coords, EltTy.bits .f32 = 32 ∨ (Rect.block (s := S100000x64) S10000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x64.size a ≤ S64x64.size a
  hwx12_1 : ∀ i : grid12.Coords, EltTy.bits .f32 = 32 ∨ (Rect.block (s := S64x64) S64x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x64.size a ≤ S100000x64.size a
  hwx12_2 : ∀ i : grid12.Coords, EltTy.bits .f32 = 32 ∨ (Rect.block (s := S100000x64) S10000x64.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S10000x64.size a ≤ S100000x64.size a
  hwx13_0 : ∀ i : grid13.Coords, EltTy.bits .f32 = 32 ∨ (Rect.block (s := S100000x64) S10000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x64.size a ≤ S1x64.size a
  hwx13_1 : ∀ i : grid13.Coords, EltTy.bits .f32 = 32 ∨ (Rect.block (s := S1x64) S1x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S10000x64.size a ≤ S100000x64.size a
  hwx13_2 : ∀ i : grid13.Coords, EltTy.bits .f32 = 32 ∨ (Rect.block (s := S100000x64) S10000x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x64.size a ≤ S100000x64.size a
  hwx14_0 : ∀ i : grid14.Coords, EltTy.bits .f32 = 32 ∨ (Rect.block (s := S100000x64) S10000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S64x1.size a ≤ S64x1.size a
  hwx14_1 : ∀ i : grid14.Coords, EltTy.bits .f32 = 32 ∨ (Rect.block (s := S64x1) S64x1.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S10000x1.size a ≤ S100000x1.size a
  hwx14_2 : ∀ i : grid14.Coords, EltTy.bits .f32 = 32 ∨ (Rect.block (s := S100000x1) S10000x1.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x1.size a ≤ S100000x1.size a
  hwx15_0 : ∀ i : grid15.Coords, EltTy.bits .f32 = 32 ∨ (Rect.block (s := S100000x1) S10000x1.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x1.size a ≤ S1x1.size a
  hwx15_1 : ∀ i : grid15.Coords, EltTy.bits .f32 = 32 ∨ (Rect.block (s := S1x1) S1x1.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S10000x1.size a ≤ S100000x1.size a
  hwx15_2 : ∀ i : grid15.Coords, EltTy.bits .f32 = 32 ∨ (Rect.block (s := S100000x1) S10000x1.size (cc15_transform_2 i) (hinb15_2 i)).WholeWords (EltTy.packing .f32)

variable [Facts₀]

def scatter_S100000_S2100000x1_S2100000_n_0_0_1 : ScatterDims S100000 S2100000x1 S2100000 where
  updateWindowDims := []
  insertedWindowDims := [0]
  scatterDimsToOperandDims := [0]
  indexVectorDim := 1
  wf := scatter_S100000_S2100000x1_S2100000_n_0_0_1_wf
def gather_S100000_S2100000x1_S2100000_n_0_n_n_0_1_1 : GatherDims S100000 S2100000x1 S2100000 where
  offsetDims := []
  collapsedSliceDims := [0]
  operandBatchingDims := []
  startIndicesBatchingDims := []
  startIndexMap := [0]
  indexVectorDim := 1
  sliceSizes := ![1]
  wf := gather_S100000_S2100000x1_S2100000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S2100000x1_S2100000x64_1_0_n_n_0_1_164 : GatherDims S100000x64 S2100000x1 S2100000x64 where
  offsetDims := [1]
  collapsedSliceDims := [0]
  operandBatchingDims := []
  startIndicesBatchingDims := []
  startIndexMap := [0]
  indexVectorDim := 1
  sliceSizes := ![1, 64]
  wf := gather_S100000x64_S2100000x1_S2100000x64_1_0_n_n_0_1_164_wf
def scatter_S100000x64_S2100000x1_S2100000x64_1_0_0_1 : ScatterDims S100000x64 S2100000x1 S2100000x64 where
  updateWindowDims := [1]
  insertedWindowDims := [0]
  scatterDimsToOperandDims := [0]
  indexVectorDim := 1
  wf := scatter_S100000x64_S2100000x1_S2100000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S2100000x1_S2100000x1_1_0_n_n_0_1_11 : GatherDims S100000x1 S2100000x1 S2100000x1 where
  offsetDims := [1]
  collapsedSliceDims := [0]
  operandBatchingDims := []
  startIndicesBatchingDims := []
  startIndexMap := [0]
  indexVectorDim := 1
  sliceSizes := ![1, 1]
  wf := gather_S100000x1_S2100000x1_S2100000x1_1_0_n_n_0_1_11_wf
def scatter_S100000x1_S2100000x1_S2100000x1_1_0_0_1 : ScatterDims S100000x1 S2100000x1 S2100000x1 where
  updateWindowDims := [1]
  insertedWindowDims := [0]
  scatterDimsToOperandDims := [0]
  indexVectorDim := 1
  wf := scatter_S100000x1_S2100000x1_S2100000x1_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v80) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v82) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v85) S10000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v97) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v98) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v99) S10000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v99) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v101) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v104) S10000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v116) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v117) S1x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v118) S10000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v118) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v120) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v123) S10000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v135) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v136) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v137) S10000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v137) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v139) S64x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v142) S10000x64.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v154) S10000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v155) S1x64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v156) S10000x64.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v156) S10000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg6) S64x1.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v157) S10000x1.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v168) S10000x1.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v169) S1x1.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v170) S10000x1.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

class Facts : Prop extends Facts₀ where

variable [Facts]
-- ==== ReferenceIdeal.lean ====
abbrev S100000x64 : Shape := ⟨2, ![100000, 64]⟩
abbrev S2x2000000 : Shape := ⟨2, ![2, 2000000]⟩
abbrev S64x64 : Shape := ⟨2, ![64, 64]⟩
abbrev S64 : Shape := ⟨1, ![64]⟩
abbrev S6x64x64 : Shape := ⟨3, ![6, 64, 64]⟩
abbrev S6x64 : Shape := ⟨2, ![6, 64]⟩
abbrev S64x1 : Shape := ⟨2, ![64, 1]⟩
abbrev S1 : Shape := ⟨1, ![1]⟩
abbrev S100000 : Shape := ⟨1, ![100000]⟩
abbrev S1x2000000 : Shape := ⟨2, ![1, 2000000]⟩
abbrev S2000000 : Shape := ⟨1, ![2000000]⟩
abbrev S2100000 : Shape := ⟨1, ![2100000]⟩
abbrev S_ : Shape := ⟨0, ![]⟩
abbrev S2100000x1 : Shape := ⟨2, ![2100000, 1]⟩
abbrev S2100000x64 : Shape := ⟨2, ![2100000, 64]⟩
abbrev S1x64 : Shape := ⟨2, ![1, 64]⟩
abbrev S1x64x64 : Shape := ⟨3, ![1, 64, 64]⟩
abbrev S100000x1 : Shape := ⟨2, ![100000, 1]⟩
abbrev S1x1 : Shape := ⟨2, ![1, 1]⟩

abbrev nBuf : Space → Nat
  | .hbm => 238
  | .vmem => 0
  | .smem => 0
  | _ => 0

abbrev hbmTy0_0 (i : Nat) : BufTy := match i % 128 with
  | 0 => ⟨S100000x64, .f32⟩
  | 1 => ⟨S2x2000000, .i32⟩
  | 2 => ⟨S64x64, .f32⟩
  | 3 => ⟨S64, .f32⟩
  | 4 => ⟨S6x64x64, .f32⟩
  | 5 => ⟨S6x64, .f32⟩
  | 6 => ⟨S64x1, .f32⟩
  | 7 => ⟨S1, .f32⟩
  | 8 => ⟨S100000, .i32⟩
  | 9 => ⟨S1x2000000, .i32⟩
  | 10 => ⟨S2000000, .i32⟩
  | 11 => ⟨S2100000, .i32⟩
  | 12 => ⟨S1x2000000, .i32⟩
  | 13 => ⟨S2000000, .i32⟩
  | 14 => ⟨S2100000, .i32⟩
  | 15 => ⟨S_, .f32⟩
  | 16 => ⟨S2100000, .f32⟩
  | 17 => ⟨S_, .f32⟩
  | 18 => ⟨S100000, .f32⟩
  | 19 => ⟨S2100000x1, .i32⟩
  | 20 => ⟨S100000, .f32⟩
  | 21 => ⟨S100000, .f32⟩
  | 22 => ⟨S_, .i32⟩
  | 23 => ⟨S2100000, .i32⟩
  | 24 => ⟨S2100000, .i1⟩
  | 25 => ⟨S_, .i32⟩
  | 26 => ⟨S2100000, .i32⟩
  | 27 => ⟨S2100000, .i32⟩
  | 28 => ⟨S2100000, .i32⟩
  | 29 => ⟨S2100000x1, .i32⟩
  | 30 => ⟨S2100000, .f32⟩
  | 31 => ⟨S_, .i32⟩
  | 32 => ⟨S2100000, .i32⟩
  | 33 => ⟨S2100000, .i1⟩
  | 34 => ⟨S_, .i32⟩
  | 35 => ⟨S2100000, .i32⟩
  | 36 => ⟨S2100000, .i32⟩
  | 37 => ⟨S2100000, .i32⟩
  | 38 => ⟨S2100000x1, .i32⟩
  | 39 => ⟨S2100000, .f32⟩
  | 40 => ⟨S2100000, .f32⟩
  | 41 => ⟨S2100000x1, .f32⟩
  | 42 => ⟨S100000x64, .f32⟩
  | 43 => ⟨S_, .i32⟩
  | 44 => ⟨S2100000, .i32⟩
  | 45 => ⟨S2100000, .i1⟩
  | 46 => ⟨S_, .i32⟩
  | 47 => ⟨S2100000, .i32⟩
  | 48 => ⟨S2100000, .i32⟩
  | 49 => ⟨S2100000, .i32⟩
  | 50 => ⟨S2100000x1, .i32⟩
  | 51 => ⟨S2100000x64, .f32⟩
  | 52 => ⟨S2100000x64, .f32⟩
  | 53 => ⟨S2100000x64, .f32⟩
  | 54 => ⟨S_, .f32⟩
  | 55 => ⟨S100000x64, .f32⟩
  | 56 => ⟨S2100000x1, .i32⟩
  | 57 => ⟨S100000x64, .f32⟩
  | 58 => ⟨S1x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S1x64x64, .f32⟩
  | 65 => ⟨S64x64, .f32⟩
  | 66 => ⟨S1x64, .f32⟩
  | 67 => ⟨S64, .f32⟩
  | 68 => ⟨S100000x64, .f32⟩
  | 69 => ⟨S_, .i32⟩
  | 70 => ⟨S2100000, .i32⟩
  | 71 => ⟨S2100000, .i1⟩
  | 72 => ⟨S_, .i32⟩
  | 73 => ⟨S2100000, .i32⟩
  | 74 => ⟨S2100000, .i32⟩
  | 75 => ⟨S2100000, .i32⟩
  | 76 => ⟨S2100000x1, .i32⟩
  | 77 => ⟨S2100000x64, .f32⟩
  | 78 => ⟨S2100000x64, .f32⟩
  | 79 => ⟨S2100000x64, .f32⟩
  | 80 => ⟨S_, .f32⟩
  | 81 => ⟨S100000x64, .f32⟩
  | 82 => ⟨S2100000x1, .i32⟩
  | 83 => ⟨S100000x64, .f32⟩
  | 84 => ⟨S1x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S1x64x64, .f32⟩
  | 91 => ⟨S64x64, .f32⟩
  | 92 => ⟨S1x64, .f32⟩
  | 93 => ⟨S64, .f32⟩
  | 94 => ⟨S100000x64, .f32⟩
  | 95 => ⟨S_, .i32⟩
  | 96 => ⟨S2100000, .i32⟩
  | 97 => ⟨S2100000, .i1⟩
  | 98 => ⟨S_, .i32⟩
  | 99 => ⟨S2100000, .i32⟩
  | 100 => ⟨S2100000, .i32⟩
  | 101 => ⟨S2100000, .i32⟩
  | 102 => ⟨S2100000x1, .i32⟩
  | 103 => ⟨S2100000x64, .f32⟩
  | 104 => ⟨S2100000x64, .f32⟩
  | 105 => ⟨S2100000x64, .f32⟩
  | 106 => ⟨S_, .f32⟩
  | 107 => ⟨S100000x64, .f32⟩
  | 108 => ⟨S2100000x1, .i32⟩
  | 109 => ⟨S100000x64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S1x64x64, .f32⟩
  | 117 => ⟨S64x64, .f32⟩
  | 118 => ⟨S1x64, .f32⟩
  | 119 => ⟨S64, .f32⟩
  | 120 => ⟨S100000x64, .f32⟩
  | 121 => ⟨S_, .i32⟩
  | 122 => ⟨S2100000, .i32⟩
  | 123 => ⟨S2100000, .i1⟩
  | 124 => ⟨S_, .i32⟩
  | 125 => ⟨S2100000, .i32⟩
  | 126 => ⟨S2100000, .i32⟩
  | 127 => ⟨S2100000, .i32⟩
  | _ => ⟨S100000x64, .f32⟩

abbrev hbmTy0_1 (i : Nat) : BufTy := match i % 128 with
  | 0 => ⟨S2100000x1, .i32⟩
  | 1 => ⟨S2100000x64, .f32⟩
  | 2 => ⟨S2100000x64, .f32⟩
  | 3 => ⟨S2100000x64, .f32⟩
  | 4 => ⟨S_, .f32⟩
  | 5 => ⟨S100000x64, .f32⟩
  | 6 => ⟨S2100000x1, .i32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S1x64x64, .f32⟩
  | 15 => ⟨S64x64, .f32⟩
  | 16 => ⟨S1x64, .f32⟩
  | 17 => ⟨S64, .f32⟩
  | 18 => ⟨S100000x64, .f32⟩
  | 19 => ⟨S_, .i32⟩
  | 20 => ⟨S2100000, .i32⟩
  | 21 => ⟨S2100000, .i1⟩
  | 22 => ⟨S_, .i32⟩
  | 23 => ⟨S2100000, .i32⟩
  | 24 => ⟨S2100000, .i32⟩
  | 25 => ⟨S2100000, .i32⟩
  | 26 => ⟨S2100000x1, .i32⟩
  | 27 => ⟨S2100000x64, .f32⟩
  | 28 => ⟨S2100000x64, .f32⟩
  | 29 => ⟨S2100000x64, .f32⟩
  | 30 => ⟨S_, .f32⟩
  | 31 => ⟨S100000x64, .f32⟩
  | 32 => ⟨S2100000x1, .i32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S1x64x64, .f32⟩
  | 41 => ⟨S64x64, .f32⟩
  | 42 => ⟨S1x64, .f32⟩
  | 43 => ⟨S64, .f32⟩
  | 44 => ⟨S100000x64, .f32⟩
  | 45 => ⟨S_, .i32⟩
  | 46 => ⟨S2100000, .i32⟩
  | 47 => ⟨S2100000, .i1⟩
  | 48 => ⟨S_, .i32⟩
  | 49 => ⟨S2100000, .i32⟩
  | 50 => ⟨S2100000, .i32⟩
  | 51 => ⟨S2100000, .i32⟩
  | 52 => ⟨S2100000x1, .i32⟩
  | 53 => ⟨S2100000x64, .f32⟩
  | 54 => ⟨S2100000x64, .f32⟩
  | 55 => ⟨S2100000x64, .f32⟩
  | 56 => ⟨S_, .f32⟩
  | 57 => ⟨S100000x64, .f32⟩
  | 58 => ⟨S2100000x1, .i32⟩
  | 59 => ⟨S100000x64, .f32⟩
  | 60 => ⟨S1x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S1x64x64, .f32⟩
  | 67 => ⟨S64x64, .f32⟩
  | 68 => ⟨S1x64, .f32⟩
  | 69 => ⟨S64, .f32⟩
  | 70 => ⟨S100000x64, .f32⟩
  | 71 => ⟨S_, .i32⟩
  | 72 => ⟨S2100000, .i32⟩
  | 73 => ⟨S2100000, .i1⟩
  | 74 => ⟨S_, .i32⟩
  | 75 => ⟨S2100000, .i32⟩
  | 76 => ⟨S2100000, .i32⟩
  | 77 => ⟨S2100000, .i32⟩
  | 78 => ⟨S2100000x1, .i32⟩
  | 79 => ⟨S2100000x64, .f32⟩
  | 80 => ⟨S2100000x64, .f32⟩
  | 81 => ⟨S2100000x64, .f32⟩
  | 82 => ⟨S_, .f32⟩
  | 83 => ⟨S100000x64, .f32⟩
  | 84 => ⟨S2100000x1, .i32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x1, .f32⟩
  | 93 => ⟨S_, .i32⟩
  | 94 => ⟨S2100000, .i32⟩
  | 95 => ⟨S2100000, .i1⟩
  | 96 => ⟨S_, .i32⟩
  | 97 => ⟨S2100000, .i32⟩
  | 98 => ⟨S2100000, .i32⟩
  | 99 => ⟨S2100000, .i32⟩
  | 100 => ⟨S2100000x1, .i32⟩
  | 101 => ⟨S2100000x1, .f32⟩
  | 102 => ⟨S2100000x1, .f32⟩
  | 103 => ⟨S_, .f32⟩
  | 104 => ⟨S100000x1, .f32⟩
  | 105 => ⟨S2100000x1, .i32⟩
  | 106 => ⟨S100000x1, .f32⟩
  | 107 => ⟨S1x1, .f32⟩
  | 108 => ⟨S100000x1, .f32⟩
  | 109 => ⟨S100000x1, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_7 : Ref sig .tc := ⟨.hbm, 69, rfl⟩
abbrev main_v50 : Ref sig .tc := ⟨.hbm, 70, rfl⟩
abbrev main_v51 : Ref sig .tc := ⟨.hbm, 71, rfl⟩
abbrev main_c_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call1_cst : Ref sig .tc := ⟨.hbm, 87, rfl⟩
abbrev main_call1_v0 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_10 : Ref sig .tc := ⟨.hbm, 95, rfl⟩
abbrev main_v71 : Ref sig .tc := ⟨.hbm, 96, rfl⟩
abbrev main_v72 : Ref sig .tc := ⟨.hbm, 97, rfl⟩
abbrev main_c_11 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_12 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call2_cst : Ref sig .tc := ⟨.hbm, 113, rfl⟩
abbrev main_call2_v0 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_13 : Ref sig .tc := ⟨.hbm, 121, rfl⟩
abbrev main_v92 : Ref sig .tc := ⟨.hbm, 122, rfl⟩
abbrev main_v93 : Ref sig .tc := ⟨.hbm, 123, rfl⟩
abbrev main_c_14 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_15 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_call3_cst : Ref sig .tc := ⟨.hbm, 139, rfl⟩
abbrev main_call3_v0 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_c_16 : Ref sig .tc := ⟨.hbm, 147, rfl⟩
abbrev main_v113 : Ref sig .tc := ⟨.hbm, 148, rfl⟩
abbrev main_v114 : Ref sig .tc := ⟨.hbm, 149, rfl⟩
abbrev main_c_17 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_18 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_call4_cst : Ref sig .tc := ⟨.hbm, 165, rfl⟩
abbrev main_call4_v0 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_c_19 : Ref sig .tc := ⟨.hbm, 173, rfl⟩
abbrev main_v134 : Ref sig .tc := ⟨.hbm, 174, rfl⟩
abbrev main_v135 : Ref sig .tc := ⟨.hbm, 175, rfl⟩
abbrev main_c_20 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_21 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_call5_cst : Ref sig .tc := ⟨.hbm, 191, rfl⟩
abbrev main_call5_v0 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_c_22 : Ref sig .tc := ⟨.hbm, 199, rfl⟩
abbrev main_v155 : Ref sig .tc := ⟨.hbm, 200, rfl⟩
abbrev main_v156 : Ref sig .tc := ⟨.hbm, 201, rfl⟩
abbrev main_c_23 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_cst_24 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_call6_cst : Ref sig .tc := ⟨.hbm, 217, rfl⟩
abbrev main_call6_v0 : Ref sig .tc := ⟨.hbm, 218, rfl⟩
abbrev main_v170 : Ref sig .tc := ⟨.hbm, 219, rfl⟩
abbrev main_v171 : Ref sig .tc := ⟨.hbm, 220, rfl⟩
abbrev main_c_25 : Ref sig .tc := ⟨.hbm, 221, rfl⟩
abbrev main_v172 : Ref sig .tc := ⟨.hbm, 222, rfl⟩
abbrev main_v173 : Ref sig .tc := ⟨.hbm, 223, rfl⟩
abbrev main_c_26 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_cst_27 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  concatenates_S2000000_S100000_S2100000_d0 : Shape.Concatenates [S2000000, S100000] S2100000 0
  slices_S2x2000000_S1x2000000_1_0 : S2x2000000.Slices ![1, 0] S1x2000000
  bcast_S_S2100000 : S_.BroadcastsInDim S2100000 (![] : Fin 0 → Fin S2100000.rank)
  bcast_S_S100000 : S_.BroadcastsInDim S100000 (![] : Fin 0 → Fin S100000.rank)
  bcast_S2100000_S2100000x1_0 : S2100000.BroadcastsInDim S2100000x1 (![0] : Fin 1 → Fin S2100000x1.rank)
  bcast_S2100000x1_S2100000x64_0_1 : S2100000x1.BroadcastsInDim S2100000x64 (![0, 1] : Fin 2 → Fin S2100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S6x64x64_S1x64x64_0_0_0 : S6x64x64.Slices ![0, 0, 0] S1x64x64
  shapeCasts_S1x64x64_S64x64 : S1x64x64.ShapeCasts S64x64
  slices_S6x64_S1x64_0_0 : S6x64.Slices ![0, 0] S1x64
  shapeCasts_S1x64_S64 : S1x64.ShapeCasts S64
  slices_S6x64x64_S1x64x64_1_0_0 : S6x64x64.Slices ![1, 0, 0] S1x64x64
  slices_S6x64_S1x64_1_0 : S6x64.Slices ![1, 0] S1x64
  slices_S6x64x64_S1x64x64_2_0_0 : S6x64x64.Slices ![2, 0, 0] S1x64x64
  slices_S6x64_S1x64_2_0 : S6x64.Slices ![2, 0] S1x64
  slices_S6x64x64_S1x64x64_3_0_0 : S6x64x64.Slices ![3, 0, 0] S1x64x64
  slices_S6x64_S1x64_3_0 : S6x64.Slices ![3, 0] S1x64
  slices_S6x64x64_S1x64x64_4_0_0 : S6x64x64.Slices ![4, 0, 0] S1x64x64
  slices_S6x64_S1x64_4_0 : S6x64.Slices ![4, 0] S1x64
  slices_S6x64x64_S1x64x64_5_0_0 : S6x64x64.Slices ![5, 0, 0] S1x64x64
  slices_S6x64_S1x64_5_0 : S6x64.Slices ![5, 0] S1x64
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S2100000x1_S2100000_n_0_0_1_wf : ScatterDims.WF S100000 S2100000x1 S2100000 [] [0] [0] 1
  gather_S100000_S2100000x1_S2100000_n_0_n_n_0_1_1_wf : GatherDims.WF S100000 S2100000x1 S2100000 [] [0] [] [0] [] 1 ![1]
  dot_S100000x64_S64x64_S100000x64_1_0_0_1_n_n_wf : DotDims.WF S100000x64 S64x64 S100000x64 [1] [0] [0] [1] [] []
  gather_S100000x64_S2100000x1_S2100000x64_1_0_n_n_0_1_164_wf : GatherDims.WF S100000x64 S2100000x1 S2100000x64 [1] [0] [] [0] [] 1 ![1, 64]
  scatter_S100000x64_S2100000x1_S2100000x64_1_0_0_1_wf : ScatterDims.WF S100000x64 S2100000x1 S2100000x64 [1] [0] [0] 1
  dot_S100000x64_S64x1_S100000x1_1_0_0_1_n_n_wf : DotDims.WF S100000x64 S64x1 S100000x1 [1] [0] [0] [1] [] []
  gather_S100000x1_S2100000x1_S2100000x1_1_0_n_n_0_1_11_wf : GatherDims.WF S100000x1 S2100000x1 S2100000x1 [1] [0] [] [0] [] 1 ![1, 1]
  scatter_S100000x1_S2100000x1_S2100000x1_1_0_0_1_wf : ScatterDims.WF S100000x1 S2100000x1 S2100000x1 [1] [0] [0] 1

variable [Facts₀]

def scatter_S100000_S2100000x1_S2100000_n_0_0_1 : ScatterDims S100000 S2100000x1 S2100000 where
  updateWindowDims := []
  insertedWindowDims := [0]
  scatterDimsToOperandDims := [0]
  indexVectorDim := 1
  wf := scatter_S100000_S2100000x1_S2100000_n_0_0_1_wf
def gather_S100000_S2100000x1_S2100000_n_0_n_n_0_1_1 : GatherDims S100000 S2100000x1 S2100000 where
  offsetDims := []
  collapsedSliceDims := [0]
  operandBatchingDims := []
  startIndicesBatchingDims := []
  startIndexMap := [0]
  indexVectorDim := 1
  sliceSizes := ![1]
  wf := gather_S100000_S2100000x1_S2100000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S2100000x1_S2100000x64_1_0_n_n_0_1_164 : GatherDims S100000x64 S2100000x1 S2100000x64 where
  offsetDims := [1]
  collapsedSliceDims := [0]
  operandBatchingDims := []
  startIndicesBatchingDims := []
  startIndexMap := [0]
  indexVectorDim := 1
  sliceSizes := ![1, 64]
  wf := gather_S100000x64_S2100000x1_S2100000x64_1_0_n_n_0_1_164_wf
def scatter_S100000x64_S2100000x1_S2100000x64_1_0_0_1 : ScatterDims S100000x64 S2100000x1 S2100000x64 where
  updateWindowDims := [1]
  insertedWindowDims := [0]
  scatterDimsToOperandDims := [0]
  indexVectorDim := 1
  wf := scatter_S100000x64_S2100000x1_S2100000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S2100000x1_S2100000x1_1_0_n_n_0_1_11 : GatherDims S100000x1 S2100000x1 S2100000x1 where
  offsetDims := [1]
  collapsedSliceDims := [0]
  operandBatchingDims := []
  startIndicesBatchingDims := []
  startIndexMap := [0]
  indexVectorDim := 1
  sliceSizes := ![1, 1]
  wf := gather_S100000x1_S2100000x1_S2100000x1_1_0_n_n_0_1_11_wf
def scatter_S100000x1_S2100000x1_S2100000x1_1_0_0_1 : ScatterDims S100000x1 S2100000x1 S2100000x1 where
  updateWindowDims := [1]
  insertedWindowDims := [0]
  scatterDimsToOperandDims := [0]
  indexVectorDim := 1
  wf := scatter_S100000x1_S2100000x1_S2100000x1_1_0_0_1_wf

class Facts : Prop extends Facts₀ where

variable [Facts]
-- ==== Proof.Mat64.lean ====
/-
  The matrix-product kernels' block payload, element by element.

  Each projection kernel loads a block `x` of 10000 rows of the activations and the whole weight matrix `w`,
  narrows both to bf16 (on extended reals a change of float format is the identity) and multiplies them into
  a zero accumulator.  On extended reals the element at row `r`, column `c` of the product is therefore
  `∑ k < 64, x[r, k] · w[k, c]`, with no accumulator term: zero plus the sum.  The same holds for the last
  layer's product with a 64 × 1 weight column.
-/
import proofs.«100903_j60189671686197_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Blocks

open Idealize.ShloMosaic Idealize.ShloMosaic.TcCoe Idealize.SL.Sem
open Cert.KernelIdeal Cert.KernelIdeal.Gen

/-! ## A 10000 × 64 block times a 64 × 64 matrix -/

theorem mm_l0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem mm_l1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem mm_r0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem mm_r1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Row `r` of the block with the contracted coordinate `k`. -/
abbrev lrow (y : S10000x64.Idx) (k : Fin 64) : S10000x64.Idx := fun a => match a with
  | ⟨0, _⟩ => ⟨(y 0).val, (y 0).isLt⟩
  | ⟨1, _⟩ => ⟨k.val, k.isLt⟩
/-- Column `c` of the weights with the contracted coordinate `k`. -/
abbrev rcol (y : S10000x64.Idx) (k : Fin 64) : S64x64.Idx := fun a => match a with
  | ⟨0, _⟩ => ⟨k.val, k.isLt⟩
  | ⟨1, _⟩ => ⟨(y 1).val, (y 1).isLt⟩

/-- The product of a block and the weights into the zero accumulator, at an element: the 64-term sum. -/
theorem matmul64_apply (x : FVec Ideal S10000x64 .bf16) (w : FVec Ideal S64x64 .bf16) (y : S10000x64.Idx) :
    matmul dot_S10000x64_S64x64_S10000x64_1_0_0_1_n_n none x w (constant S10000x64 .f32 0x00000000#32) y
      = ∑ k : Fin 64, x (lrow y k) * w (rcol y k) := by
  refine (Ideal.matmul_constant_zero_apply dot_S10000x64_S64x64_S10000x64_1_0_0_1_n_n none x w y).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx y ((ValueIdx.contrEquiv1 dot_S10000x64_S64x64_S10000x64_1_0_0_1_n_n 64 rfl rfl).symm k) = lrow y k := funext fun a => Fin.ext (by
    match a with
    | ⟨0, _⟩ => exact mm_l0 _ _
    | ⟨1, _⟩ => exact (mm_l1 _ _).trans hk)
  have er : dot_S10000x64_S64x64_S10000x64_1_0_0_1_n_n.rhsIdx y ((ValueIdx.contrEquiv1 dot_S10000x64_S64x64_S10000x64_1_0_0_1_n_n 64 rfl rfl).symm k) = rcol y k := funext fun a => Fin.ext (by
    match a with
    | ⟨0, _⟩ => exact (mm_r0 _ _).trans hk
    | ⟨1, _⟩ => exact mm_r1 _ _)
  rw [el, er]

/-- The first layer's payload (no reshaping of the loaded blocks). -/
theorem pay_first_apply (x : Vec Ideal S10000x64 .f32) (w : Vec Ideal S64x64 .f32) (y : S10000x64.Idx) :
    k0_pay1 (F := Ideal) x w y = ∑ k : Fin 64, x (lrow y k) * w (rcol y k) := by
  unfold k0_pay1
  exact matmul64_apply _ _ y

/-- A hidden layer's payload: the loaded blocks pass through shape casts to their own shapes (the identity) first. -/
theorem pay_hidden_apply (x : Vec Ideal S10000x64 .f32) (w : Vec Ideal S64x64 .f32) (y : S10000x64.Idx) :
    k2_pay1 (F := Ideal) x w y = ∑ k : Fin 64, x (lrow y k) * w (rcol y k) := by
  unfold k2_pay1
  refine (matmul64_apply _ _ y).trans ?_
  refine Finset.sum_congr rfl fun k _ => ?_
  show shapeCast S10000x64 x shapeCasts_S10000x64_S10000x64 (lrow y k) * shapeCast S64x64 w shapeCasts_S64x64_S64x64 (rcol y k) = _
  rw [shapeCast_self, shapeCast_self]

/-! ## A 10000 × 64 block times the 64 × 1 output column -/

theorem mo_l0 (i : S10000x1.Idx) (q : dot_S10000x64_S64x1_S10000x1_1_0_0_1_n_n.contr.Idx) :
    (dot_S10000x64_S64x1_S10000x1_1_0_0_1_n_n.lhsIdx i q 0).val = (i 0).val := by
  unfold DotDims.lhsIdx
  rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
  rfl
theorem mo_l1 (i : S10000x1.Idx) (q : dot_S10000x64_S64x1_S10000x1_1_0_0_1_n_n.contr.Idx) :
    (dot_S10000x64_S64x1_S10000x1_1_0_0_1_n_n.lhsIdx i q 1).val = (q ⟨0, by decide⟩).val :=
  dot_S10000x64_S64x1_S10000x1_1_0_0_1_n_n.lhsIdx_val_of_single rfl i q
theorem mo_r0 (i : S10000x1.Idx) (q : dot_S10000x64_S64x1_S10000x1_1_0_0_1_n_n.contr.Idx) :
    (dot_S10000x64_S64x1_S10000x1_1_0_0_1_n_n.rhsIdx i q 0).val = (q ⟨0, by decide⟩).val :=
  dot_S10000x64_S64x1_S10000x1_1_0_0_1_n_n.rhsIdx_val_of_single rfl i q
theorem mo_r1 (i : S10000x1.Idx) (q : dot_S10000x64_S64x1_S10000x1_1_0_0_1_n_n.contr.Idx) :
    (dot_S10000x64_S64x1_S10000x1_1_0_0_1_n_n.rhsIdx i q 1).val = (i 1).val := by
  unfold DotDims.rhsIdx
  rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
  rfl

abbrev lrow1 (y : S10000x1.Idx) (k : Fin 64) : S10000x64.Idx := fun a => match a with
  | ⟨0, _⟩ => ⟨(y 0).val, (y 0).isLt⟩
  | ⟨1, _⟩ => ⟨k.val, k.isLt⟩
abbrev rcol1 (y : S10000x1.Idx) (k : Fin 64) : S64x1.Idx := fun a => match a with
  | ⟨0, _⟩ => ⟨k.val, k.isLt⟩
  | ⟨1, _⟩ => ⟨(y 1).val, (y 1).isLt⟩

theorem matmul1_apply (x : FVec Ideal S10000x64 .bf16) (w : FVec Ideal S64x1 .bf16) (y : S10000x1.Idx) :
    matmul dot_S10000x64_S64x1_S10000x1_1_0_0_1_n_n none x w (constant S10000x1 .f32 0x00000000#32) y
      = ∑ k : Fin 64, x (lrow1 y k) * w (rcol1 y k) := by
  refine (Ideal.matmul_constant_zero_apply dot_S10000x64_S64x1_S10000x1_1_0_0_1_n_n none x w y).trans ?_
  rw [← Equiv.sum_comp (ValueIdx.contrEquiv1 dot_S10000x64_S64x1_S10000x1_1_0_0_1_n_n 64 rfl rfl).symm]
  refine Finset.sum_congr rfl fun k _ => ?_
  have hk := ValueIdx.contrEquiv1_symm_val dot_S10000x64_S64x1_S10000x1_1_0_0_1_n_n 64 rfl rfl k
  have el : dot_S10000x64_S64x1_S10000x1_1_0_0_1_n_n.lhsIdx y ((ValueIdx.contrEquiv1 dot_S10000x64_S64x1_S10000x1_1_0_0_1_n_n 64 rfl rfl).symm k) = lrow1 y k := funext fun a => Fin.ext (by
    match a with
    | ⟨0, _⟩ => exact mo_l0 _ _
    | ⟨1, _⟩ => exact (mo_l1 _ _).trans hk)
  have er : dot_S10000x64_S64x1_S10000x1_1_0_0_1_n_n.rhsIdx y ((ValueIdx.contrEquiv1 dot_S10000x64_S64x1_S10000x1_1_0_0_1_n_n 64 rfl rfl).symm k) = rcol1 y k := funext fun a => Fin.ext (by
    match a with
    | ⟨0, _⟩ => exact (mo_r0 _ _).trans hk
    | ⟨1, _⟩ => exact mo_r1 _ _)
  rw [el, er]

/-- The output layer's payload. -/
theorem pay_last_apply (x : Vec Ideal S10000x64 .f32) (w : Vec Ideal S64x1 .f32) (y : S10000x1.Idx) :
    k14_pay1 (F := Ideal) x w y = ∑ k : Fin 64, x (lrow1 y k) * w (rcol1 y k) := by
  unfold k14_pay1
  refine (matmul1_apply _ _ y).trans ?_
  refine Finset.sum_congr rfl fun k _ => ?_
  show shapeCast S10000x64 x shapeCasts_S10000x64_S10000x64 (lrow1 y k) * w (rcol1 y k) = _
  rw [shapeCast_self]

end Cert.KernelIdeal.Blocks

end
-- ==== Proof.BiasAct.lean ====
/-
  The bias kernels' block payload, element by element.

  A hidden layer's bias kernel loads a block `a` of 10000 rows of the aggregated messages and the bias as one
  row `b` of 64 entries, broadcasts the row down the block, adds, and takes the maximum with a splat zero:
  `max (a[r, c] + b[0, c]) 0`.  The last layer's has one column and no maximum: `a[r, 0] + b[0, 0]`.
  The shape casts in the body are casts of a shape to itself.
-/
import proofs.«100903_j60189671686197_1_alg».proof.Proof.Gen.KernelIdeal.Skeleton
import Idealize.ShloMosaic.Lib.ValueIdx
import Idealize.ShloMosaic.Lib.Pipeline.Value

noncomputable section

namespace Cert.KernelIdeal.Blocks

open Idealize.ShloMosaic Idealize.ShloMosaic.TcCoe Idealize.SL.Sem
open Cert.KernelIdeal Cert.KernelIdeal.Gen

/-- The bias row's entry above column `c` of the block. -/
abbrev brow (y : S10000x64.Idx) : S1x64.Idx := fun a => match a with
  | ⟨0, _⟩ => ⟨0, Nat.one_pos⟩
  | ⟨1, _⟩ => ⟨(y 1).val, (y 1).isLt⟩

theorem bcast_row_apply (b : FVec Ideal S1x64 .f32) (y : S10000x64.Idx) :
    broadcastTo S10000x64 b broadcasts_S1x64_S10000x64 y = b (brow y) :=
  broadcastTo_apply b broadcasts_S1x64_S10000x64 y (brow y) (fun a => match a with
    | ⟨0, _⟩ => by show 0 = if (1 : Nat) = 1 then 0 else _; rw [if_pos rfl]
    | ⟨1, _⟩ => by show (y 1).val = if (64 : Nat) = 1 then 0 else (y 1).val; rw [if_neg (by decide)])

/-- A hidden layer's bias payload at an element. -/
theorem pay_bias_relu_apply (a : Vec Ideal S10000x64 .f32) (b : Vec Ideal S1x64 .f32) (y : S10000x64.Idx) :
    k1_pay1 (F := Ideal) a b y = max (a y + b (brow y)) (Ideal.ofBits .f32 0x00000000#32) := by
  unfold k1_pay1
  show max (shapeCast S10000x64 a shapeCasts_S10000x64_S10000x64 y
      + broadcastTo S10000x64 (shapeCast S1x64 b shapeCasts_S1x64_S1x64) broadcasts_S1x64_S10000x64 y) _ = _
  rw [shapeCast_self, shapeCast_self, bcast_row_apply]
  rfl

/-- The single bias entry. -/
abbrev bone (y : S10000x1.Idx) : S1x1.Idx := fun a => match a with
  | ⟨0, _⟩ => ⟨0, Nat.one_pos⟩
  | ⟨1, _⟩ => ⟨0, Nat.one_pos⟩

theorem bcast_one_apply (b : FVec Ideal S1x1 .f32) (y : S10000x1.Idx) :
    broadcastTo S10000x1 b broadcasts_S1x1_S10000x1 y = b (bone y) :=
  broadcastTo_apply b broadcasts_S1x1_S10000x1 y (bone y) (fun a => match a with
    | ⟨0, _⟩ => by show 0 = if (1 : Nat) = 1 then 0 else _; rw [if_pos rfl]
    | ⟨1, _⟩ => by show 0 = if (1 : Nat) = 1 then 0 else _; rw [if_pos rfl])

/-- The last layer's bias payload at an element. -/
theorem pay_bias_out_apply (a : Vec Ideal S10000x1 .f32) (b : Vec Ideal S1x1 .f32) (y : S10000x1.Idx) :
    k15_pay1 (F := Ideal) a b y = a y + b (bone y) := by
  unfold k15_pay1
  show shapeCast S10000x1 a shapeCasts_S10000x1_S10000x1 y
      + broadcastTo S10000x1 (shapeCast S1x1 b shapeCasts_S1x1_S1x1) broadcasts_S1x1_S10000x1 y = _
  rw [shapeCast_self, shapeCast_self, bcast_one_apply]

end Cert.KernelIdeal.Blocks

end
-- ==== Proof.RefLayers.lean ====
/-
  The reference's layers as functions of whole arrays.

  Every graph-convolution layer of the reference is: project the node features by a weight matrix, gather
  the projected rows along the edges, scale by the edge norms, add them up per destination node, add the bias
  and (except in the last layer) take the maximum with zero.  The gather, scaling and scatter-add are the same
  host operations in both programs; the two pieces the kernel computes in its own pipelined regions are the
  projection and the bias-and-maximum.  Here those two pieces of the reference are named as functions of ANY
  arrays, and read at an index on extended reals:

    proj h w [n, c]      = ∑ k < 64, h[n, k] · w[k, c]          (64 output columns)
    projOut h w [n, 0]   = ∑ k < 64, h[n, k] · w[k, 0]          (the last layer's single column)
    biasRelu a b [n, c]  = max (a[n, c] + b[0, c]) 0
    biasOut a b [n, 0]   = a[n, 0] + b[0, 0]

  and a bias vector reshaped to one row is the same row as the vector broadcast along a new leading axis.
-/
import proofs.«100903_j60189671686197_1_alg».proof.Proof.Gen.ReferenceIdeal.Read

noncomputable section

namespace Cert.ReferenceIdeal.Layers

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The projections -/

/-- A layer's projection of the node features by a 64 × 64 weight matrix. -/
def proj (h : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none h w

theorem proj_apply (h : (⟨S100000x64, .f32⟩ : BufTy).Contents (Elt Ideal)) (w : (⟨S64x64, .f32⟩ : BufTy).Contents (Elt Ideal)) (i : S100000x64.Idx) :
    proj (F := Ideal) h w i = ∑ k : Fin 64, h (lidx_main_v28 i k) * w (ridx_main_v28 i k) :=
  val_main_v28_apply h w i

/-- The last layer's projection onto a single column. -/
def projOut (h : (⟨S100000x64, .f32⟩ : BufTy).Contents (Elt F)) (w : (⟨S64x1, .f32⟩ : BufTy).Contents (Elt F)) :
    (⟨S100000x1, .f32⟩ : BufTy).Contents (Elt F) :=
  Host.dotGeneral dot_S100000x64_S64x1_S100000x1_1_0_0_1_n_n none h w

theorem projOut_apply (h : (⟨S100000x64, .f32⟩ : BufTy).Contents (Elt Ideal)) (w : (⟨S64x1, .f32⟩ : BufTy).Contents (Elt Ideal)) (i : S100000x1.Idx) :
    projOut (F := Ideal) h w i = ∑ k : Fin 64, h (lidx_main_v171 i k) * w (ridx_main_v171 i k) := by
  unfold projOut
  simp only [Host.dotGeneral]
  rw [Ideal.dotGeneral_apply, ← Equiv.sum_comp (ValueIdx.contrEquiv1 dot_S100000x64_S64x1_S100000x1_1_0_0_1_n_n 64 rfl rfl).symm]
  refine Finset.sum_congr rfl fun k _ => ?_
  have hk := ValueIdx.contrEquiv1_symm_val dot_S100000x64_S64x1_S100000x1_1_0_0_1_n_n 64 rfl rfl k
  have el : dot_S100000x64_S64x1_S100000x1_1_0_0_1_n_n.lhsIdx i ((ValueIdx.contrEquiv1 dot_S100000x64_S64x1_S100000x1_1_0_0_1_n_n 64 rfl rfl).symm k) = lidx_main_v171 i k := funext fun a => Fin.ext (by
    match a with
    | ⟨0, _⟩ => exact lhs_main_v171_0 _ _
    | ⟨1, _⟩ => exact (lhs_main_v171_1 _ _).trans hk)
  have er : dot_S100000x64_S64x1_S100000x1_1_0_0_1_n_n.rhsIdx i ((ValueIdx.contrEquiv1 dot_S100000x64_S64x1_S100000x1_1_0_0_1_n_n 64 rfl rfl).symm k) = ridx_main_v171 i k := funext fun a => Fin.ext (by
    match a with
    | ⟨0, _⟩ => exact (rhs_main_v171_0 _ _).trans hk
    | ⟨1, _⟩ => exact rhs_main_v171_1 _ _)
  rw [el, er]

/-! ## Bias and maximum with zero -/

/-- A hidden layer's tail: add the bias row to every node's row, then the maximum with zero. -/
def biasRelu (a : (⟨S100000x64, .f32⟩ : BufTy).Contents (Elt F)) (b : (⟨S1x64, .f32⟩ : BufTy).Contents (Elt F)) :
    (⟨S100000x64, .f32⟩ : BufTy).Contents (Elt F) :=
  maximumf (addf a (broadcastInDim S100000x64 ![0, 1] bcast_S1x64_S100000x64_0_1 b))
    (broadcastInDim S100000x64 ![] bcast_S_S100000x64 (constant S_ .f32 0x00000000#32))

theorem biasRelu_apply (a : (⟨S100000x64, .f32⟩ : BufTy).Contents (Elt Ideal)) (b : (⟨S1x64, .f32⟩ : BufTy).Contents (Elt Ideal)) (i : S100000x64.Idx) :
    biasRelu (F := Ideal) a b i = max (a i + b (idx_main_v42 i)) (Ideal.ofBits .f32 0x00000000#32) := by
  unfold biasRelu
  show max (a i + broadcastInDim S100000x64 ![0, 1] bcast_S1x64_S100000x64_0_1 b i)
    (broadcastInDim S100000x64 ![] bcast_S_S100000x64 (constant (F := Ideal) S_ .f32 0x00000000#32) i) = _
  rw [broadcastInDim_apply _ bcast_S1x64_S100000x64_0_1 b i (idx_main_v42 i) (fun a => match a with
      | ⟨0, _⟩ => by show 0 = if (1 : Nat) = 1 then 0 else (i 0).val; rw [if_pos rfl]
      | ⟨1, _⟩ => by show (i 1).val = if (64 : Nat) = 1 then 0 else (i 1).val; rw [if_neg (by decide)]),
    broadcastInDim_apply _ bcast_S_S100000x64 (constant (F := Ideal) S_ .f32 0x00000000#32) i (idx_main_v38 i) (fun a => a.elim0)]
  rfl

/-- The last layer's tail: add the single bias entry to every node's entry. -/
def biasOut (a : (⟨S100000x1, .f32⟩ : BufTy).Contents (Elt F)) (b : (⟨S1x1, .f32⟩ : BufTy).Contents (Elt F)) :
    (⟨S100000x1, .f32⟩ : BufTy).Contents (Elt F) :=
  addf a (broadcastInDim S100000x1 ![0, 1] bcast_S1x1_S100000x1_0_1 b)

theorem biasOut_apply (a : (⟨S100000x1, .f32⟩ : BufTy).Contents (Elt Ideal)) (b : (⟨S1x1, .f32⟩ : BufTy).Contents (Elt Ideal)) (i : S100000x1.Idx) :
    biasOut (F := Ideal) a b i = a i + b (idx_main_v184 i) := by
  unfold biasOut
  show a i + broadcastInDim S100000x1 ![0, 1] bcast_S1x1_S100000x1_0_1 b i = _
  rw [broadcastInDim_apply _ bcast_S1x1_S100000x1_0_1 b i (idx_main_v184 i) (fun a => match a with
      | ⟨0, _⟩ => by show 0 = if (1 : Nat) = 1 then 0 else (i 0).val; rw [if_pos rfl]
      | ⟨1, _⟩ => by show 0 = if (1 : Nat) = 1 then 0 else (i 1).val; rw [if_pos rfl])]

/-! ## A bias vector as one row: reshaped, or broadcast along a new leading axis -/

theorem row_of_reshape (b : (⟨S64, .f32⟩ : BufTy).Contents (Elt F)) (h : S64.ShapeCasts S1x64) :
    shapeCast S1x64 b h = broadcastInDim S1x64 ![1] bcast_S64_S1x64_1 b := by
  funext i
  rw [broadcastInDim_apply _ bcast_S64_S1x64_1 b i (idx_main_v41 i) (fun a => match a with
      | ⟨0, _⟩ => by show (i 1).val = if (64 : Nat) = 1 then 0 else (i 1).val; rw [if_neg (by decide)])]
  exact shapeCast_apply b h i (idx_main_v41 i)
    (by rewrite [Shape.rowMajor_val_one, Shape.rowMajor_val_two]; have h0 : (i 0).val < 1 := (i 0).isLt; show (i 1).val = (i 0).val * 64 + (i 1).val; omega)

theorem entry_of_reshape (b : (⟨S1, .f32⟩ : BufTy).Contents (Elt F)) (h : S1.ShapeCasts S1x1) :
    shapeCast S1x1 b h = broadcastInDim S1x1 ![1] bcast_S1_S1x1_1 b := by
  funext i
  rw [broadcastInDim_apply _ bcast_S1_S1x1_1 b i (idx_main_v183 i) (fun a => match a with
      | ⟨0, _⟩ => by show 0 = if (1 : Nat) = 1 then 0 else (i 1).val; rw [if_pos rfl])]
  exact shapeCast_apply b h i (idx_main_v183 i)
    (by rewrite [Shape.rowMajor_val_one, Shape.rowMajor_val_two]; have h0 : (i 0).val < 1 := (i 0).isLt; have h1 : (i 1).val < 1 := (i 1).isLt; show 0 = (i 0).val * 1 + (i 1).val; omega)

end Cert.ReferenceIdeal.Layers

end
-- ==== Proof.RegCommon.lean ====
/-
  Two one-line facts shared by the regions' whole-array lemmas: the zero offset of a whole-buffer access, and that
  equal indices give equal products and equal sums of two arrays' elements.
-/
import Idealize.ShloMosaic.Lib.Pipeline.Value
import Idealize.ShloMosaic.PureOps.Ideal

noncomputable section

namespace Cert.KernelIdeal.Regions

open Idealize.ShloMosaic

theorem hz2 : (![0, 0] : Fin 2 → Nat) = fun _ => 0 := funext fun a => by fin_cases a <;> rfl

theorem mul_at {s s' : Shape} (A : FVec Ideal s .f32) (B : FVec Ideal s' .f32) {p p' : s.Idx} {q q' : s'.Idx}
    (hp : p = p') (hq : q = q') : A p * B q = A p' * B q' := by rw [hp, hq]

theorem add_at {s s' : Shape} (A : FVec Ideal s .f32) (B : FVec Ideal s' .f32) {p p' : s.Idx} {q q' : s'.Idx}
    (hp : p = p') (hq : q = q') : A p + B q = A p' + B q' := by rw [hp, hq]

theorem max_add_at {s s' : Shape} (A : FVec Ideal s .f32) (B : FVec Ideal s' .f32) (z : EReal) {p p' : s.Idx} {q q' : s'.Idx}
    (hp : p = p') (hq : q = q') : max (A p + B q) z = max (A p' + B q') z := by rw [hp, hq]

end Cert.KernelIdeal.Regions

end
-- ==== Proof.RegA.lean ====
/-
  Regions 0–3 of the idealized kernel program, each read as a whole array.

  Every region runs its kernel at ten grid points.  Point `t` reads rows 10000 t … 10000 t + 9999 of the region's
  first operand and the whole of its second, and writes the same rows of the result.  A projection region's
  element [r, c] at point `t` is `∑ k < 64, x[10000 t + r, k] · w[k, c]`; a bias region's is
  `max (a[10000 t + r, c] + b[0, c]) 0` (the last one, of a single column, `a[10000 t + r, 0] + b[0, 0]`).  Each is the
  element [10000 t + r, c] of one function of the two WHOLE operand arrays — the reference's projection, or its
  bias-and-maximum — and the ten blocks tile the result array.  So each region leaves its result array holding that
  function of the two arrays it found on entry, whatever they are.
-/
import proofs.«100903_j60189671686197_1_alg».proof.Proof.Gen.KernelIdeal.Frame
import proofs.«100903_j60189671686197_1_alg».proof.Proof.Mat64
import proofs.«100903_j60189671686197_1_alg».proof.Proof.BiasAct
import proofs.«100903_j60189671686197_1_alg».proof.Proof.RefLayers
import proofs.«100903_j60189671686197_1_alg».proof.Proof.RegCommon
import Idealize.ShloMosaic.Lib.Pipeline.Value

set_option maxRecDepth 16384

noncomputable section

namespace Cert.KernelIdeal.Regions

open Idealize.ShloMosaic Idealize.ShloMosaic.TcCoe Idealize.SL.Sem
open Idealize.ShloMosaic.Pipeline (Dat)
open Cert.KernelIdeal Cert.KernelIdeal.Gen Cert.KernelIdeal.Blocks
open Cert.ReferenceIdeal.Read (lidx_main_v28 ridx_main_v28 lidx_main_v171 ridx_main_v171 idx_main_v42 idx_main_v184)

/-! ## Region 0: a projection by a 64 × 64 weight matrix -/

section Region0
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What grid point `t` writes back is block `t` of the whole projection of the two arrays the region finds. -/
theorem flushed0 (c : Dev nD) (t : Fin cfg0.N) :
    (dat0 V c).flushed 2 t = ((cfg0.win 2).blk t).view.read (Elt Ideal)
      (Cert.ReferenceIdeal.Layers.proj (F := Ideal) (V c (Pipeline.arrRef spec0 0)) (V c (Pipeline.arrRef spec0 1))) := by
  show (cfg0.win 2).cut (grid0.coords t) ((dat0 V c).after 2 t) = _
  rw [after0_2]
  unfold out0_2
  rw [View.canon_unit_zero hz2]
  simp only [View.ld_unit_zero (S := S10000x64) hz2, View.ld_unit_zero (S := S64x64) hz2]
  obtain ⟨e0, e1, e2, e3, e4, e5⟩ := idx0 t
  funext j
  refine (pay_first_apply (iblk0 V c 0 t) (iblk0 V c 1 t) j).trans ?_
  refine Eq.trans ?_ (Cert.ReferenceIdeal.Layers.proj_apply (V c (Pipeline.arrRef spec0 0)) (V c (Pipeline.arrRef spec0 1)) (((cfg0.win 2).blk t).view.emb j)).symm
  refine Finset.sum_congr rfl fun k _ => ?_
  have h0 : ((cfg0.win 0).blk t).view.emb (lrow j k) = lidx_main_v28 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : ((cfg0.win 1).blk t).view.emb (rcol j k) = ridx_main_v28 (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  exact mul_at (s := S100000x64) (s' := S64x64) (V c (Pipeline.arrRef spec0 0)) (V c (Pipeline.arrRef spec0 1)) h0 h1

/-- An index of the result array lies in point `t`'s block iff each coordinate lies in the block's range. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v28).slice (win0_2.rect t)).set ↔ _
  rw [View.set_slice_whole, Rect.mem_set_unit]
  exact Iff.rfl

/-- Row `n` is written by grid point `n / 10000`: the ten blocks tile the array. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have ht : (i 0).val / 10000 < 10 := by omega
  refine ⟨⟨(i 0).val / 10000, ht⟩, flush0_2 _, ?_⟩
  rw [mem_blk0]
  obtain ⟨e0, e1, e2, e3, e4, e5⟩ := idx0 ⟨(i 0).val / 10000, ht⟩
  have e5' : win0_2.index ⟨(i 0).val / 10000, ht⟩ (0 : Fin 2) = (i 0).val / 10000 := e5
  intro a
  match a with
  | ⟨0, _⟩ => show win0_2.index ⟨(i 0).val / 10000, ht⟩ (0 : Fin 2) * 10000 ≤ (i 0).val ∧ (i 0).val < win0_2.index ⟨(i 0).val / 10000, ht⟩ (0 : Fin 2) * 10000 + 10000; omega
  | ⟨1, _⟩ => show win0_2.index ⟨(i 0).val / 10000, ht⟩ (1 : Fin 2) * 64 ≤ (i 1).val ∧ (i 1).val < win0_2.index ⟨(i 0).val / 10000, ht⟩ (1 : Fin 2) * 64 + 64; omega

/-- The region leaves its result array holding the whole projection of the two arrays it found. -/
theorem final0 (c : Dev nD) : (dat0 V c).arrAt 2 cfg0.N
    = Cert.ReferenceIdeal.Layers.proj (F := Ideal) (V c (Pipeline.arrRef spec0 0)) (V c (Pipeline.arrRef spec0 1)) :=
  (dat0 V c).arrAt_eq_of_cover 2 _ (fun t _ => flushed0 V c t) cover0

end Region0

/-! ## Region 1: a hidden layer's bias and maximum with zero -/

section Region1
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) = t.val :=
  (by decide +kernel : ∀ t : Fin grid1.N, _)

/-- What grid point `t` writes back is block `t` of the whole bias-and-maximum of the two arrays the region finds. -/
theorem flushed1 (c : Dev nD) (t : Fin cfg1.N) :
    (dat1 V c).flushed 2 t = ((cfg1.win 2).blk t).view.read (Elt Ideal)
      (Cert.ReferenceIdeal.Layers.biasRelu (F := Ideal) (V c (Pipeline.arrRef spec1 0)) (V c (Pipeline.arrRef spec1 1))) := by
  show (cfg1.win 2).cut (grid1.coords t) ((dat1 V c).after 2 t) = _
  rw [after1_2]
  unfold out1_2
  rw [View.canon_unit_zero hz2]
  simp only [View.ld_unit_zero (S := S10000x64) hz2, View.ld_unit_zero (S := S1x64) hz2]
  obtain ⟨e0, e1, e2, e3, e4, e5⟩ := idx1 t
  funext j
  refine (pay_bias_relu_apply (iblk1 V c 0 t) (iblk1 V c 1 t) j).trans ?_
  refine Eq.trans ?_ (Cert.ReferenceIdeal.Layers.biasRelu_apply (V c (Pipeline.arrRef spec1 0)) (V c (Pipeline.arrRef spec1 1)) (((cfg1.win 2).blk t).view.emb j)).symm
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (brow j) = idx_main_v42 (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  exact max_add_at (s := S100000x64) (s' := S1x64) (V c (Pipeline.arrRef spec1 0)) (V c (Pipeline.arrRef spec1 1)) _ h0 h1

/-- An index of the result array lies in point `t`'s block iff each coordinate lies in the block's range. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v42).slice (win1_2.rect t)).set ↔ _
  rw [View.set_slice_whole, Rect.mem_set_unit]
  exact Iff.rfl

/-- Row `n` is written by grid point `n / 10000`: the ten blocks tile the array. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have ht : (i 0).val / 10000 < 10 := by omega
  refine ⟨⟨(i 0).val / 10000, ht⟩, flush1_2 _, ?_⟩
  rw [mem_blk1]
  obtain ⟨e0, e1, e2, e3, e4, e5⟩ := idx1 ⟨(i 0).val / 10000, ht⟩
  have e5' : win1_2.index ⟨(i 0).val / 10000, ht⟩ (0 : Fin 2) = (i 0).val / 10000 := e5
  intro a
  match a with
  | ⟨0, _⟩ => show win1_2.index ⟨(i 0).val / 10000, ht⟩ (0 : Fin 2) * 10000 ≤ (i 0).val ∧ (i 0).val < win1_2.index ⟨(i 0).val / 10000, ht⟩ (0 : Fin 2) * 10000 + 10000; omega
  | ⟨1, _⟩ => show win1_2.index ⟨(i 0).val / 10000, ht⟩ (1 : Fin 2) * 64 ≤ (i 1).val ∧ (i 1).val < win1_2.index ⟨(i 0).val / 10000, ht⟩ (1 : Fin 2) * 64 + 64; omega

/-- The region leaves its result array holding the whole bias-and-maximum of the two arrays it found. -/
theorem final1 (c : Dev nD) : (dat1 V c).arrAt 2 cfg1.N
    = Cert.ReferenceIdeal.Layers.biasRelu (F := Ideal) (V c (Pipeline.arrRef spec1 0)) (V c (Pipeline.arrRef spec1 1)) :=
  (dat1 V c).arrAt_eq_of_cover 2 _ (fun t _ => flushed1 V c t) cover1

end Region1

/-! ## Region 2: a projection by a 64 × 64 weight matrix -/

section Region2
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- What grid point `t` writes back is block `t` of the whole projection of the two arrays the region finds. -/
theorem flushed2 (c : Dev nD) (t : Fin cfg2.N) :
    (dat2 V c).flushed 2 t = ((cfg2.win 2).blk t).view.read (Elt Ideal)
      (Cert.ReferenceIdeal.Layers.proj (F := Ideal) (V c (Pipeline.arrRef spec2 0)) (V c (Pipeline.arrRef spec2 1))) := by
  show (cfg2.win 2).cut (grid2.coords t) ((dat2 V c).after 2 t) = _
  rw [after2_2]
  unfold out2_2
  rw [View.canon_unit_zero hz2]
  simp only [View.ld_unit_zero (S := S10000x64) hz2, View.ld_unit_zero (S := S64x64) hz2]
  obtain ⟨e0, e1, e2, e3, e4, e5⟩ := idx2 t
  funext j
  refine (pay_hidden_apply (iblk2 V c 0 t) (iblk2 V c 1 t) j).trans ?_
  refine Eq.trans ?_ (Cert.ReferenceIdeal.Layers.proj_apply (V c (Pipeline.arrRef spec2 0)) (V c (Pipeline.arrRef spec2 1)) (((cfg2.win 2).blk t).view.emb j)).symm
  refine Finset.sum_congr rfl fun k _ => ?_
  have h0 : ((cfg2.win 0).blk t).view.emb (lrow j k) = lidx_main_v28 (((cfg2.win 2).blk t).view.emb j) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have h1 : ((cfg2.win 1).blk t).view.emb (rcol j k) = ridx_main_v28 (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  exact mul_at (s := S100000x64) (s' := S64x64) (V c (Pipeline.arrRef spec2 0)) (V c (Pipeline.arrRef spec2 1)) h0 h1

/-- An index of the result array lies in point `t`'s block iff each coordinate lies in the block's range. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v47).slice (win2_2.rect t)).set ↔ _
  rw [View.set_slice_whole, Rect.mem_set_unit]
  exact Iff.rfl

/-- Row `n` is written by grid point `n / 10000`: the ten blocks tile the array. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 10000 < 10 := by omega
  refine ⟨⟨(i 0).val / 10000, ht⟩, flush2_2 _, ?_⟩
  rw [mem_blk2]
  obtain ⟨e0, e1, e2, e3, e4, e5⟩ := idx2 ⟨(i 0).val / 10000, ht⟩
  have e5' : win2_2.index ⟨(i 0).val / 10000, ht⟩ (0 : Fin 2) = (i 0).val / 10000 := e5
  intro a
  match a with
  | ⟨0, _⟩ => show win2_2.index ⟨(i 0).val / 10000, ht⟩ (0 : Fin 2) * 10000 ≤ (i 0).val ∧ (i 0).val < win2_2.index ⟨(i 0).val / 10000, ht⟩ (0 : Fin 2) * 10000 + 10000; omega
  | ⟨1, _⟩ => show win2_2.index ⟨(i 0).val / 10000, ht⟩ (1 : Fin 2) * 64 ≤ (i 1).val ∧ (i 1).val < win2_2.index ⟨(i 0).val / 10000, ht⟩ (1 : Fin 2) * 64 + 64; omega

/-- The region leaves its result array holding the whole projection of the two arrays it found. -/
theorem final2 (c : Dev nD) : (dat2 V c).arrAt 2 cfg2.N
    = Cert.ReferenceIdeal.Layers.proj (F := Ideal) (V c (Pipeline.arrRef spec2 0)) (V c (Pipeline.arrRef spec2 1)) :=
  (dat2 V c).arrAt_eq_of_cover 2 _ (fun t _ => flushed2 V c t) cover2

end Region2

/-! ## Region 3: a hidden layer's bias and maximum with zero -/

section Region3
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx3 : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) = t.val :=
  (by decide +kernel : ∀ t : Fin grid3.N, _)

/-- What grid point `t` writes back is block `t` of the whole bias-and-maximum of the two arrays the region finds. -/
theorem flushed3 (c : Dev nD) (t : Fin cfg3.N) :
    (dat3 V c).flushed 2 t = ((cfg3.win 2).blk t).view.read (Elt Ideal)
      (Cert.ReferenceIdeal.Layers.biasRelu (F := Ideal) (V c (Pipeline.arrRef spec3 0)) (V c (Pipeline.arrRef spec3 1))) := by
  show (cfg3.win 2).cut (grid3.coords t) ((dat3 V c).after 2 t) = _
  rw [after3_2]
  unfold out3_2
  rw [View.canon_unit_zero hz2]
  simp only [View.ld_unit_zero (S := S10000x64) hz2, View.ld_unit_zero (S := S1x64) hz2]
  obtain ⟨e0, e1, e2, e3, e4, e5⟩ := idx3 t
  funext j
  refine (pay_bias_relu_apply (iblk3 V c 0 t) (iblk3 V c 1 t) j).trans ?_
  refine Eq.trans ?_ (Cert.ReferenceIdeal.Layers.biasRelu_apply (V c (Pipeline.arrRef spec3 0)) (V c (Pipeline.arrRef spec3 1)) (((cfg3.win 2).blk t).view.emb j)).symm
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (brow j) = idx_main_v42 (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  exact max_add_at (s := S100000x64) (s' := S1x64) (V c (Pipeline.arrRef spec3 0)) (V c (Pipeline.arrRef spec3 1)) _ h0 h1

/-- An index of the result array lies in point `t`'s block iff each coordinate lies in the block's range. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- Row `n` is written by grid point `n / 10000`: the ten blocks tile the array. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have ht : (i 0).val / 10000 < 10 := by omega
  refine ⟨⟨(i 0).val / 10000, ht⟩, flush3_2 _, ?_⟩
  rw [mem_blk3]
  obtain ⟨e0, e1, e2, e3, e4, e5⟩ := idx3 ⟨(i 0).val / 10000, ht⟩
  have e5' : win3_2.index ⟨(i 0).val / 10000, ht⟩ (0 : Fin 2) = (i 0).val / 10000 := e5
  intro a
  match a with
  | ⟨0, _⟩ => show win3_2.index ⟨(i 0).val / 10000, ht⟩ (0 : Fin 2) * 10000 ≤ (i 0).val ∧ (i 0).val < win3_2.index ⟨(i 0).val / 10000, ht⟩ (0 : Fin 2) * 10000 + 10000; omega
  | ⟨1, _⟩ => show win3_2.index ⟨(i 0).val / 10000, ht⟩ (1 : Fin 2) * 64 ≤ (i 1).val ∧ (i 1).val < win3_2.index ⟨(i 0).val / 10000, ht⟩ (1 : Fin 2) * 64 + 64; omega

/-- The region leaves its result array holding the whole bias-and-maximum of the two arrays it found. -/
theorem final3 (c : Dev nD) : (dat3 V c).arrAt 2 cfg3.N
    = Cert.ReferenceIdeal.Layers.biasRelu (F := Ideal) (V c (Pipeline.arrRef spec3 0)) (V c (Pipeline.arrRef spec3 1)) :=
  (dat3 V c).arrAt_eq_of_cover 2 _ (fun t _ => flushed3 V c t) cover3

end Region3

end Cert.KernelIdeal.Regions

end
-- ==== Proof.Chain0.lean ====
/-
  The buffers of the idealized kernel program through its first layer, as the reference's stages.

  The program's buffer contents are followed from the launch through the boundaries between its segments: a
  stretch of host operations replaces each buffer it writes by the operation's value of its operands and leaves
  every other buffer alone; a region replaces its result array by the whole-array function of its two operand
  arrays (the regions' lemmas) and leaves every other buffer alone.  The host operations before the first region
  compute the source and destination node of every edge (the given edges followed by one self loop per node) and
  the edge norms; these three arrays, and the arguments, are carried unchanged to every later boundary.  At each
  boundary the buffers that matter hold exactly the reference's stages of the same arguments: the first
  projection, the gathered, scaled and scatter-added messages, the bias as one row, and after the bias region
  the first layer's activations.
-/
import proofs.«100903_j60189671686197_1_alg».proof.Proof.Gen.KernelIdeal.Frame
import proofs.«100903_j60189671686197_1_alg».proof.Proof.RegA
import proofs.«100903_j60189671686197_1_alg».proof.Proof.RefLayers
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Regions

variable (m : (ℓ : Loc nD τ sig) → Buf (Elt Ideal) ℓ) (ρ : Dev nD → PrngReg) (c : Dev nD)

/-- Argument 0 as launched. -/
abbrev x0 : (⟨Cert.ReferenceIdeal.S100000x64, .f32⟩ : BufTy).Contents (Elt Ideal) := m ((c : Thread nD τ).loc main_arg0)
/-- Argument 1 as launched. -/
abbrev x1 : (⟨Cert.ReferenceIdeal.S2x2000000, .i32⟩ : BufTy).Contents (Elt Ideal) := m ((c : Thread nD τ).loc main_arg1)
/-- Argument 2 as launched. -/
abbrev x2 : (⟨Cert.ReferenceIdeal.S64x64, .f32⟩ : BufTy).Contents (Elt Ideal) := m ((c : Thread nD τ).loc main_arg2)
/-- Argument 3 as launched. -/
abbrev x3 : (⟨Cert.ReferenceIdeal.S64, .f32⟩ : BufTy).Contents (Elt Ideal) := m ((c : Thread nD τ).loc main_arg3)
/-- Argument 4 as launched. -/
abbrev x4 : (⟨Cert.ReferenceIdeal.S6x64x64, .f32⟩ : BufTy).Contents (Elt Ideal) := m ((c : Thread nD τ).loc main_arg4)
/-- Argument 5 as launched. -/
abbrev x5 : (⟨Cert.ReferenceIdeal.S6x64, .f32⟩ : BufTy).Contents (Elt Ideal) := m ((c : Thread nD τ).loc main_arg5)
/-- Argument 6 as launched. -/
abbrev x6 : (⟨Cert.ReferenceIdeal.S64x1, .f32⟩ : BufTy).Contents (Elt Ideal) := m ((c : Thread nD τ).loc main_arg6)
/-- Argument 7 as launched. -/
abbrev x7 : (⟨Cert.ReferenceIdeal.S1, .f32⟩ : BufTy).Contents (Elt Ideal) := m ((c : Thread nD τ).loc main_arg7)

/-! ## The launch -/

theorem w0_arg0 : W0 m ρ c (Proc.devRef .tc main_arg0) = x0 m c := rfl
theorem w0_arg1 : W0 m ρ c (Proc.devRef .tc main_arg1) = x1 m c := rfl
theorem w0_arg2 : W0 m ρ c (Proc.devRef .tc main_arg2) = x2 m c := rfl
theorem w0_arg3 : W0 m ρ c (Proc.devRef .tc main_arg3) = x3 m c := rfl
theorem w0_arg4 : W0 m ρ c (Proc.devRef .tc main_arg4) = x4 m c := rfl
theorem w0_arg5 : W0 m ρ c (Proc.devRef .tc main_arg5) = x5 m c := rfl
theorem w0_arg6 : W0 m ρ c (Proc.devRef .tc main_arg6) = x6 m c := rfl
theorem w0_arg7 : W0 m ρ c (Proc.devRef .tc main_arg7) = x7 m c := rfl

/-! ## Boundary 1 -/

theorem w1_v6 : W1 m ρ c (Proc.devRef .tc main_v6) = Cert.ReferenceIdeal.Read.val_main_v6 (F := Ideal) (x1 m c) := by
  show StableHlo.after hostOps0 (W0 m ρ c) (Proc.devRef .tc main_v6) = _
  simp only [hostOps0]
  after_results_simp
  try after_results
  rfl

theorem w1_arg0 : W1 m ρ c (Proc.devRef .tc main_arg0) = x0 m c := by
  show StableHlo.after hostOps0 (W0 m ρ c) (Proc.devRef .tc main_arg0) = _
  simp only [hostOps0]
  after_results_simp
  all_goals exact w0_arg0 m ρ c

theorem w1_arg2 : W1 m ρ c (Proc.devRef .tc main_arg2) = x2 m c := by
  show StableHlo.after hostOps0 (W0 m ρ c) (Proc.devRef .tc main_arg2) = _
  simp only [hostOps0]
  after_results_simp
  all_goals exact w0_arg2 m ρ c

theorem w1_v3 : W1 m ρ c (Proc.devRef .tc main_v3) = Cert.ReferenceIdeal.Read.val_main_v3 (F := Ideal) (x1 m c) := by
  show StableHlo.after hostOps0 (W0 m ρ c) (Proc.devRef .tc main_v3) = _
  simp only [hostOps0]
  after_results_simp
  try after_results
  rfl

theorem w1_v27 : W1 m ρ c (Proc.devRef .tc main_v27) = Cert.ReferenceIdeal.Read.val_main_v27 (F := Ideal) (x1 m c) := by
  show StableHlo.after hostOps0 (W0 m ρ c) (Proc.devRef .tc main_v27) = _
  simp only [hostOps0]
  after_results_simp
  try after_results
  rfl

theorem w1_arg3 : W1 m ρ c (Proc.devRef .tc main_arg3) = x3 m c := by
  show StableHlo.after hostOps0 (W0 m ρ c) (Proc.devRef .tc main_arg3) = _
  simp only [hostOps0]
  after_results_simp
  all_goals exact w0_arg3 m ρ c

theorem w1_arg4 : W1 m ρ c (Proc.devRef .tc main_arg4) = x4 m c := by
  show StableHlo.after hostOps0 (W0 m ρ c) (Proc.devRef .tc main_arg4) = _
  simp only [hostOps0]
  after_results_simp
  all_goals exact w0_arg4 m ρ c

theorem w1_arg5 : W1 m ρ c (Proc.devRef .tc main_arg5) = x5 m c := by
  show StableHlo.after hostOps0 (W0 m ρ c) (Proc.devRef .tc main_arg5) = _
  simp only [hostOps0]
  after_results_simp
  all_goals exact w0_arg5 m ρ c

theorem w1_arg6 : W1 m ρ c (Proc.devRef .tc main_arg6) = x6 m c := by
  show StableHlo.after hostOps0 (W0 m ρ c) (Proc.devRef .tc main_arg6) = _
  simp only [hostOps0]
  after_results_simp
  all_goals exact w0_arg6 m ρ c

theorem w1_arg7 : W1 m ρ c (Proc.devRef .tc main_arg7) = x7 m c := by
  show StableHlo.after hostOps0 (W0 m ρ c) (Proc.devRef .tc main_arg7) = _
  simp only [hostOps0]
  after_results_simp
  all_goals exact w0_arg7 m ρ c

/-! ## Boundary 2 -/

theorem w2_v6 : W2 m ρ c (Proc.devRef .tc main_v6) = Cert.ReferenceIdeal.Read.val_main_v6 (F := Ideal) (x1 m c) :=
  (W2_of_ne m ρ c main_v6 (by decide)).trans (w1_v6 m ρ c)

theorem w2_v28 : W2 m ρ c (Proc.devRef .tc main_v28) = Cert.ReferenceIdeal.Read.val_main_v28 (F := Ideal) (x0 m c) (x2 m c) :=
  ((W2_arr m ρ c 2).trans (final0 (V1 m ρ) c)).trans
    (congrArg₂ (Cert.ReferenceIdeal.Layers.proj (F := Ideal)) (w1_arg0 m ρ c) (w1_arg2 m ρ c))

theorem w2_v3 : W2 m ρ c (Proc.devRef .tc main_v3) = Cert.ReferenceIdeal.Read.val_main_v3 (F := Ideal) (x1 m c) :=
  (W2_of_ne m ρ c main_v3 (by decide)).trans (w1_v3 m ρ c)

theorem w2_v27 : W2 m ρ c (Proc.devRef .tc main_v27) = Cert.ReferenceIdeal.Read.val_main_v27 (F := Ideal) (x1 m c) :=
  (W2_of_ne m ρ c main_v27 (by decide)).trans (w1_v27 m ρ c)

theorem w2_arg3 : W2 m ρ c (Proc.devRef .tc main_arg3) = x3 m c :=
  (W2_of_ne m ρ c main_arg3 (by decide)).trans (w1_arg3 m ρ c)

theorem w2_arg4 : W2 m ρ c (Proc.devRef .tc main_arg4) = x4 m c :=
  (W2_of_ne m ρ c main_arg4 (by decide)).trans (w1_arg4 m ρ c)

theorem w2_arg5 : W2 m ρ c (Proc.devRef .tc main_arg5) = x5 m c :=
  (W2_of_ne m ρ c main_arg5 (by decide)).trans (w1_arg5 m ρ c)

theorem w2_arg6 : W2 m ρ c (Proc.devRef .tc main_arg6) = x6 m c :=
  (W2_of_ne m ρ c main_arg6 (by decide)).trans (w1_arg6 m ρ c)

theorem w2_arg7 : W2 m ρ c (Proc.devRef .tc main_arg7) = x7 m c :=
  (W2_of_ne m ρ c main_arg7 (by decide)).trans (w1_arg7 m ρ c)

/-! ## Boundary 3 -/

theorem w3_v6 : W3 m ρ c (Proc.devRef .tc main_v6) = Cert.ReferenceIdeal.Read.val_main_v6 (F := Ideal) (x1 m c) := by
  show StableHlo.after hostOps1 (W2 m ρ c) (Proc.devRef .tc main_v6) = _
  simp only [hostOps1]
  after_results_simp
  all_goals exact w2_v6 m ρ c

theorem w3_v40 : W3 m ρ c (Proc.devRef .tc main_v40) = Cert.ReferenceIdeal.Read.val_main_v40 (F := Ideal) (x0 m c) (x1 m c) (x2 m c) := by
  show StableHlo.after hostOps1 (W2 m ρ c) (Proc.devRef .tc main_v40) = _
  simp only [hostOps1]
  after_results_simp
  rw [w2_v6 m ρ c, w2_v28 m ρ c, w2_v3 m ρ c, w2_v27 m ρ c]
  rfl

theorem w3_v41 : W3 m ρ c (Proc.devRef .tc main_v41) = Cert.ReferenceIdeal.Read.val_main_v41 (F := Ideal) (x3 m c) := by
  show StableHlo.after hostOps1 (W2 m ρ c) (Proc.devRef .tc main_v41) = _
  simp only [hostOps1]
  after_results_simp
  rw [w2_arg3 m ρ c]
  exact Cert.ReferenceIdeal.Layers.row_of_reshape _ _

theorem w3_arg4 : W3 m ρ c (Proc.devRef .tc main_arg4) = x4 m c := by
  show StableHlo.after hostOps1 (W2 m ρ c) (Proc.devRef .tc main_arg4) = _
  simp only [hostOps1]
  after_results_simp
  all_goals exact w2_arg4 m ρ c

theorem w3_v3 : W3 m ρ c (Proc.devRef .tc main_v3) = Cert.ReferenceIdeal.Read.val_main_v3 (F := Ideal) (x1 m c) := by
  show StableHlo.after hostOps1 (W2 m ρ c) (Proc.devRef .tc main_v3) = _
  simp only [hostOps1]
  after_results_simp
  all_goals exact w2_v3 m ρ c

theorem w3_v27 : W3 m ρ c (Proc.devRef .tc main_v27) = Cert.ReferenceIdeal.Read.val_main_v27 (F := Ideal) (x1 m c) := by
  show StableHlo.after hostOps1 (W2 m ρ c) (Proc.devRef .tc main_v27) = _
  simp only [hostOps1]
  after_results_simp
  all_goals exact w2_v27 m ρ c

theorem w3_arg5 : W3 m ρ c (Proc.devRef .tc main_arg5) = x5 m c := by
  show StableHlo.after hostOps1 (W2 m ρ c) (Proc.devRef .tc main_arg5) = _
  simp only [hostOps1]
  after_results_simp
  all_goals exact w2_arg5 m ρ c

theorem w3_arg6 : W3 m ρ c (Proc.devRef .tc main_arg6) = x6 m c := by
  show StableHlo.after hostOps1 (W2 m ρ c) (Proc.devRef .tc main_arg6) = _
  simp only [hostOps1]
  after_results_simp
  all_goals exact w2_arg6 m ρ c

theorem w3_arg7 : W3 m ρ c (Proc.devRef .tc main_arg7) = x7 m c := by
  show StableHlo.after hostOps1 (W2 m ρ c) (Proc.devRef .tc main_arg7) = _
  simp only [hostOps1]
  after_results_simp
  all_goals exact w2_arg7 m ρ c

/-! ## Boundary 4 -/

theorem w4_v6 : W4 m ρ c (Proc.devRef .tc main_v6) = Cert.ReferenceIdeal.Read.val_main_v6 (F := Ideal) (x1 m c) :=
  (W4_of_ne m ρ c main_v6 (by decide)).trans (w3_v6 m ρ c)

theorem w4_v42 : W4 m ρ c (Proc.devRef .tc main_v42) = Cert.ReferenceIdeal.Read.val_main_v44 (F := Ideal) (x0 m c) (x1 m c) (x2 m c) (x3 m c) :=
  ((W4_arr m ρ c 2).trans (final1 (V3 m ρ) c)).trans
    (congrArg₂ (Cert.ReferenceIdeal.Layers.biasRelu (F := Ideal)) (w3_v40 m ρ c) (w3_v41 m ρ c))

theorem w4_arg4 : W4 m ρ c (Proc.devRef .tc main_arg4) = x4 m c :=
  (W4_of_ne m ρ c main_arg4 (by decide)).trans (w3_arg4 m ρ c)

theorem w4_v3 : W4 m ρ c (Proc.devRef .tc main_v3) = Cert.ReferenceIdeal.Read.val_main_v3 (F := Ideal) (x1 m c) :=
  (W4_of_ne m ρ c main_v3 (by decide)).trans (w3_v3 m ρ c)

theorem w4_v27 : W4 m ρ c (Proc.devRef .tc main_v27) = Cert.ReferenceIdeal.Read.val_main_v27 (F := Ideal) (x1 m c) :=
  (W4_of_ne m ρ c main_v27 (by decide)).trans (w3_v27 m ρ c)

theorem w4_arg5 : W4 m ρ c (Proc.devRef .tc main_arg5) = x5 m c :=
  (W4_of_ne m ρ c main_arg5 (by decide)).trans (w3_arg5 m ρ c)

theorem w4_arg6 : W4 m ρ c (Proc.devRef .tc main_arg6) = x6 m c :=
  (W4_of_ne m ρ c main_arg6 (by decide)).trans (w3_arg6 m ρ c)

theorem w4_arg7 : W4 m ρ c (Proc.devRef .tc main_arg7) = x7 m c :=
  (W4_of_ne m ρ c main_arg7 (by decide)).trans (w3_arg7 m ρ c)

end Cert.KernelIdeal.Chain

end
-- ==== Proof.Chain1.lean ====
/-
  The buffers of the idealized kernel program through hidden layer 1, as the reference's stages.

  From the previous layer's activations: the host slices layer 1's weight matrix and bias vector out of the stacked
  arguments; the projection region leaves the reference's projection of the activations by that matrix; the host
  gathers the projected rows along the edges' sources, scales them by the edge norms and adds them up per
  destination node, and lays the bias out as one row; the bias region leaves the maximum of the sum-plus-bias with
  zero.  Each of these buffers holds the reference's stage of the same arguments, and the edge arrays and the
  arguments still needed are carried unchanged.
-/
import proofs.«100903_j60189671686197_1_alg».proof.Proof.Chain0
import proofs.«100903_j60189671686197_1_alg».proof.Proof.RegA
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Regions

variable (m : (ℓ : Loc nD τ sig) → Buf (Elt Ideal) ℓ) (ρ : Dev nD → PrngReg) (c : Dev nD)

/-! ## Boundary 5 -/

theorem w5_v6 : W5 m ρ c (Proc.devRef .tc main_v6) = Cert.ReferenceIdeal.Read.val_main_v6 (F := Ideal) (x1 m c) := by
  show StableHlo.after hostOps2 (W4 m ρ c) (Proc.devRef .tc main_v6) = _
  simp only [hostOps2]
  after_results_simp
  all_goals exact w4_v6 m ρ c

theorem w5_v42 : W5 m ρ c (Proc.devRef .tc main_v42) = Cert.ReferenceIdeal.Read.val_main_v44 (F := Ideal) (x0 m c) (x1 m c) (x2 m c) (x3 m c) := by
  show StableHlo.after hostOps2 (W4 m ρ c) (Proc.devRef .tc main_v42) = _
  simp only [hostOps2]
  after_results_simp
  all_goals exact w4_v42 m ρ c

theorem w5_v44 : W5 m ρ c (Proc.devRef .tc main_v44) = Cert.ReferenceIdeal.Read.val_main_v46 (F := Ideal) (x4 m c) := by
  show StableHlo.after hostOps2 (W4 m ρ c) (Proc.devRef .tc main_v44) = _
  simp only [hostOps2]
  after_results_simp
  rw [w4_arg4 m ρ c]
  rfl

theorem w5_v3 : W5 m ρ c (Proc.devRef .tc main_v3) = Cert.ReferenceIdeal.Read.val_main_v3 (F := Ideal) (x1 m c) := by
  show StableHlo.after hostOps2 (W4 m ρ c) (Proc.devRef .tc main_v3) = _
  simp only [hostOps2]
  after_results_simp
  all_goals exact w4_v3 m ρ c

theorem w5_v27 : W5 m ρ c (Proc.devRef .tc main_v27) = Cert.ReferenceIdeal.Read.val_main_v27 (F := Ideal) (x1 m c) := by
  show StableHlo.after hostOps2 (W4 m ρ c) (Proc.devRef .tc main_v27) = _
  simp only [hostOps2]
  after_results_simp
  all_goals exact w4_v27 m ρ c

theorem w5_v46 : W5 m ρ c (Proc.devRef .tc main_v46) = Cert.ReferenceIdeal.Read.val_main_v48 (F := Ideal) (x5 m c) := by
  show StableHlo.after hostOps2 (W4 m ρ c) (Proc.devRef .tc main_v46) = _
  simp only [hostOps2]
  after_results_simp
  rw [w4_arg5 m ρ c]
  rfl

theorem w5_arg4 : W5 m ρ c (Proc.devRef .tc main_arg4) = x4 m c := by
  show StableHlo.after hostOps2 (W4 m ρ c) (Proc.devRef .tc main_arg4) = _
  simp only [hostOps2]
  after_results_simp
  all_goals exact w4_arg4 m ρ c

theorem w5_arg5 : W5 m ρ c (Proc.devRef .tc main_arg5) = x5 m c := by
  show StableHlo.after hostOps2 (W4 m ρ c) (Proc.devRef .tc main_arg5) = _
  simp only [hostOps2]
  after_results_simp
  all_goals exact w4_arg5 m ρ c

theorem w5_arg6 : W5 m ρ c (Proc.devRef .tc main_arg6) = x6 m c := by
  show StableHlo.after hostOps2 (W4 m ρ c) (Proc.devRef .tc main_arg6) = _
  simp only [hostOps2]
  after_results_simp
  all_goals exact w4_arg6 m ρ c

theorem w5_arg7 : W5 m ρ c (Proc.devRef .tc main_arg7) = x7 m c := by
  show StableHlo.after hostOps2 (W4 m ρ c) (Proc.devRef .tc main_arg7) = _
  simp only [hostOps2]
  after_results_simp
  all_goals exact w4_arg7 m ρ c

/-! ## Boundary 6 -/

theorem w6_v6 : W6 m ρ c (Proc.devRef .tc main_v6) = Cert.ReferenceIdeal.Read.val_main_v6 (F := Ideal) (x1 m c) :=
  (W6_of_ne m ρ c main_v6 (by decide)).trans (w5_v6 m ρ c)

theorem w6_v47 : W6 m ρ c (Proc.devRef .tc main_v47) = Cert.ReferenceIdeal.Read.val_main_v49 (F := Ideal) (x0 m c) (x1 m c) (x2 m c) (x3 m c) (x4 m c) :=
  ((W6_arr m ρ c 2).trans (final2 (V5 m ρ) c)).trans
    (congrArg₂ (Cert.ReferenceIdeal.Layers.proj (F := Ideal)) (w5_v42 m ρ c) (w5_v44 m ρ c))

theorem w6_v3 : W6 m ρ c (Proc.devRef .tc main_v3) = Cert.ReferenceIdeal.Read.val_main_v3 (F := Ideal) (x1 m c) :=
  (W6_of_ne m ρ c main_v3 (by decide)).trans (w5_v3 m ρ c)

theorem w6_v27 : W6 m ρ c (Proc.devRef .tc main_v27) = Cert.ReferenceIdeal.Read.val_main_v27 (F := Ideal) (x1 m c) :=
  (W6_of_ne m ρ c main_v27 (by decide)).trans (w5_v27 m ρ c)

theorem w6_v46 : W6 m ρ c (Proc.devRef .tc main_v46) = Cert.ReferenceIdeal.Read.val_main_v48 (F := Ideal) (x5 m c) :=
  (W6_of_ne m ρ c main_v46 (by decide)).trans (w5_v46 m ρ c)

theorem w6_arg4 : W6 m ρ c (Proc.devRef .tc main_arg4) = x4 m c :=
  (W6_of_ne m ρ c main_arg4 (by decide)).trans (w5_arg4 m ρ c)

theorem w6_arg5 : W6 m ρ c (Proc.devRef .tc main_arg5) = x5 m c :=
  (W6_of_ne m ρ c main_arg5 (by decide)).trans (w5_arg5 m ρ c)

theorem w6_arg6 : W6 m ρ c (Proc.devRef .tc main_arg6) = x6 m c :=
  (W6_of_ne m ρ c main_arg6 (by decide)).trans (w5_arg6 m ρ c)

theorem w6_arg7 : W6 m ρ c (Proc.devRef .tc main_arg7) = x7 m c :=
  (W6_of_ne m ρ c main_arg7 (by decide)).trans (w5_arg7 m ρ c)

/-! ## Boundary 7 -/

theorem w7_v6 : W7 m ρ c (Proc.devRef .tc main_v6) = Cert.ReferenceIdeal.Read.val_main_v6 (F := Ideal) (x1 m c) := by
  show StableHlo.after hostOps3 (W6 m ρ c) (Proc.devRef .tc main_v6) = _
  simp only [hostOps3]
  after_results_simp
  all_goals exact w6_v6 m ρ c

theorem w7_v59 : W7 m ρ c (Proc.devRef .tc main_v59) = Cert.ReferenceIdeal.Read.val_main_v61 (F := Ideal) (x0 m c) (x1 m c) (x2 m c) (x3 m c) (x4 m c) := by
  show StableHlo.after hostOps3 (W6 m ρ c) (Proc.devRef .tc main_v59) = _
  simp only [hostOps3]
  after_results_simp
  rw [w6_v6 m ρ c, w6_v47 m ρ c, w6_v3 m ρ c, w6_v27 m ρ c]
  rfl

theorem w7_v60 : W7 m ρ c (Proc.devRef .tc main_v60) = Cert.ReferenceIdeal.Read.val_main_v62 (F := Ideal) (x5 m c) := by
  show StableHlo.after hostOps3 (W6 m ρ c) (Proc.devRef .tc main_v60) = _
  simp only [hostOps3]
  after_results_simp
  rw [w6_v46 m ρ c]
  exact Cert.ReferenceIdeal.Layers.row_of_reshape _ _

theorem w7_arg4 : W7 m ρ c (Proc.devRef .tc main_arg4) = x4 m c := by
  show StableHlo.after hostOps3 (W6 m ρ c) (Proc.devRef .tc main_arg4) = _
  simp only [hostOps3]
  after_results_simp
  all_goals exact w6_arg4 m ρ c

theorem w7_v3 : W7 m ρ c (Proc.devRef .tc main_v3) = Cert.ReferenceIdeal.Read.val_main_v3 (F := Ideal) (x1 m c) := by
  show StableHlo.after hostOps3 (W6 m ρ c) (Proc.devRef .tc main_v3) = _
  simp only [hostOps3]
  after_results_simp
  all_goals exact w6_v3 m ρ c

theorem w7_v27 : W7 m ρ c (Proc.devRef .tc main_v27) = Cert.ReferenceIdeal.Read.val_main_v27 (F := Ideal) (x1 m c) := by
  show StableHlo.after hostOps3 (W6 m ρ c) (Proc.devRef .tc main_v27) = _
  simp only [hostOps3]
  after_results_simp
  all_goals exact w6_v27 m ρ c

theorem w7_arg5 : W7 m ρ c (Proc.devRef .tc main_arg5) = x5 m c := by
  show StableHlo.after hostOps3 (W6 m ρ c) (Proc.devRef .tc main_arg5) = _
  simp only [hostOps3]
  after_results_simp
  all_goals exact w6_arg5 m ρ c

theorem w7_arg6 : W7 m ρ c (Proc.devRef .tc main_arg6) = x6 m c := by
  show StableHlo.after hostOps3 (W6 m ρ c) (Proc.devRef .tc main_arg6) = _
  simp only [hostOps3]
  after_results_simp
  all_goals exact w6_arg6 m ρ c

theorem w7_arg7 : W7 m ρ c (Proc.devRef .tc main_arg7) = x7 m c := by
  show StableHlo.after hostOps3 (W6 m ρ c) (Proc.devRef .tc main_arg7) = _
  simp only [hostOps3]
  after_results_simp
  all_goals exact w6_arg7 m ρ c

/-! ## Boundary 8 -/

theorem w8_v6 : W8 m ρ c (Proc.devRef .tc main_v6) = Cert.ReferenceIdeal.Read.val_main_v6 (F := Ideal) (x1 m c) :=
  (W8_of_ne m ρ c main_v6 (by decide)).trans (w7_v6 m ρ c)

theorem w8_v61 : W8 m ρ c (Proc.devRef .tc main_v61) = Cert.ReferenceIdeal.Read.val_main_v65 (F := Ideal) (x0 m c) (x1 m c) (x2 m c) (x3 m c) (x4 m c) (x5 m c) :=
  ((W8_arr m ρ c 2).trans (final3 (V7 m ρ) c)).trans
    (congrArg₂ (Cert.ReferenceIdeal.Layers.biasRelu (F := Ideal)) (w7_v59 m ρ c) (w7_v60 m ρ c))

theorem w8_arg4 : W8 m ρ c (Proc.devRef .tc main_arg4) = x4 m c :=
  (W8_of_ne m ρ c main_arg4 (by decide)).trans (w7_arg4 m ρ c)

theorem w8_v3 : W8 m ρ c (Proc.devRef .tc main_v3) = Cert.ReferenceIdeal.Read.val_main_v3 (F := Ideal) (x1 m c) :=
  (W8_of_ne m ρ c main_v3 (by decide)).trans (w7_v3 m ρ c)

theorem w8_v27 : W8 m ρ c (Proc.devRef .tc main_v27) = Cert.ReferenceIdeal.Read.val_main_v27 (F := Ideal) (x1 m c) :=
  (W8_of_ne m ρ c main_v27 (by decide)).trans (w7_v27 m ρ c)

theorem w8_arg5 : W8 m ρ c (Proc.devRef .tc main_arg5) = x5 m c :=
  (W8_of_ne m ρ c main_arg5 (by decide)).trans (w7_arg5 m ρ c)

theorem w8_arg6 : W8 m ρ c (Proc.devRef .tc main_arg6) = x6 m c :=
  (W8_of_ne m ρ c main_arg6 (by decide)).trans (w7_arg6 m ρ c)

theorem w8_arg7 : W8 m ρ c (Proc.devRef .tc main_arg7) = x7 m c :=
  (W8_of_ne m ρ c main_arg7 (by decide)).trans (w7_arg7 m ρ c)

end Cert.KernelIdeal.Chain

end
-- ==== Proof.RegB.lean ====
/-
  Regions 4–7 of the idealized kernel program, each read as a whole array.

  Every region runs its kernel at ten grid points.  Point `t` reads rows 10000 t … 10000 t + 9999 of the region's
  first operand and the whole of its second, and writes the same rows of the result.  A projection region's
  element [r, c] at point `t` is `∑ k < 64, x[10000 t + r, k] · w[k, c]`; a bias region's is
  `max (a[10000 t + r, c] + b[0, c]) 0` (the last one, of a single column, `a[10000 t + r, 0] + b[0, 0]`).  Each is the
  element [10000 t + r, c] of one function of the two WHOLE operand arrays — the reference's projection, or its
  bias-and-maximum — and the ten blocks tile the result array.  So each region leaves its result array holding that
  function of the two arrays it found on entry, whatever they are.
-/
import proofs.«100903_j60189671686197_1_alg».proof.Proof.Gen.KernelIdeal.Frame
import proofs.«100903_j60189671686197_1_alg».proof.Proof.Mat64
import proofs.«100903_j60189671686197_1_alg».proof.Proof.BiasAct
import proofs.«100903_j60189671686197_1_alg».proof.Proof.RefLayers
import proofs.«100903_j60189671686197_1_alg».proof.Proof.RegCommon
import Idealize.ShloMosaic.Lib.Pipeline.Value

set_option maxRecDepth 16384

noncomputable section

namespace Cert.KernelIdeal.Regions

open Idealize.ShloMosaic Idealize.ShloMosaic.TcCoe Idealize.SL.Sem
open Idealize.ShloMosaic.Pipeline (Dat)
open Cert.KernelIdeal Cert.KernelIdeal.Gen Cert.KernelIdeal.Blocks
open Cert.ReferenceIdeal.Read (lidx_main_v28 ridx_main_v28 lidx_main_v171 ridx_main_v171 idx_main_v42 idx_main_v184)

/-! ## Region 4: a projection by a 64 × 64 weight matrix -/

section Region4
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx4 : ∀ t : Fin cfg4.N, win4_0.index t (0 : Fin 2) = win4_2.index t (0 : Fin 2)
    ∧ win4_0.index t (1 : Fin 2) = 0 ∧ win4_1.index t (0 : Fin 2) = 0 ∧ win4_1.index t (1 : Fin 2) = 0
    ∧ win4_2.index t (1 : Fin 2) = 0 ∧ win4_2.index t (0 : Fin 2) = t.val :=
  (by decide +kernel : ∀ t : Fin grid4.N, _)

/-- What grid point `t` writes back is block `t` of the whole projection of the two arrays the region finds. -/
theorem flushed4 (c : Dev nD) (t : Fin cfg4.N) :
    (dat4 V c).flushed 2 t = ((cfg4.win 2).blk t).view.read (Elt Ideal)
      (Cert.ReferenceIdeal.Layers.proj (F := Ideal) (V c (Pipeline.arrRef spec4 0)) (V c (Pipeline.arrRef spec4 1))) := by
  show (cfg4.win 2).cut (grid4.coords t) ((dat4 V c).after 2 t) = _
  rw [after4_2]
  unfold out4_2
  rw [View.canon_unit_zero hz2]
  simp only [View.ld_unit_zero (S := S10000x64) hz2, View.ld_unit_zero (S := S64x64) hz2]
  obtain ⟨e0, e1, e2, e3, e4, e5⟩ := idx4 t
  funext j
  refine (pay_hidden_apply (iblk4 V c 0 t) (iblk4 V c 1 t) j).trans ?_
  refine Eq.trans ?_ (Cert.ReferenceIdeal.Layers.proj_apply (V c (Pipeline.arrRef spec4 0)) (V c (Pipeline.arrRef spec4 1)) (((cfg4.win 2).blk t).view.emb j)).symm
  refine Finset.sum_congr rfl fun k _ => ?_
  have h0 : ((cfg4.win 0).blk t).view.emb (lrow j k) = lidx_main_v28 (((cfg4.win 2).blk t).view.emb j) k := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * k.val = k.val; omega
  have h1 : ((cfg4.win 1).blk t).view.emb (rcol j k) = ridx_main_v28 (((cfg4.win 2).blk t).view.emb j) k := by
    funext a; apply Fin.ext
    match a with
    | ⟨0, _⟩ => show win4_1.index t (0 : Fin 2) * 64 + 1 * k.val = k.val; omega
    | ⟨1, _⟩ => show win4_1.index t (1 : Fin 2) * 64 + 1 * (j 1).val = win4_2.index t (1 : Fin 2) * 64 + 1 * (j 1).val; omega
  exact mul_at (s := S100000x64) (s' := S64x64) (V c (Pipeline.arrRef spec4 0)) (V c (Pipeline.arrRef spec4 1)) h0 h1

/-- An index of the result array lies in point `t`'s block iff each coordinate lies in the block's range. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v66).slice (win4_2.rect t)).set ↔ _
  rw [View.set_slice_whole, Rect.mem_set_unit]
  exact Iff.rfl

/-- Row `n` is written by grid point `n / 10000`: the ten blocks tile the array. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have ht : (i 0).val / 10000 < 10 := by omega
  refine ⟨⟨(i 0).val / 10000, ht⟩, flush4_2 _, ?_⟩
  rw [mem_blk4]
  obtain ⟨e0, e1, e2, e3, e4, e5⟩ := idx4 ⟨(i 0).val / 10000, ht⟩
  have e5' : win4_2.index ⟨(i 0).val / 10000, ht⟩ (0 : Fin 2) = (i 0).val / 10000 := e5
  intro a
  match a with
  | ⟨0, _⟩ => show win4_2.index ⟨(i 0).val / 10000, ht⟩ (0 : Fin 2) * 10000 ≤ (i 0).val ∧ (i 0).val < win4_2.index ⟨(i 0).val / 10000, ht⟩ (0 : Fin 2) * 10000 + 10000; omega
  | ⟨1, _⟩ => show win4_2.index ⟨(i 0).val / 10000, ht⟩ (1 : Fin 2) * 64 ≤ (i 1).val ∧ (i 1).val < win4_2.index ⟨(i 0).val / 10000, ht⟩ (1 : Fin 2) * 64 + 64; omega

/-- The region leaves its result array holding the whole projection of the two arrays it found. -/
theorem final4 (c : Dev nD) : (dat4 V c).arrAt 2 cfg4.N
    = Cert.ReferenceIdeal.Layers.proj (F := Ideal) (V c (Pipeline.arrRef spec4 0)) (V c (Pipeline.arrRef spec4 1)) :=
  (dat4 V c).arrAt_eq_of_cover 2 _ (fun t _ => flushed4 V c t) cover4

end Region4

/-! ## Region 5: a hidden layer's bias and maximum with zero -/

section Region5
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx5 : ∀ t : Fin cfg5.N, win5_0.index t (0 : Fin 2) = win5_2.index t (0 : Fin 2)
    ∧ win5_0.index t (1 : Fin 2) = 0 ∧ win5_1.index t (0 : Fin 2) = 0 ∧ win5_1.index t (1 : Fin 2) = 0
    ∧ win5_2.index t (1 : Fin 2) = 0 ∧ win5_2.index t (0 : Fin 2) = t.val :=
  (by decide +kernel : ∀ t : Fin grid5.N, _)

/-- What grid point `t` writes back is block `t` of the whole bias-and-maximum of the two arrays the region finds. -/
theorem flushed5 (c : Dev nD) (t : Fin cfg5.N) :
    (dat5 V c).flushed 2 t = ((cfg5.win 2).blk t).view.read (Elt Ideal)
      (Cert.ReferenceIdeal.Layers.biasRelu (F := Ideal) (V c (Pipeline.arrRef spec5 0)) (V c (Pipeline.arrRef spec5 1))) := by
  show (cfg5.win 2).cut (grid5.coords t) ((dat5 V c).after 2 t) = _
  rw [after5_2]
  unfold out5_2
  rw [View.canon_unit_zero hz2]
  simp only [View.ld_unit_zero (S := S10000x64) hz2, View.ld_unit_zero (S := S1x64) hz2]
  obtain ⟨e0, e1, e2, e3, e4, e5⟩ := idx5 t
  funext j
  refine (pay_bias_relu_apply (iblk5 V c 0 t) (iblk5 V c 1 t) j).trans ?_
  refine Eq.trans ?_ (Cert.ReferenceIdeal.Layers.biasRelu_apply (V c (Pipeline.arrRef spec5 0)) (V c (Pipeline.arrRef spec5 1)) (((cfg5.win 2).blk t).view.emb j)).symm
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (brow j) = idx_main_v42 (((cfg5.win 2).blk t).view.emb j) := by
    funext a; apply Fin.ext
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  exact max_add_at (s := S100000x64) (s' := S1x64) (V c (Pipeline.arrRef spec5 0)) (V c (Pipeline.arrRef spec5 1)) _ h0 h1

/-- An index of the result array lies in point `t`'s block iff each coordinate lies in the block's range. -/
theorem mem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v80).slice (win5_2.rect t)).set ↔ _
  rw [View.set_slice_whole, Rect.mem_set_unit]
  exact Iff.rfl

/-- Row `n` is written by grid point `n / 10000`: the ten blocks tile the array. -/
theorem cover5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have ht : (i 0).val / 10000 < 10 := by omega
  refine ⟨⟨(i 0).val / 10000, ht⟩, flush5_2 _, ?_⟩
  rw [mem_blk5]
  obtain ⟨e0, e1, e2, e3, e4, e5⟩ := idx5 ⟨(i 0).val / 10000, ht⟩
  have e5' : win5_2.index ⟨(i 0).val / 10000, ht⟩ (0 : Fin 2) = (i 0).val / 10000 := e5
  intro a
  match a with
  | ⟨0, _⟩ => show win5_2.index ⟨(i 0).val / 10000, ht⟩ (0 : Fin 2) * 10000 ≤ (i 0).val ∧ (i 0).val < win5_2.index ⟨(i 0).val / 10000, ht⟩ (0 : Fin 2) * 10000 + 10000; omega
  | ⟨1, _⟩ => show win5_2.index ⟨(i 0).val / 10000, ht⟩ (1 : Fin 2) * 64 ≤ (i 1).val ∧ (i 1).val < win5_2.index ⟨(i 0).val / 10000, ht⟩ (1 : Fin 2) * 64 + 64; omega

/-- The region leaves its result array holding the whole bias-and-maximum of the two arrays it found. -/
theorem final5 (c : Dev nD) : (dat5 V c).arrAt 2 cfg5.N
    = Cert.ReferenceIdeal.Layers.biasRelu (F := Ideal) (V c (Pipeline.arrRef spec5 0)) (V c (Pipeline.arrRef spec5 1)) :=
  (dat5 V c).arrAt_eq_of_cover 2 _ (fun t _ => flushed5 V c t) cover5

end Region5

/-! ## Region 6: a projection by a 64 × 64 weight matrix -/

section Region6
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx6 : ∀ t : Fin cfg6.N, win6_0.index t (0 : Fin 2) = win6_2.index t (0 : Fin 2)
    ∧ win6_0.index t (1 : Fin 2) = 0 ∧ win6_1.index t (0 : Fin 2) = 0 ∧ win6_1.index t (1 : Fin 2) = 0
    ∧ win6_2.index t (1 : Fin 2) = 0 ∧ win6_2.index t (0 : Fin 2) = t.val :=
  (by decide +kernel : ∀ t : Fin grid6.N, _)

/-- What grid point `t` writes back is block `t` of the whole projection of the two arrays the region finds. -/
theorem flushed6 (c : Dev nD) (t : Fin cfg6.N) :
    (dat6 V c).flushed 2 t = ((cfg6.win 2).blk t).view.read (Elt Ideal)
      (Cert.ReferenceIdeal.Layers.proj (F := Ideal) (V c (Pipeline.arrRef spec6 0)) (V c (Pipeline.arrRef spec6 1))) := by
  show (cfg6.win 2).cut (grid6.coords t) ((dat6 V c).after 2 t) = _
  rw [after6_2]
  unfold out6_2
  rw [View.canon_unit_zero hz2]
  simp only [View.ld_unit_zero (S := S10000x64) hz2, View.ld_unit_zero (S := S64x64) hz2]
  obtain ⟨e0, e1, e2, e3, e4, e5⟩ := idx6 t
  funext j
  refine (pay_hidden_apply (iblk6 V c 0 t) (iblk6 V c 1 t) j).trans ?_
  refine Eq.trans ?_ (Cert.ReferenceIdeal.Layers.proj_apply (V c (Pipeline.arrRef spec6 0)) (V c (Pipeline.arrRef spec6 1)) (((cfg6.win 2).blk t).view.emb j)).symm
  refine Finset.sum_congr rfl fun k _ => ?_
  have h0 : ((cfg6.win 0).blk t).view.emb (lrow j k) = lidx_main_v28 (((cfg6.win 2).blk t).view.emb j) k := by
    funext a; apply Fin.ext
    match a with
    | ⟨0, _⟩ => show win6_0.index t (0 : Fin 2) * 10000 + 1 * (j 0).val = win6_2.index t (0 : Fin 2) * 10000 + 1 * (j 0).val; omega
    | ⟨1, _⟩ => show win6_0.index t (1 : Fin 2) * 64 + 1 * k.val = k.val; omega
  have h1 : ((cfg6.win 1).blk t).view.emb (rcol j k) = ridx_main_v28 (((cfg6.win 2).blk t).view.emb j) k := by
    funext a; apply Fin.ext
    match a with
    | ⟨0, _⟩ => show win6_1.index t (0 : Fin 2) * 64 + 1 * k.val = k.val; omega
    | ⟨1, _⟩ => show win6_1.index t (1 : Fin 2) * 64 + 1 * (j 1).val = win6_2.index t (1 : Fin 2) * 64 + 1 * (j 1).val; omega
  exact mul_at (s := S100000x64) (s' := S64x64) (V c (Pipeline.arrRef spec6 0)) (V c (Pipeline.arrRef spec6 1)) h0 h1

/-- An index of the result array lies in point `t`'s block iff each coordinate lies in the block's range. -/
theorem mem_blk6 (t : Fin cfg6.N) (i : S100000x64.Idx) :
    i ∈ ((cfg6.win 2).blk t).view.set ↔ ∀ a : Fin 2, win6_2.index t a * S10000x64.size a ≤ (i a).val ∧ (i a).val < win6_2.index t a * S10000x64.size a + S10000x64.size a := by
  show i ∈ ((View.whole main_v85).slice (win6_2.rect t)).set ↔ _
  rw [View.set_slice_whole, Rect.mem_set_unit]
  exact Iff.rfl

/-- Row `n` is written by grid point `n / 10000`: the ten blocks tile the array. -/
theorem cover6 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have ht : (i 0).val / 10000 < 10 := by omega
  refine ⟨⟨(i 0).val / 10000, ht⟩, flush6_2 _, ?_⟩
  rw [mem_blk6]
  obtain ⟨e0, e1, e2, e3, e4, e5⟩ := idx6 ⟨(i 0).val / 10000, ht⟩
  have e5' : win6_2.index ⟨(i 0).val / 10000, ht⟩ (0 : Fin 2) = (i 0).val / 10000 := e5
  intro a
  match a with
  | ⟨0, _⟩ => show win6_2.index ⟨(i 0).val / 10000, ht⟩ (0 : Fin 2) * 10000 ≤ (i 0).val ∧ (i 0).val < win6_2.index ⟨(i 0).val / 10000, ht⟩ (0 : Fin 2) * 10000 + 10000; omega
  | ⟨1, _⟩ => show win6_2.index ⟨(i 0).val / 10000, ht⟩ (1 : Fin 2) * 64 ≤ (i 1).val ∧ (i 1).val < win6_2.index ⟨(i 0).val / 10000, ht⟩ (1 : Fin 2) * 64 + 64; omega

/-- The region leaves its result array holding the whole projection of the two arrays it found. -/
theorem final6 (c : Dev nD) : (dat6 V c).arrAt 2 cfg6.N
    = Cert.ReferenceIdeal.Layers.proj (F := Ideal) (V c (Pipeline.arrRef spec6 0)) (V c (Pipeline.arrRef spec6 1)) :=
  (dat6 V c).arrAt_eq_of_cover 2 _ (fun t _ => flushed6 V c t) cover6

end Region6

/-! ## Region 7: a hidden layer's bias and maximum with zero -/

section Region7
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx7 : ∀ t : Fin cfg7.N, win7_0.index t (0 : Fin 2) = win7_2.index t (0 : Fin 2)
    ∧ win7_0.index t (1 : Fin 2) = 0 ∧ win7_1.index t (0 : Fin 2) = 0 ∧ win7_1.index t (1 : Fin 2) = 0
    ∧ win7_2.index t (1 : Fin 2) = 0 ∧ win7_2.index t (0 : Fin 2) = t.val :=
  (by decide +kernel : ∀ t : Fin grid7.N, _)

/-- What grid point `t` writes back is block `t` of the whole bias-and-maximum of the two arrays the region finds. -/
theorem flushed7 (c : Dev nD) (t : Fin cfg7.N) :
    (dat7 V c).flushed 2 t = ((cfg7.win 2).blk t).view.read (Elt Ideal)
      (Cert.ReferenceIdeal.Layers.biasRelu (F := Ideal) (V c (Pipeline.arrRef spec7 0)) (V c (Pipeline.arrRef spec7 1))) := by
  show (cfg7.win 2).cut (grid7.coords t) ((dat7 V c).after 2 t) = _
  rw [after7_2]
  unfold out7_2
  rw [View.canon_unit_zero hz2]
  simp only [View.ld_unit_zero (S := S10000x64) hz2, View.ld_unit_zero (S := S1x64) hz2]
  obtain ⟨e0, e1, e2, e3, e4, e5⟩ := idx7 t
  funext j
  refine (pay_bias_relu_apply (iblk7 V c 0 t) (iblk7 V c 1 t) j).trans ?_
  refine Eq.trans ?_ (Cert.ReferenceIdeal.Layers.biasRelu_apply (V c (Pipeline.arrRef spec7 0)) (V c (Pipeline.arrRef spec7 1)) (((cfg7.win 2).blk t).view.emb j)).symm
  have h0 : ((cfg7.win 0).blk t).view.emb j = ((cfg7.win 2).blk t).view.emb j := by
    funext a; apply Fin.ext
    match a with
    | ⟨0, _⟩ => show win7_0.index t (0 : Fin 2) * 10000 + 1 * (j 0).val = win7_2.index t (0 : Fin 2) * 10000 + 1 * (j 0).val; omega
    | ⟨1, _⟩ => show win7_0.index t (1 : Fin 2) * 64 + 1 * (j 1).val = win7_2.index t (1 : Fin 2) * 64 + 1 * (j 1).val; omega
  have h1 : ((cfg7.win 1).blk t).view.emb (brow j) = idx_main_v42 (((cfg7.win 2).blk t).view.emb j) := by
    funext a; apply Fin.ext
    match a with
    | ⟨0, _⟩ => show win7_1.index t (0 : Fin 2) * 1 + 1 * 0 = 0; omega
    | ⟨1, _⟩ => show win7_1.index t (1 : Fin 2) * 64 + 1 * (j 1).val = win7_2.index t (1 : Fin 2) * 64 + 1 * (j 1).val; omega
  exact max_add_at (s := S100000x64) (s' := S1x64) (V c (Pipeline.arrRef spec7 0)) (V c (Pipeline.arrRef spec7 1)) _ h0 h1

/-- An index of the result array lies in point `t`'s block iff each coordinate lies in the block's range. -/
theorem mem_blk7 (t : Fin cfg7.N) (i : S100000x64.Idx) :
    i ∈ ((cfg7.win 2).blk t).view.set ↔ ∀ a : Fin 2, win7_2.index t a * S10000x64.size a ≤ (i a).val ∧ (i a).val < win7_2.index t a * S10000x64.size a + S10000x64.size a := by
  show i ∈ ((View.whole main_v99).slice (win7_2.rect t)).set ↔ _
  rw [View.set_slice_whole, Rect.mem_set_unit]
  exact Iff.rfl

/-- Row `n` is written by grid point `n / 10000`: the ten blocks tile the array. -/
theorem cover7 (i : S100000x64.Idx) : ∃ t : Fin cfg7.N, (cfg7.win 2).flush t = true ∧ i ∈ ((cfg7.win 2).blk t).view.set := by
  have hi0 : (i 0).val < 100000 := (i 0).isLt
  have hi1 : (i 1).val < 64 := (i 1).isLt
  have ht : (i 0).val / 10000 < 10 := by omega
  refine ⟨⟨(i 0).val / 10000, ht⟩, flush7_2 _, ?_⟩
  rw [mem_blk7]
  obtain ⟨e0, e1, e2, e3, e4, e5⟩ := idx7 ⟨(i 0).val / 10000, ht⟩
  have e5' : win7_2.index ⟨(i 0).val / 10000, ht⟩ (0 : Fin 2) = (i 0).val / 10000 := e5
  intro a
  match a with
  | ⟨0, _⟩ => show win7_2.index ⟨(i 0).val / 10000, ht⟩ (0 : Fin 2) * 10000 ≤ (i 0).val ∧ (i 0).val < win7_2.index ⟨(i 0).val / 10000, ht⟩ (0 : Fin 2) * 10000 + 10000; omega
  | ⟨1, _⟩ => show win7_2.index ⟨(i 0).val / 10000, ht⟩ (1 : Fin 2) * 64 ≤ (i 1).val ∧ (i 1).val < win7_2.index ⟨(i 0).val / 10000, ht⟩ (1 : Fin 2) * 64 + 64; omega

/-- The region leaves its result array holding the whole bias-and-maximum of the two arrays it found. -/
theorem final7 (c : Dev nD) : (dat7 V c).arrAt 2 cfg7.N
    = Cert.ReferenceIdeal.Layers.biasRelu (F := Ideal) (V c (Pipeline.arrRef spec7 0)) (V c (Pipeline.arrRef spec7 1)) :=
  (dat7 V c).arrAt_eq_of_cover 2 _ (fun t _ => flushed7 V c t) cover7

end Region7

end Cert.KernelIdeal.Regions

end
-- ==== Proof.Chain2.lean ====
/-
  The buffers of the idealized kernel program through hidden layer 2, as the reference's stages.

  From the previous layer's activations: the host slices layer 2's weight matrix and bias vector out of the stacked
  arguments; the projection region leaves the reference's projection of the activations by that matrix; the host
  gathers the projected rows along the edges' sources, scales them by the edge norms and adds them up per
  destination node, and lays the bias out as one row; the bias region leaves the maximum of the sum-plus-bias with
  zero.  Each of these buffers holds the reference's stage of the same arguments, and the edge arrays and the
  arguments still needed are carried unchanged.
-/
import proofs.«100903_j60189671686197_1_alg».proof.Proof.Chain1
import proofs.«100903_j60189671686197_1_alg».proof.Proof.RegB
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Regions

variable (m : (ℓ : Loc nD τ sig) → Buf (Elt Ideal) ℓ) (ρ : Dev nD → PrngReg) (c : Dev nD)

/-! ## Boundary 9 -/

theorem w9_v6 : W9 m ρ c (Proc.devRef .tc main_v6) = Cert.ReferenceIdeal.Read.val_main_v6 (F := Ideal) (x1 m c) := by
  show StableHlo.after hostOps4 (W8 m ρ c) (Proc.devRef .tc main_v6) = _
  simp only [hostOps4]
  after_results_simp
  all_goals exact w8_v6 m ρ c

theorem w9_v61 : W9 m ρ c (Proc.devRef .tc main_v61) = Cert.ReferenceIdeal.Read.val_main_v65 (F := Ideal) (x0 m c) (x1 m c) (x2 m c) (x3 m c) (x4 m c) (x5 m c) := by
  show StableHlo.after hostOps4 (W8 m ρ c) (Proc.devRef .tc main_v61) = _
  simp only [hostOps4]
  after_results_simp
  all_goals exact w8_v61 m ρ c

theorem w9_v63 : W9 m ρ c (Proc.devRef .tc main_v63) = Cert.ReferenceIdeal.Read.val_main_v67 (F := Ideal) (x4 m c) := by
  show StableHlo.after hostOps4 (W8 m ρ c) (Proc.devRef .tc main_v63) = _
  simp only [hostOps4]
  after_results_simp
  rw [w8_arg4 m ρ c]
  rfl

theorem w9_v3 : W9 m ρ c (Proc.devRef .tc main_v3) = Cert.ReferenceIdeal.Read.val_main_v3 (F := Ideal) (x1 m c) := by
  show StableHlo.after hostOps4 (W8 m ρ c) (Proc.devRef .tc main_v3) = _
  simp only [hostOps4]
  after_results_simp
  all_goals exact w8_v3 m ρ c

theorem w9_v27 : W9 m ρ c (Proc.devRef .tc main_v27) = Cert.ReferenceIdeal.Read.val_main_v27 (F := Ideal) (x1 m c) := by
  show StableHlo.after hostOps4 (W8 m ρ c) (Proc.devRef .tc main_v27) = _
  simp only [hostOps4]
  after_results_simp
  all_goals exact w8_v27 m ρ c

theorem w9_v65 : W9 m ρ c (Proc.devRef .tc main_v65) = Cert.ReferenceIdeal.Read.val_main_v69 (F := Ideal) (x5 m c) := by
  show StableHlo.after hostOps4 (W8 m ρ c) (Proc.devRef .tc main_v65) = _
  simp only [hostOps4]
  after_results_simp
  rw [w8_arg5 m ρ c]
  rfl

theorem w9_arg4 : W9 m ρ c (Proc.devRef .tc main_arg4) = x4 m c := by
  show StableHlo.after hostOps4 (W8 m ρ c) (Proc.devRef .tc main_arg4) = _
  simp only [hostOps4]
  after_results_simp
  all_goals exact w8_arg4 m ρ c

theorem w9_arg5 : W9 m ρ c (Proc.devRef .tc main_arg5) = x5 m c := by
  show StableHlo.after hostOps4 (W8 m ρ c) (Proc.devRef .tc main_arg5) = _
  simp only [hostOps4]
  after_results_simp
  all_goals exact w8_arg5 m ρ c

theorem w9_arg6 : W9 m ρ c (Proc.devRef .tc main_arg6) = x6 m c := by
  show StableHlo.after hostOps4 (W8 m ρ c) (Proc.devRef .tc main_arg6) = _
  simp only [hostOps4]
  after_results_simp
  all_goals exact w8_arg6 m ρ c

theorem w9_arg7 : W9 m ρ c (Proc.devRef .tc main_arg7) = x7 m c := by
  show StableHlo.after hostOps4 (W8 m ρ c) (Proc.devRef .tc main_arg7) = _
  simp only [hostOps4]
  after_results_simp
  all_goals exact w8_arg7 m ρ c

/-! ## Boundary 10 -/

theorem w10_v6 : W10 m ρ c (Proc.devRef .tc main_v6) = Cert.ReferenceIdeal.Read.val_main_v6 (F := Ideal) (x1 m c) :=
  (W10_of_ne m ρ c main_v6 (by decide)).trans (w9_v6 m ρ c)

theorem w10_v66 : W10 m ρ c (Proc.devRef .tc main_v66) = Cert.ReferenceIdeal.Read.val_main_v70 (F := Ideal) (x0 m c) (x1 m c) (x2 m c) (x3 m c) (x4 m c) (x5 m c) :=
  ((W10_arr m ρ c 2).trans (final4 (V9 m ρ) c)).trans
    (congrArg₂ (Cert.ReferenceIdeal.Layers.proj (F := Ideal)) (w9_v61 m ρ c) (w9_v63 m ρ c))

theorem w10_v3 : W10 m ρ c (Proc.devRef .tc main_v3) = Cert.ReferenceIdeal.Read.val_main_v3 (F := Ideal) (x1 m c) :=
  (W10_of_ne m ρ c main_v3 (by decide)).trans (w9_v3 m ρ c)

theorem w10_v27 : W10 m ρ c (Proc.devRef .tc main_v27) = Cert.ReferenceIdeal.Read.val_main_v27 (F := Ideal) (x1 m c) :=
  (W10_of_ne m ρ c main_v27 (by decide)).trans (w9_v27 m ρ c)

theorem w10_v65 : W10 m ρ c (Proc.devRef .tc main_v65) = Cert.ReferenceIdeal.Read.val_main_v69 (F := Ideal) (x5 m c) :=
  (W10_of_ne m ρ c main_v65 (by decide)).trans (w9_v65 m ρ c)

theorem w10_arg4 : W10 m ρ c (Proc.devRef .tc main_arg4) = x4 m c :=
  (W10_of_ne m ρ c main_arg4 (by decide)).trans (w9_arg4 m ρ c)

theorem w10_arg5 : W10 m ρ c (Proc.devRef .tc main_arg5) = x5 m c :=
  (W10_of_ne m ρ c main_arg5 (by decide)).trans (w9_arg5 m ρ c)

theorem w10_arg6 : W10 m ρ c (Proc.devRef .tc main_arg6) = x6 m c :=
  (W10_of_ne m ρ c main_arg6 (by decide)).trans (w9_arg6 m ρ c)

theorem w10_arg7 : W10 m ρ c (Proc.devRef .tc main_arg7) = x7 m c :=
  (W10_of_ne m ρ c main_arg7 (by decide)).trans (w9_arg7 m ρ c)

/-! ## Boundary 11 -/

theorem w11_v6 : W11 m ρ c (Proc.devRef .tc main_v6) = Cert.ReferenceIdeal.Read.val_main_v6 (F := Ideal) (x1 m c) := by
  show StableHlo.after hostOps5 (W10 m ρ c) (Proc.devRef .tc main_v6) = _
  simp only [hostOps5]
  after_results_simp
  all_goals exact w10_v6 m ρ c

theorem w11_v78 : W11 m ρ c (Proc.devRef .tc main_v78) = Cert.ReferenceIdeal.Read.val_main_v82 (F := Ideal) (x0 m c) (x1 m c) (x2 m c) (x3 m c) (x4 m c) (x5 m c) := by
  show StableHlo.after hostOps5 (W10 m ρ c) (Proc.devRef .tc main_v78) = _
  simp only [hostOps5]
  after_results_simp
  rw [w10_v6 m ρ c, w10_v66 m ρ c, w10_v3 m ρ c, w10_v27 m ρ c]
  rfl

theorem w11_v79 : W11 m ρ c (Proc.devRef .tc main_v79) = Cert.ReferenceIdeal.Read.val_main_v83 (F := Ideal) (x5 m c) := by
  show StableHlo.after hostOps5 (W10 m ρ c) (Proc.devRef .tc main_v79) = _
  simp only [hostOps5]
  after_results_simp
  rw [w10_v65 m ρ c]
  exact Cert.ReferenceIdeal.Layers.row_of_reshape _ _

theorem w11_arg4 : W11 m ρ c (Proc.devRef .tc main_arg4) = x4 m c := by
  show StableHlo.after hostOps5 (W10 m ρ c) (Proc.devRef .tc main_arg4) = _
  simp only [hostOps5]
  after_results_simp
  all_goals exact w10_arg4 m ρ c

theorem w11_v3 : W11 m ρ c (Proc.devRef .tc main_v3) = Cert.ReferenceIdeal.Read.val_main_v3 (F := Ideal) (x1 m c) := by
  show StableHlo.after hostOps5 (W10 m ρ c) (Proc.devRef .tc main_v3) = _
  simp only [hostOps5]
  after_results_simp
  all_goals exact w10_v3 m ρ c

theorem w11_v27 : W11 m ρ c (Proc.devRef .tc main_v27) = Cert.ReferenceIdeal.Read.val_main_v27 (F := Ideal) (x1 m c) := by
  show StableHlo.after hostOps5 (W10 m ρ c) (Proc.devRef .tc main_v27) = _
  simp only [hostOps5]
  after_results_simp
  all_goals exact w10_v27 m ρ c

theorem w11_arg5 : W11 m ρ c (Proc.devRef .tc main_arg5) = x5 m c := by
  show StableHlo.after hostOps5 (W10 m ρ c) (Proc.devRef .tc main_arg5) = _
  simp only [hostOps5]
  after_results_simp
  all_goals exact w10_arg5 m ρ c

theorem w11_arg6 : W11 m ρ c (Proc.devRef .tc main_arg6) = x6 m c := by
  show StableHlo.after hostOps5 (W10 m ρ c) (Proc.devRef .tc main_arg6) = _
  simp only [hostOps5]
  after_results_simp
  all_goals exact w10_arg6 m ρ c

theorem w11_arg7 : W11 m ρ c (Proc.devRef .tc main_arg7) = x7 m c := by
  show StableHlo.after hostOps5 (W10 m ρ c) (Proc.devRef .tc main_arg7) = _
  simp only [hostOps5]
  after_results_simp
  all_goals exact w10_arg7 m ρ c

/-! ## Boundary 12 -/

theorem w12_v6 : W12 m ρ c (Proc.devRef .tc main_v6) = Cert.ReferenceIdeal.Read.val_main_v6 (F := Ideal) (x1 m c) :=
  (W12_of_ne m ρ c main_v6 (by decide)).trans (w11_v6 m ρ c)

theorem w12_v80 : W12 m ρ c (Proc.devRef .tc main_v80) = Cert.ReferenceIdeal.Read.val_main_v86 (F := Ideal) (x0 m c) (x1 m c) (x2 m c) (x3 m c) (x4 m c) (x5 m c) :=
  ((W12_arr m ρ c 2).trans (final5 (V11 m ρ) c)).trans
    (congrArg₂ (Cert.ReferenceIdeal.Layers.biasRelu (F := Ideal)) (w11_v78 m ρ c) (w11_v79 m ρ c))

theorem w12_arg4 : W12 m ρ c (Proc.devRef .tc main_arg4) = x4 m c :=
  (W12_of_ne m ρ c main_arg4 (by decide)).trans (w11_arg4 m ρ c)

theorem w12_v3 : W12 m ρ c (Proc.devRef .tc main_v3) = Cert.ReferenceIdeal.Read.val_main_v3 (F := Ideal) (x1 m c) :=
  (W12_of_ne m ρ c main_v3 (by decide)).trans (w11_v3 m ρ c)

theorem w12_v27 : W12 m ρ c (Proc.devRef .tc main_v27) = Cert.ReferenceIdeal.Read.val_main_v27 (F := Ideal) (x1 m c) :=
  (W12_of_ne m ρ c main_v27 (by decide)).trans (w11_v27 m ρ c)

theorem w12_arg5 : W12 m ρ c (Proc.devRef .tc main_arg5) = x5 m c :=
  (W12_of_ne m ρ c main_arg5 (by decide)).trans (w11_arg5 m ρ c)

theorem w12_arg6 : W12 m ρ c (Proc.devRef .tc main_arg6) = x6 m c :=
  (W12_of_ne m ρ c main_arg6 (by decide)).trans (w11_arg6 m ρ c)

theorem w12_arg7 : W12 m ρ c (Proc.devRef .tc main_arg7) = x7 m c :=
  (W12_of_ne m ρ c main_arg7 (by decide)).trans (w11_arg7 m ρ c)

end Cert.KernelIdeal.Chain

end
-- ==== Proof.Chain3.lean ====
/-
  The buffers of the idealized kernel program through hidden layer 3, as the reference's stages.

  From the previous layer's activations: the host slices layer 3's weight matrix and bias vector out of the stacked
  arguments; the projection region leaves the reference's projection of the activations by that matrix; the host
  gathers the projected rows along the edges' sources, scales them by the edge norms and adds them up per
  destination node, and lays the bias out as one row; the bias region leaves the maximum of the sum-plus-bias with
  zero.  Each of these buffers holds the reference's stage of the same arguments, and the edge arrays and the
  arguments still needed are carried unchanged.
-/
import proofs.«100903_j60189671686197_1_alg».proof.Proof.Chain2
import proofs.«100903_j60189671686197_1_alg».proof.Proof.RegB
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Regions

variable (m : (ℓ : Loc nD τ sig) → Buf (Elt Ideal) ℓ) (ρ : Dev nD → PrngReg) (c : Dev nD)

/-! ## Boundary 13 -/

theorem w13_v6 : W13 m ρ c (Proc.devRef .tc main_v6) = Cert.ReferenceIdeal.Read.val_main_v6 (F := Ideal) (x1 m c) := by
  show StableHlo.after hostOps6 (W12 m ρ c) (Proc.devRef .tc main_v6) = _
  simp only [hostOps6]
  after_results_simp
  all_goals exact w12_v6 m ρ c

theorem w13_v80 : W13 m ρ c (Proc.devRef .tc main_v80) = Cert.ReferenceIdeal.Read.val_main_v86 (F := Ideal) (x0 m c) (x1 m c) (x2 m c) (x3 m c) (x4 m c) (x5 m c) := by
  show StableHlo.after hostOps6 (W12 m ρ c) (Proc.devRef .tc main_v80) = _
  simp only [hostOps6]
  after_results_simp
  all_goals exact w12_v80 m ρ c

theorem w13_v82 : W13 m ρ c (Proc.devRef .tc main_v82) = Cert.ReferenceIdeal.Read.val_main_v88 (F := Ideal) (x4 m c) := by
  show StableHlo.after hostOps6 (W12 m ρ c) (Proc.devRef .tc main_v82) = _
  simp only [hostOps6]
  after_results_simp
  rw [w12_arg4 m ρ c]
  rfl

theorem w13_v3 : W13 m ρ c (Proc.devRef .tc main_v3) = Cert.ReferenceIdeal.Read.val_main_v3 (F := Ideal) (x1 m c) := by
  show StableHlo.after hostOps6 (W12 m ρ c) (Proc.devRef .tc main_v3) = _
  simp only [hostOps6]
  after_results_simp
  all_goals exact w12_v3 m ρ c

theorem w13_v27 : W13 m ρ c (Proc.devRef .tc main_v27) = Cert.ReferenceIdeal.Read.val_main_v27 (F := Ideal) (x1 m c) := by
  show StableHlo.after hostOps6 (W12 m ρ c) (Proc.devRef .tc main_v27) = _
  simp only [hostOps6]
  after_results_simp
  all_goals exact w12_v27 m ρ c

theorem w13_v84 : W13 m ρ c (Proc.devRef .tc main_v84) = Cert.ReferenceIdeal.Read.val_main_v90 (F := Ideal) (x5 m c) := by
  show StableHlo.after hostOps6 (W12 m ρ c) (Proc.devRef .tc main_v84) = _
  simp only [hostOps6]
  after_results_simp
  rw [w12_arg5 m ρ c]
  rfl

theorem w13_arg4 : W13 m ρ c (Proc.devRef .tc main_arg4) = x4 m c := by
  show StableHlo.after hostOps6 (W12 m ρ c) (Proc.devRef .tc main_arg4) = _
  simp only [hostOps6]
  after_results_simp
  all_goals exact w12_arg4 m ρ c

theorem w13_arg5 : W13 m ρ c (Proc.devRef .tc main_arg5) = x5 m c := by
  show StableHlo.after hostOps6 (W12 m ρ c) (Proc.devRef .tc main_arg5) = _
  simp only [hostOps6]
  after_results_simp
  all_goals exact w12_arg5 m ρ c

theorem w13_arg6 : W13 m ρ c (Proc.devRef .tc main_arg6) = x6 m c := by
  show StableHlo.after hostOps6 (W12 m ρ c) (Proc.devRef .tc main_arg6) = _
  simp only [hostOps6]
  after_results_simp
  all_goals exact w12_arg6 m ρ c

theorem w13_arg7 : W13 m ρ c (Proc.devRef .tc main_arg7) = x7 m c := by
  show StableHlo.after hostOps6 (W12 m ρ c) (Proc.devRef .tc main_arg7) = _
  simp only [hostOps6]
  after_results_simp
  all_goals exact w12_arg7 m ρ c

/-! ## Boundary 14 -/

theorem w14_v6 : W14 m ρ c (Proc.devRef .tc main_v6) = Cert.ReferenceIdeal.Read.val_main_v6 (F := Ideal) (x1 m c) :=
  (W14_of_ne m ρ c main_v6 (by decide)).trans (w13_v6 m ρ c)

theorem w14_v85 : W14 m ρ c (Proc.devRef .tc main_v85) = Cert.ReferenceIdeal.Read.val_main_v91 (F := Ideal) (x0 m c) (x1 m c) (x2 m c) (x3 m c) (x4 m c) (x5 m c) :=
  ((W14_arr m ρ c 2).trans (final6 (V13 m ρ) c)).trans
    (congrArg₂ (Cert.ReferenceIdeal.Layers.proj (F := Ideal)) (w13_v80 m ρ c) (w13_v82 m ρ c))

theorem w14_v3 : W14 m ρ c (Proc.devRef .tc main_v3) = Cert.ReferenceIdeal.Read.val_main_v3 (F := Ideal) (x1 m c) :=
  (W14_of_ne m ρ c main_v3 (by decide)).trans (w13_v3 m ρ c)

theorem w14_v27 : W14 m ρ c (Proc.devRef .tc main_v27) = Cert.ReferenceIdeal.Read.val_main_v27 (F := Ideal) (x1 m c) :=
  (W14_of_ne m ρ c main_v27 (by decide)).trans (w13_v27 m ρ c)

theorem w14_v84 : W14 m ρ c (Proc.devRef .tc main_v84) = Cert.ReferenceIdeal.Read.val_main_v90 (F := Ideal) (x5 m c) :=
  (W14_of_ne m ρ c main_v84 (by decide)).trans (w13_v84 m ρ c)

theorem w14_arg4 : W14 m ρ c (Proc.devRef .tc main_arg4) = x4 m c :=
  (W14_of_ne m ρ c main_arg4 (by decide)).trans (w13_arg4 m ρ c)

theorem w14_arg5 : W14 m ρ c (Proc.devRef .tc main_arg5) = x5 m c :=
  (W14_of_ne m ρ c main_arg5 (by decide)).trans (w13_arg5 m ρ c)

theorem w14_arg6 : W14 m ρ c (Proc.devRef .tc main_arg6) = x6 m c :=
  (W14_of_ne m ρ c main_arg6 (by decide)).trans (w13_arg6 m ρ c)

theorem w14_arg7 : W14 m ρ c (Proc.devRef .tc main_arg7) = x7 m c :=
  (W14_of_ne m ρ c main_arg7 (by decide)).trans (w13_arg7 m ρ c)

/-! ## Boundary 15 -/

theorem w15_v6 : W15 m ρ c (Proc.devRef .tc main_v6) = Cert.ReferenceIdeal.Read.val_main_v6 (F := Ideal) (x1 m c) := by
  show StableHlo.after hostOps7 (W14 m ρ c) (Proc.devRef .tc main_v6) = _
  simp only [hostOps7]
  after_results_simp
  all_goals exact w14_v6 m ρ c

theorem w15_v97 : W15 m ρ c (Proc.devRef .tc main_v97) = Cert.ReferenceIdeal.Read.val_main_v103 (F := Ideal) (x0 m c) (x1 m c) (x2 m c) (x3 m c) (x4 m c) (x5 m c) := by
  show StableHlo.after hostOps7 (W14 m ρ c) (Proc.devRef .tc main_v97) = _
  simp only [hostOps7]
  after_results_simp
  rw [w14_v6 m ρ c, w14_v85 m ρ c, w14_v3 m ρ c, w14_v27 m ρ c]
  rfl

theorem w15_v98 : W15 m ρ c (Proc.devRef .tc main_v98) = Cert.ReferenceIdeal.Read.val_main_v104 (F := Ideal) (x5 m c) := by
  show StableHlo.after hostOps7 (W14 m ρ c) (Proc.devRef .tc main_v98) = _
  simp only [hostOps7]
  after_results_simp
  rw [w14_v84 m ρ c]
  exact Cert.ReferenceIdeal.Layers.row_of_reshape _ _

theorem w15_arg4 : W15 m ρ c (Proc.devRef .tc main_arg4) = x4 m c := by
  show StableHlo.after hostOps7 (W14 m ρ c) (Proc.devRef .tc main_arg4) = _
  simp only [hostOps7]
  after_results_simp
  all_goals exact w14_arg4 m ρ c

theorem w15_v3 : W15 m ρ c (Proc.devRef .tc main_v3) = Cert.ReferenceIdeal.Read.val_main_v3 (F := Ideal) (x1 m c) := by
  show StableHlo.after hostOps7 (W14 m ρ c) (Proc.devRef .tc main_v3) = _
  simp only [hostOps7]
  after_results_simp
  all_goals exact w14_v3 m ρ c

theorem w15_v27 : W15 m ρ c (Proc.devRef .tc main_v27) = Cert.ReferenceIdeal.Read.val_main_v27 (F := Ideal) (x1 m c) := by
  show StableHlo.after hostOps7 (W14 m ρ c) (Proc.devRef .tc main_v27) = _
  simp only [hostOps7]
  after_results_simp
  all_goals exact w14_v27 m ρ c

theorem w15_arg5 : W15 m ρ c (Proc.devRef .tc main_arg5) = x5 m c := by
  show StableHlo.after hostOps7 (W14 m ρ c) (Proc.devRef .tc main_arg5) = _
  simp only [hostOps7]
  after_results_simp
  all_goals exact w14_arg5 m ρ c

theorem w15_arg6 : W15 m ρ c (Proc.devRef .tc main_arg6) = x6 m c := by
  show StableHlo.after hostOps7 (W14 m ρ c) (Proc.devRef .tc main_arg6) = _
  simp only [hostOps7]
  after_results_simp
  all_goals exact w14_arg6 m ρ c

theorem w15_arg7 : W15 m ρ c (Proc.devRef .tc main_arg7) = x7 m c := by
  show StableHlo.after hostOps7 (W14 m ρ c) (Proc.devRef .tc main_arg7) = _
  simp only [hostOps7]
  after_results_simp
  all_goals exact w14_arg7 m ρ c

/-! ## Boundary 16 -/

theorem w16_v6 : W16 m ρ c (Proc.devRef .tc main_v6) = Cert.ReferenceIdeal.Read.val_main_v6 (F := Ideal) (x1 m c) :=
  (W16_of_ne m ρ c main_v6 (by decide)).trans (w15_v6 m ρ c)

theorem w16_v99 : W16 m ρ c (Proc.devRef .tc main_v99) = Cert.ReferenceIdeal.Read.val_main_v107 (F := Ideal) (x0 m c) (x1 m c) (x2 m c) (x3 m c) (x4 m c) (x5 m c) :=
  ((W16_arr m ρ c 2).trans (final7 (V15 m ρ) c)).trans
    (congrArg₂ (Cert.ReferenceIdeal.Layers.biasRelu (F := Ideal)) (w15_v97 m ρ c) (w15_v98 m ρ c))

theorem w16_arg4 : W16 m ρ c (Proc.devRef .tc main_arg4) = x4 m c :=
  (W16_of_ne m ρ c main_arg4 (by decide)).trans (w15_arg4 m ρ c)

theorem w16_v3 : W16 m ρ c (Proc.devRef .tc main_v3) = Cert.ReferenceIdeal.Read.val_main_v3 (F := Ideal) (x1 m c) :=
  (W16_of_ne m ρ c main_v3 (by decide)).trans (w15_v3 m ρ c)

theorem w16_v27 : W16 m ρ c (Proc.devRef .tc main_v27) = Cert.ReferenceIdeal.Read.val_main_v27 (F := Ideal) (x1 m c) :=
  (W16_of_ne m ρ c main_v27 (by decide)).trans (w15_v27 m ρ c)

theorem w16_arg5 : W16 m ρ c (Proc.devRef .tc main_arg5) = x5 m c :=
  (W16_of_ne m ρ c main_arg5 (by decide)).trans (w15_arg5 m ρ c)

theorem w16_arg6 : W16 m ρ c (Proc.devRef .tc main_arg6) = x6 m c :=
  (W16_of_ne m ρ c main_arg6 (by decide)).trans (w15_arg6 m ρ c)

theorem w16_arg7 : W16 m ρ c (Proc.devRef .tc main_arg7) = x7 m c :=
  (W16_of_ne m ρ c main_arg7 (by decide)).trans (w15_arg7 m ρ c)

end Cert.KernelIdeal.Chain

end
-- ==== Proof.RegC.lean ====
/-
  Regions 8–11 of the idealized kernel program, each read as a whole array.

  Every region runs its kernel at ten grid points.  Point `t` reads rows 10000 t … 10000 t + 9999 of the region's
  first operand and the whole of its second, and writes the same rows of the result.  A projection region's
  element [r, c] at point `t` is `∑ k < 64, x[10000 t + r, k] · w[k, c]`; a bias region's is
  `max (a[10000 t + r, c] + b[0, c]) 0` (the last one, of a single column, `a[10000 t + r, 0] + b[0, 0]`).  Each is the
  element [10000 t + r, c] of one function of the two WHOLE operand arrays — the reference's projection, or its
  bias-and-maximum — and the ten blocks tile the result array.  So each region leaves its result array holding that
  function of the two arrays it found on entry, whatever they are.
-/
import proofs.«100903_j60189671686197_1_alg».proof.Proof.Gen.KernelIdeal.Frame
import proofs.«100903_j60189671686197_1_alg».proof.Proof.Mat64
import proofs.«100903_j60189671686197_1_alg».proof.Proof.BiasAct
import proofs.«100903_j60189671686197_1_alg».proof.Proof.RefLayers
import proofs.«100903_j60189671686197_1_alg».proof.Proof.RegCommon
import Idealize.ShloMosaic.Lib.Pipeline.Value

set_option maxRecDepth 16384

noncomputable section

namespace Cert.KernelIdeal.Regions

open Idealize.ShloMosaic Idealize.ShloMosaic.TcCoe Idealize.SL.Sem
open Idealize.ShloMosaic.Pipeline (Dat)
open Cert.KernelIdeal Cert.KernelIdeal.Gen Cert.KernelIdeal.Blocks
open Cert.ReferenceIdeal.Read (lidx_main_v28 ridx_main_v28 lidx_main_v171 ridx_main_v171 idx_main_v42 idx_main_v184)

/-! ## Region 8: a projection by a 64 × 64 weight matrix -/

section Region8
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx8 : ∀ t : Fin cfg8.N, win8_0.index t (0 : Fin 2) = win8_2.index t (0 : Fin 2)
    ∧ win8_0.index t (1 : Fin 2) = 0 ∧ win8_1.index t (0 : Fin 2) = 0 ∧ win8_1.index t (1 : Fin 2) = 0
    ∧ win8_2.index t (1 : Fin 2) = 0 ∧ win8_2.index t (0 : Fin 2) = t.val :=
  (by decide +kernel : ∀ t : Fin grid8.N, _)

/-- What grid point `t` writes back is block `t` of the whole projection of the two arrays the region finds. -/
theorem flushed8 (c : Dev nD) (t : Fin cfg8.N) :
    (dat8 V c).flushed 2 t = ((cfg8.win 2).blk t).view.read (Elt Ideal)
      (Cert.ReferenceIdeal.Layers.proj (F := Ideal) (V c (Pipeline.arrRef spec8 0)) (V c (Pipeline.arrRef spec8 1))) := by
  show (cfg8.win 2).cut (grid8.coords t) ((dat8 V c).after 2 t) = _
  rw [after8_2]
  unfold out8_2
  rw [View.canon_unit_zero hz2]
  simp only [View.ld_unit_zero (S := S10000x64) hz2, View.ld_unit_zero (S := S64x64) hz2]
  obtain ⟨e0, e1, e2, e3, e4, e5⟩ := idx8 t
  funext j
  refine (pay_hidden_apply (iblk8 V c 0 t) (iblk8 V c 1 t) j).trans ?_
  refine Eq.trans ?_ (Cert.ReferenceIdeal.Layers.proj_apply (V c (Pipeline.arrRef spec8 0)) (V c (Pipeline.arrRef spec8 1)) (((cfg8.win 2).blk t).view.emb j)).symm
  refine Finset.sum_congr rfl fun k _ => ?_
  have h0 : ((cfg8.win 0).blk t).view.emb (lrow j k) = lidx_main_v28 (((cfg8.win 2).blk t).view.emb j) k := by
    funext a; apply Fin.ext
    match a with
    | ⟨0, _⟩ => show win8_0.index t (0 : Fin 2) * 10000 + 1 * (j 0).val = win8_2.index t (0 : Fin 2) * 10000 + 1 * (j 0).val; omega
    | ⟨1, _⟩ => show win8_0.index t (1 : Fin 2) * 64 + 1 * k.val = k.val; omega
  have h1 : ((cfg8.win 1).blk t).view.emb (rcol j k) = ridx_main_v28 (((cfg8.win 2).blk t).view.emb j) k := by
    funext a; apply Fin.ext
    match a with
    | ⟨0, _⟩ => show win8_1.index t (0 : Fin 2) * 64 + 1 * k.val = k.val; omega
    | ⟨1, _⟩ => show win8_1.index t (1 : Fin 2) * 64 + 1 * (j 1).val = win8_2.index t (1 : Fin 2) * 64 + 1 * (j 1).val; omega
  exact mul_at (s := S100000x64) (s' := S64x64) (V c (Pipeline.arrRef spec8 0)) (V c (Pipeline.arrRef spec8 1)) h0 h1

/-- An index of the result array lies in point `t`'s block iff each coordinate lies in the block's range. -/
theorem mem_blk8 (t : Fin cfg8.N) (i : S100000x64.Idx) :
    i ∈ ((cfg8.win 2).blk t).view.set ↔ ∀ a : Fin 2, win8_2.index t a * S10000x64.size a ≤ (i a).val ∧ (i a).val < win8_2.index t a * S10000x64.size a + S10000x64.size a := by
  show i ∈ ((View.whole main_v104).slice (win8_2.rect t)).set ↔ _
  rw [View.set_slice_whole, Rect.mem_set_unit]
  exact Iff.rfl

/-- Row `n` is written by grid point `n / 10000`: the ten blocks tile the array. -/
theorem cover8 (i : S100000x64.Idx) : ∃ t : Fin cfg8.N, (cfg8.win 2).flush t = true ∧ i ∈ ((cfg8.win 2).blk t).view.set := by
  have hi0 : (i 0).val < 100000 := (i 0).isLt
  have hi1 : (i 1).val < 64 := (i 1).isLt
  have ht : (i 0).val / 10000 < 10 := by omega
  refine ⟨⟨(i 0).val / 10000, ht⟩, flush8_2 _, ?_⟩
  rw [mem_blk8]
  obtain ⟨e0, e1, e2, e3, e4, e5⟩ := idx8 ⟨(i 0).val / 10000, ht⟩
  have e5' : win8_2.index ⟨(i 0).val / 10000, ht⟩ (0 : Fin 2) = (i 0).val / 10000 := e5
  intro a
  match a with
  | ⟨0, _⟩ => show win8_2.index ⟨(i 0).val / 10000, ht⟩ (0 : Fin 2) * 10000 ≤ (i 0).val ∧ (i 0).val < win8_2.index ⟨(i 0).val / 10000, ht⟩ (0 : Fin 2) * 10000 + 10000; omega
  | ⟨1, _⟩ => show win8_2.index ⟨(i 0).val / 10000, ht⟩ (1 : Fin 2) * 64 ≤ (i 1).val ∧ (i 1).val < win8_2.index ⟨(i 0).val / 10000, ht⟩ (1 : Fin 2) * 64 + 64; omega

/-- The region leaves its result array holding the whole projection of the two arrays it found. -/
theorem final8 (c : Dev nD) : (dat8 V c).arrAt 2 cfg8.N
    = Cert.ReferenceIdeal.Layers.proj (F := Ideal) (V c (Pipeline.arrRef spec8 0)) (V c (Pipeline.arrRef spec8 1)) :=
  (dat8 V c).arrAt_eq_of_cover 2 _ (fun t _ => flushed8 V c t) cover8

end Region8

/-! ## Region 9: a hidden layer's bias and maximum with zero -/

section Region9
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx9 : ∀ t : Fin cfg9.N, win9_0.index t (0 : Fin 2) = win9_2.index t (0 : Fin 2)
    ∧ win9_0.index t (1 : Fin 2) = 0 ∧ win9_1.index t (0 : Fin 2) = 0 ∧ win9_1.index t (1 : Fin 2) = 0
    ∧ win9_2.index t (1 : Fin 2) = 0 ∧ win9_2.index t (0 : Fin 2) = t.val :=
  (by decide +kernel : ∀ t : Fin grid9.N, _)

/-- What grid point `t` writes back is block `t` of the whole bias-and-maximum of the two arrays the region finds. -/
theorem flushed9 (c : Dev nD) (t : Fin cfg9.N) :
    (dat9 V c).flushed 2 t = ((cfg9.win 2).blk t).view.read (Elt Ideal)
      (Cert.ReferenceIdeal.Layers.biasRelu (F := Ideal) (V c (Pipeline.arrRef spec9 0)) (V c (Pipeline.arrRef spec9 1))) := by
  show (cfg9.win 2).cut (grid9.coords t) ((dat9 V c).after 2 t) = _
  rw [after9_2]
  unfold out9_2
  rw [View.canon_unit_zero hz2]
  simp only [View.ld_unit_zero (S := S10000x64) hz2, View.ld_unit_zero (S := S1x64) hz2]
  obtain ⟨e0, e1, e2, e3, e4, e5⟩ := idx9 t
  funext j
  refine (pay_bias_relu_apply (iblk9 V c 0 t) (iblk9 V c 1 t) j).trans ?_
  refine Eq.trans ?_ (Cert.ReferenceIdeal.Layers.biasRelu_apply (V c (Pipeline.arrRef spec9 0)) (V c (Pipeline.arrRef spec9 1)) (((cfg9.win 2).blk t).view.emb j)).symm
  have h0 : ((cfg9.win 0).blk t).view.emb j = ((cfg9.win 2).blk t).view.emb j := by
    funext a; apply Fin.ext
    match a with
    | ⟨0, _⟩ => show win9_0.index t (0 : Fin 2) * 10000 + 1 * (j 0).val = win9_2.index t (0 : Fin 2) * 10000 + 1 * (j 0).val; omega
    | ⟨1, _⟩ => show win9_0.index t (1 : Fin 2) * 64 + 1 * (j 1).val = win9_2.index t (1 : Fin 2) * 64 + 1 * (j 1).val; omega
  have h1 : ((cfg9.win 1).blk t).view.emb (brow j) = idx_main_v42 (((cfg9.win 2).blk t).view.emb j) := by
    funext a; apply Fin.ext
    match a with
    | ⟨0, _⟩ => show win9_1.index t (0 : Fin 2) * 1 + 1 * 0 = 0; omega
    | ⟨1, _⟩ => show win9_1.index t (1 : Fin 2) * 64 + 1 * (j 1).val = win9_2.index t (1 : Fin 2) * 64 + 1 * (j 1).val; omega
  exact max_add_at (s := S100000x64) (s' := S1x64) (V c (Pipeline.arrRef spec9 0)) (V c (Pipeline.arrRef spec9 1)) _ h0 h1

/-- An index of the result array lies in point `t`'s block iff each coordinate lies in the block's range. -/
theorem mem_blk9 (t : Fin cfg9.N) (i : S100000x64.Idx) :
    i ∈ ((cfg9.win 2).blk t).view.set ↔ ∀ a : Fin 2, win9_2.index t a * S10000x64.size a ≤ (i a).val ∧ (i a).val < win9_2.index t a * S10000x64.size a + S10000x64.size a := by
  show i ∈ ((View.whole main_v118).slice (win9_2.rect t)).set ↔ _
  rw [View.set_slice_whole, Rect.mem_set_unit]
  exact Iff.rfl

/-- Row `n` is written by grid point `n / 10000`: the ten blocks tile the array. -/
theorem cover9 (i : S100000x64.Idx) : ∃ t : Fin cfg9.N, (cfg9.win 2).flush t = true ∧ i ∈ ((cfg9.win 2).blk t).view.set := by
  have hi0 : (i 0).val < 100000 := (i 0).isLt
  have hi1 : (i 1).val < 64 := (i 1).isLt
  have ht : (i 0).val / 10000 < 10 := by omega
  refine ⟨⟨(i 0).val / 10000, ht⟩, flush9_2 _, ?_⟩
  rw [mem_blk9]
  obtain ⟨e0, e1, e2, e3, e4, e5⟩ := idx9 ⟨(i 0).val / 10000, ht⟩
  have e5' : win9_2.index ⟨(i 0).val / 10000, ht⟩ (0 : Fin 2) = (i 0).val / 10000 := e5
  intro a
  match a with
  | ⟨0, _⟩ => show win9_2.index ⟨(i 0).val / 10000, ht⟩ (0 : Fin 2) * 10000 ≤ (i 0).val ∧ (i 0).val < win9_2.index ⟨(i 0).val / 10000, ht⟩ (0 : Fin 2) * 10000 + 10000; omega
  | ⟨1, _⟩ => show win9_2.index ⟨(i 0).val / 10000, ht⟩ (1 : Fin 2) * 64 ≤ (i 1).val ∧ (i 1).val < win9_2.index ⟨(i 0).val / 10000, ht⟩ (1 : Fin 2) * 64 + 64; omega

/-- The region leaves its result array holding the whole bias-and-maximum of the two arrays it found. -/
theorem final9 (c : Dev nD) : (dat9 V c).arrAt 2 cfg9.N
    = Cert.ReferenceIdeal.Layers.biasRelu (F := Ideal) (V c (Pipeline.arrRef spec9 0)) (V c (Pipeline.arrRef spec9 1)) :=
  (dat9 V c).arrAt_eq_of_cover 2 _ (fun t _ => flushed9 V c t) cover9

end Region9

/-! ## Region 10: a projection by a 64 × 64 weight matrix -/

section Region10
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx10 : ∀ t : Fin cfg10.N, win10_0.index t (0 : Fin 2) = win10_2.index t (0 : Fin 2)
    ∧ win10_0.index t (1 : Fin 2) = 0 ∧ win10_1.index t (0 : Fin 2) = 0 ∧ win10_1.index t (1 : Fin 2) = 0
    ∧ win10_2.index t (1 : Fin 2) = 0 ∧ win10_2.index t (0 : Fin 2) = t.val :=
  (by decide +kernel : ∀ t : Fin grid10.N, _)

/-- What grid point `t` writes back is block `t` of the whole projection of the two arrays the region finds. -/
theorem flushed10 (c : Dev nD) (t : Fin cfg10.N) :
    (dat10 V c).flushed 2 t = ((cfg10.win 2).blk t).view.read (Elt Ideal)
      (Cert.ReferenceIdeal.Layers.proj (F := Ideal) (V c (Pipeline.arrRef spec10 0)) (V c (Pipeline.arrRef spec10 1))) := by
  show (cfg10.win 2).cut (grid10.coords t) ((dat10 V c).after 2 t) = _
  rw [after10_2]
  unfold out10_2
  rw [View.canon_unit_zero hz2]
  simp only [View.ld_unit_zero (S := S10000x64) hz2, View.ld_unit_zero (S := S64x64) hz2]
  obtain ⟨e0, e1, e2, e3, e4, e5⟩ := idx10 t
  funext j
  refine (pay_hidden_apply (iblk10 V c 0 t) (iblk10 V c 1 t) j).trans ?_
  refine Eq.trans ?_ (Cert.ReferenceIdeal.Layers.proj_apply (V c (Pipeline.arrRef spec10 0)) (V c (Pipeline.arrRef spec10 1)) (((cfg10.win 2).blk t).view.emb j)).symm
  refine Finset.sum_congr rfl fun k _ => ?_
  have h0 : ((cfg10.win 0).blk t).view.emb (lrow j k) = lidx_main_v28 (((cfg10.win 2).blk t).view.emb j) k := by
    funext a; apply Fin.ext
    match a with
    | ⟨0, _⟩ => show win10_0.index t (0 : Fin 2) * 10000 + 1 * (j 0).val = win10_2.index t (0 : Fin 2) * 10000 + 1 * (j 0).val; omega
    | ⟨1, _⟩ => show win10_0.index t (1 : Fin 2) * 64 + 1 * k.val = k.val; omega
  have h1 : ((cfg10.win 1).blk t).view.emb (rcol j k) = ridx_main_v28 (((cfg10.win 2).blk t).view.emb j) k := by
    funext a; apply Fin.ext
    match a with
    | ⟨0, _⟩ => show win10_1.index t (0 : Fin 2) * 64 + 1 * k.val = k.val; omega
    | ⟨1, _⟩ => show win10_1.index t (1 : Fin 2) * 64 + 1 * (j 1).val = win10_2.index t (1 : Fin 2) * 64 + 1 * (j 1).val; omega
  exact mul_at (s := S100000x64) (s' := S64x64) (V c (Pipeline.arrRef spec10 0)) (V c (Pipeline.arrRef spec10 1)) h0 h1

/-- An index of the result array lies in point `t`'s block iff each coordinate lies in the block's range. -/
theorem mem_blk10 (t : Fin cfg10.N) (i : S100000x64.Idx) :
    i ∈ ((cfg10.win 2).blk t).view.set ↔ ∀ a : Fin 2, win10_2.index t a * S10000x64.size a ≤ (i a).val ∧ (i a).val < win10_2.index t a * S10000x64.size a + S10000x64.size a := by
  show i ∈ ((View.whole main_v123).slice (win10_2.rect t)).set ↔ _
  rw [View.set_slice_whole, Rect.mem_set_unit]
  exact Iff.rfl

/-- Row `n` is written by grid point `n / 10000`: the ten blocks tile the array. -/
theorem cover10 (i : S100000x64.Idx) : ∃ t : Fin cfg10.N, (cfg10.win 2).flush t = true ∧ i ∈ ((cfg10.win 2).blk t).view.set := by
  have hi0 : (i 0).val < 100000 := (i 0).isLt
  have hi1 : (i 1).val < 64 := (i 1).isLt
  have ht : (i 0).val / 10000 < 10 := by omega
  refine ⟨⟨(i 0).val / 10000, ht⟩, flush10_2 _, ?_⟩
  rw [mem_blk10]
  obtain ⟨e0, e1, e2, e3, e4, e5⟩ := idx10 ⟨(i 0).val / 10000, ht⟩
  have e5' : win10_2.index ⟨(i 0).val / 10000, ht⟩ (0 : Fin 2) = (i 0).val / 10000 := e5
  intro a
  match a with
  | ⟨0, _⟩ => show win10_2.index ⟨(i 0).val / 10000, ht⟩ (0 : Fin 2) * 10000 ≤ (i 0).val ∧ (i 0).val < win10_2.index ⟨(i 0).val / 10000, ht⟩ (0 : Fin 2) * 10000 + 10000; omega
  | ⟨1, _⟩ => show win10_2.index ⟨(i 0).val / 10000, ht⟩ (1 : Fin 2) * 64 ≤ (i 1).val ∧ (i 1).val < win10_2.index ⟨(i 0).val / 10000, ht⟩ (1 : Fin 2) * 64 + 64; omega

/-- The region leaves its result array holding the whole projection of the two arrays it found. -/
theorem final10 (c : Dev nD) : (dat10 V c).arrAt 2 cfg10.N
    = Cert.ReferenceIdeal.Layers.proj (F := Ideal) (V c (Pipeline.arrRef spec10 0)) (V c (Pipeline.arrRef spec10 1)) :=
  (dat10 V c).arrAt_eq_of_cover 2 _ (fun t _ => flushed10 V c t) cover10

end Region10

/-! ## Region 11: a hidden layer's bias and maximum with zero -/

section Region11
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx11 : ∀ t : Fin cfg11.N, win11_0.index t (0 : Fin 2) = win11_2.index t (0 : Fin 2)
    ∧ win11_0.index t (1 : Fin 2) = 0 ∧ win11_1.index t (0 : Fin 2) = 0 ∧ win11_1.index t (1 : Fin 2) = 0
    ∧ win11_2.index t (1 : Fin 2) = 0 ∧ win11_2.index t (0 : Fin 2) = t.val :=
  (by decide +kernel : ∀ t : Fin grid11.N, _)

/-- What grid point `t` writes back is block `t` of the whole bias-and-maximum of the two arrays the region finds. -/
theorem flushed11 (c : Dev nD) (t : Fin cfg11.N) :
    (dat11 V c).flushed 2 t = ((cfg11.win 2).blk t).view.read (Elt Ideal)
      (Cert.ReferenceIdeal.Layers.biasRelu (F := Ideal) (V c (Pipeline.arrRef spec11 0)) (V c (Pipeline.arrRef spec11 1))) := by
  show (cfg11.win 2).cut (grid11.coords t) ((dat11 V c).after 2 t) = _
  rw [after11_2]
  unfold out11_2
  rw [View.canon_unit_zero hz2]
  simp only [View.ld_unit_zero (S := S10000x64) hz2, View.ld_unit_zero (S := S1x64) hz2]
  obtain ⟨e0, e1, e2, e3, e4, e5⟩ := idx11 t
  funext j
  refine (pay_bias_relu_apply (iblk11 V c 0 t) (iblk11 V c 1 t) j).trans ?_
  refine Eq.trans ?_ (Cert.ReferenceIdeal.Layers.biasRelu_apply (V c (Pipeline.arrRef spec11 0)) (V c (Pipeline.arrRef spec11 1)) (((cfg11.win 2).blk t).view.emb j)).symm
  have h0 : ((cfg11.win 0).blk t).view.emb j = ((cfg11.win 2).blk t).view.emb j := by
    funext a; apply Fin.ext
    match a with
    | ⟨0, _⟩ => show win11_0.index t (0 : Fin 2) * 10000 + 1 * (j 0).val = win11_2.index t (0 : Fin 2) * 10000 + 1 * (j 0).val; omega
    | ⟨1, _⟩ => show win11_0.index t (1 : Fin 2) * 64 + 1 * (j 1).val = win11_2.index t (1 : Fin 2) * 64 + 1 * (j 1).val; omega
  have h1 : ((cfg11.win 1).blk t).view.emb (brow j) = idx_main_v42 (((cfg11.win 2).blk t).view.emb j) := by
    funext a; apply Fin.ext
    match a with
    | ⟨0, _⟩ => show win11_1.index t (0 : Fin 2) * 1 + 1 * 0 = 0; omega
    | ⟨1, _⟩ => show win11_1.index t (1 : Fin 2) * 64 + 1 * (j 1).val = win11_2.index t (1 : Fin 2) * 64 + 1 * (j 1).val; omega
  exact max_add_at (s := S100000x64) (s' := S1x64) (V c (Pipeline.arrRef spec11 0)) (V c (Pipeline.arrRef spec11 1)) _ h0 h1

/-- An index of the result array lies in point `t`'s block iff each coordinate lies in the block's range. -/
theorem mem_blk11 (t : Fin cfg11.N) (i : S100000x64.Idx) :
    i ∈ ((cfg11.win 2).blk t).view.set ↔ ∀ a : Fin 2, win11_2.index t a * S10000x64.size a ≤ (i a).val ∧ (i a).val < win11_2.index t a * S10000x64.size a + S10000x64.size a := by
  show i ∈ ((View.whole main_v137).slice (win11_2.rect t)).set ↔ _
  rw [View.set_slice_whole, Rect.mem_set_unit]
  exact Iff.rfl

/-- Row `n` is written by grid point `n / 10000`: the ten blocks tile the array. -/
theorem cover11 (i : S100000x64.Idx) : ∃ t : Fin cfg11.N, (cfg11.win 2).flush t = true ∧ i ∈ ((cfg11.win 2).blk t).view.set := by
  have hi0 : (i 0).val < 100000 := (i 0).isLt
  have hi1 : (i 1).val < 64 := (i 1).isLt
  have ht : (i 0).val / 10000 < 10 := by omega
  refine ⟨⟨(i 0).val / 10000, ht⟩, flush11_2 _, ?_⟩
  rw [mem_blk11]
  obtain ⟨e0, e1, e2, e3, e4, e5⟩ := idx11 ⟨(i 0).val / 10000, ht⟩
  have e5' : win11_2.index ⟨(i 0).val / 10000, ht⟩ (0 : Fin 2) = (i 0).val / 10000 := e5
  intro a
  match a with
  | ⟨0, _⟩ => show win11_2.index ⟨(i 0).val / 10000, ht⟩ (0 : Fin 2) * 10000 ≤ (i 0).val ∧ (i 0).val < win11_2.index ⟨(i 0).val / 10000, ht⟩ (0 : Fin 2) * 10000 + 10000; omega
  | ⟨1, _⟩ => show win11_2.index ⟨(i 0).val / 10000, ht⟩ (1 : Fin 2) * 64 ≤ (i 1).val ∧ (i 1).val < win11_2.index ⟨(i 0).val / 10000, ht⟩ (1 : Fin 2) * 64 + 64; omega

/-- The region leaves its result array holding the whole bias-and-maximum of the two arrays it found. -/
theorem final11 (c : Dev nD) : (dat11 V c).arrAt 2 cfg11.N
    = Cert.ReferenceIdeal.Layers.biasRelu (F := Ideal) (V c (Pipeline.arrRef spec11 0)) (V c (Pipeline.arrRef spec11 1)) :=
  (dat11 V c).arrAt_eq_of_cover 2 _ (fun t _ => flushed11 V c t) cover11

end Region11

end Cert.KernelIdeal.Regions

end
-- ==== Proof.Chain4.lean ====
/-
  The buffers of the idealized kernel program through hidden layer 4, as the reference's stages.

  From the previous layer's activations: the host slices layer 4's weight matrix and bias vector out of the stacked
  arguments; the projection region leaves the reference's projection of the activations by that matrix; the host
  gathers the projected rows along the edges' sources, scales them by the edge norms and adds them up per
  destination node, and lays the bias out as one row; the bias region leaves the maximum of the sum-plus-bias with
  zero.  Each of these buffers holds the reference's stage of the same arguments, and the edge arrays and the
  arguments still needed are carried unchanged.
-/
import proofs.«100903_j60189671686197_1_alg».proof.Proof.Chain3
import proofs.«100903_j60189671686197_1_alg».proof.Proof.RegC
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Regions

variable (m : (ℓ : Loc nD τ sig) → Buf (Elt Ideal) ℓ) (ρ : Dev nD → PrngReg) (c : Dev nD)

/-! ## Boundary 17 -/

theorem w17_v6 : W17 m ρ c (Proc.devRef .tc main_v6) = Cert.ReferenceIdeal.Read.val_main_v6 (F := Ideal) (x1 m c) := by
  show StableHlo.after hostOps8 (W16 m ρ c) (Proc.devRef .tc main_v6) = _
  simp only [hostOps8]
  after_results_simp
  all_goals exact w16_v6 m ρ c

theorem w17_v99 : W17 m ρ c (Proc.devRef .tc main_v99) = Cert.ReferenceIdeal.Read.val_main_v107 (F := Ideal) (x0 m c) (x1 m c) (x2 m c) (x3 m c) (x4 m c) (x5 m c) := by
  show StableHlo.after hostOps8 (W16 m ρ c) (Proc.devRef .tc main_v99) = _
  simp only [hostOps8]
  after_results_simp
  all_goals exact w16_v99 m ρ c

theorem w17_v101 : W17 m ρ c (Proc.devRef .tc main_v101) = Cert.ReferenceIdeal.Read.val_main_v109 (F := Ideal) (x4 m c) := by
  show StableHlo.after hostOps8 (W16 m ρ c) (Proc.devRef .tc main_v101) = _
  simp only [hostOps8]
  after_results_simp
  rw [w16_arg4 m ρ c]
  rfl

theorem w17_v3 : W17 m ρ c (Proc.devRef .tc main_v3) = Cert.ReferenceIdeal.Read.val_main_v3 (F := Ideal) (x1 m c) := by
  show StableHlo.after hostOps8 (W16 m ρ c) (Proc.devRef .tc main_v3) = _
  simp only [hostOps8]
  after_results_simp
  all_goals exact w16_v3 m ρ c

theorem w17_v27 : W17 m ρ c (Proc.devRef .tc main_v27) = Cert.ReferenceIdeal.Read.val_main_v27 (F := Ideal) (x1 m c) := by
  show StableHlo.after hostOps8 (W16 m ρ c) (Proc.devRef .tc main_v27) = _
  simp only [hostOps8]
  after_results_simp
  all_goals exact w16_v27 m ρ c

theorem w17_v103 : W17 m ρ c (Proc.devRef .tc main_v103) = Cert.ReferenceIdeal.Read.val_main_v111 (F := Ideal) (x5 m c) := by
  show StableHlo.after hostOps8 (W16 m ρ c) (Proc.devRef .tc main_v103) = _
  simp only [hostOps8]
  after_results_simp
  rw [w16_arg5 m ρ c]
  rfl

theorem w17_arg4 : W17 m ρ c (Proc.devRef .tc main_arg4) = x4 m c := by
  show StableHlo.after hostOps8 (W16 m ρ c) (Proc.devRef .tc main_arg4) = _
  simp only [hostOps8]
  after_results_simp
  all_goals exact w16_arg4 m ρ c

theorem w17_arg5 : W17 m ρ c (Proc.devRef .tc main_arg5) = x5 m c := by
  show StableHlo.after hostOps8 (W16 m ρ c) (Proc.devRef .tc main_arg5) = _
  simp only [hostOps8]
  after_results_simp
  all_goals exact w16_arg5 m ρ c

theorem w17_arg6 : W17 m ρ c (Proc.devRef .tc main_arg6) = x6 m c := by
  show StableHlo.after hostOps8 (W16 m ρ c) (Proc.devRef .tc main_arg6) = _
  simp only [hostOps8]
  after_results_simp
  all_goals exact w16_arg6 m ρ c

theorem w17_arg7 : W17 m ρ c (Proc.devRef .tc main_arg7) = x7 m c := by
  show StableHlo.after hostOps8 (W16 m ρ c) (Proc.devRef .tc main_arg7) = _
  simp only [hostOps8]
  after_results_simp
  all_goals exact w16_arg7 m ρ c

/-! ## Boundary 18 -/

theorem w18_v6 : W18 m ρ c (Proc.devRef .tc main_v6) = Cert.ReferenceIdeal.Read.val_main_v6 (F := Ideal) (x1 m c) :=
  (W18_of_ne m ρ c main_v6 (by decide)).trans (w17_v6 m ρ c)

theorem w18_v104 : W18 m ρ c (Proc.devRef .tc main_v104) = Cert.ReferenceIdeal.Read.val_main_v112 (F := Ideal) (x0 m c) (x1 m c) (x2 m c) (x3 m c) (x4 m c) (x5 m c) :=
  ((W18_arr m ρ c 2).trans (final8 (V17 m ρ) c)).trans
    (congrArg₂ (Cert.ReferenceIdeal.Layers.proj (F := Ideal)) (w17_v99 m ρ c) (w17_v101 m ρ c))

theorem w18_v3 : W18 m ρ c (Proc.devRef .tc main_v3) = Cert.ReferenceIdeal.Read.val_main_v3 (F := Ideal) (x1 m c) :=
  (W18_of_ne m ρ c main_v3 (by decide)).trans (w17_v3 m ρ c)

theorem w18_v27 : W18 m ρ c (Proc.devRef .tc main_v27) = Cert.ReferenceIdeal.Read.val_main_v27 (F := Ideal) (x1 m c) :=
  (W18_of_ne m ρ c main_v27 (by decide)).trans (w17_v27 m ρ c)

theorem w18_v103 : W18 m ρ c (Proc.devRef .tc main_v103) = Cert.ReferenceIdeal.Read.val_main_v111 (F := Ideal) (x5 m c) :=
  (W18_of_ne m ρ c main_v103 (by decide)).trans (w17_v103 m ρ c)

theorem w18_arg4 : W18 m ρ c (Proc.devRef .tc main_arg4) = x4 m c :=
  (W18_of_ne m ρ c main_arg4 (by decide)).trans (w17_arg4 m ρ c)

theorem w18_arg5 : W18 m ρ c (Proc.devRef .tc main_arg5) = x5 m c :=
  (W18_of_ne m ρ c main_arg5 (by decide)).trans (w17_arg5 m ρ c)

theorem w18_arg6 : W18 m ρ c (Proc.devRef .tc main_arg6) = x6 m c :=
  (W18_of_ne m ρ c main_arg6 (by decide)).trans (w17_arg6 m ρ c)

theorem w18_arg7 : W18 m ρ c (Proc.devRef .tc main_arg7) = x7 m c :=
  (W18_of_ne m ρ c main_arg7 (by decide)).trans (w17_arg7 m ρ c)

/-! ## Boundary 19 -/

theorem w19_v6 : W19 m ρ c (Proc.devRef .tc main_v6) = Cert.ReferenceIdeal.Read.val_main_v6 (F := Ideal) (x1 m c) := by
  show StableHlo.after hostOps9 (W18 m ρ c) (Proc.devRef .tc main_v6) = _
  simp only [hostOps9]
  after_results_simp
  all_goals exact w18_v6 m ρ c

theorem w19_v116 : W19 m ρ c (Proc.devRef .tc main_v116) = Cert.ReferenceIdeal.Read.val_main_v124 (F := Ideal) (x0 m c) (x1 m c) (x2 m c) (x3 m c) (x4 m c) (x5 m c) := by
  show StableHlo.after hostOps9 (W18 m ρ c) (Proc.devRef .tc main_v116) = _
  simp only [hostOps9]
  after_results_simp
  rw [w18_v6 m ρ c, w18_v104 m ρ c, w18_v3 m ρ c, w18_v27 m ρ c]
  rfl

theorem w19_v117 : W19 m ρ c (Proc.devRef .tc main_v117) = Cert.ReferenceIdeal.Read.val_main_v125 (F := Ideal) (x5 m c) := by
  show StableHlo.after hostOps9 (W18 m ρ c) (Proc.devRef .tc main_v117) = _
  simp only [hostOps9]
  after_results_simp
  rw [w18_v103 m ρ c]
  exact Cert.ReferenceIdeal.Layers.row_of_reshape _ _

theorem w19_arg4 : W19 m ρ c (Proc.devRef .tc main_arg4) = x4 m c := by
  show StableHlo.after hostOps9 (W18 m ρ c) (Proc.devRef .tc main_arg4) = _
  simp only [hostOps9]
  after_results_simp
  all_goals exact w18_arg4 m ρ c

theorem w19_v3 : W19 m ρ c (Proc.devRef .tc main_v3) = Cert.ReferenceIdeal.Read.val_main_v3 (F := Ideal) (x1 m c) := by
  show StableHlo.after hostOps9 (W18 m ρ c) (Proc.devRef .tc main_v3) = _
  simp only [hostOps9]
  after_results_simp
  all_goals exact w18_v3 m ρ c

theorem w19_v27 : W19 m ρ c (Proc.devRef .tc main_v27) = Cert.ReferenceIdeal.Read.val_main_v27 (F := Ideal) (x1 m c) := by
  show StableHlo.after hostOps9 (W18 m ρ c) (Proc.devRef .tc main_v27) = _
  simp only [hostOps9]
  after_results_simp
  all_goals exact w18_v27 m ρ c

theorem w19_arg5 : W19 m ρ c (Proc.devRef .tc main_arg5) = x5 m c := by
  show StableHlo.after hostOps9 (W18 m ρ c) (Proc.devRef .tc main_arg5) = _
  simp only [hostOps9]
  after_results_simp
  all_goals exact w18_arg5 m ρ c

theorem w19_arg6 : W19 m ρ c (Proc.devRef .tc main_arg6) = x6 m c := by
  show StableHlo.after hostOps9 (W18 m ρ c) (Proc.devRef .tc main_arg6) = _
  simp only [hostOps9]
  after_results_simp
  all_goals exact w18_arg6 m ρ c

theorem w19_arg7 : W19 m ρ c (Proc.devRef .tc main_arg7) = x7 m c := by
  show StableHlo.after hostOps9 (W18 m ρ c) (Proc.devRef .tc main_arg7) = _
  simp only [hostOps9]
  after_results_simp
  all_goals exact w18_arg7 m ρ c

/-! ## Boundary 20 -/

theorem w20_v6 : W20 m ρ c (Proc.devRef .tc main_v6) = Cert.ReferenceIdeal.Read.val_main_v6 (F := Ideal) (x1 m c) :=
  (W20_of_ne m ρ c main_v6 (by decide)).trans (w19_v6 m ρ c)

theorem w20_v118 : W20 m ρ c (Proc.devRef .tc main_v118) = Cert.ReferenceIdeal.Read.val_main_v128 (F := Ideal) (x0 m c) (x1 m c) (x2 m c) (x3 m c) (x4 m c) (x5 m c) :=
  ((W20_arr m ρ c 2).trans (final9 (V19 m ρ) c)).trans
    (congrArg₂ (Cert.ReferenceIdeal.Layers.biasRelu (F := Ideal)) (w19_v116 m ρ c) (w19_v117 m ρ c))

theorem w20_arg4 : W20 m ρ c (Proc.devRef .tc main_arg4) = x4 m c :=
  (W20_of_ne m ρ c main_arg4 (by decide)).trans (w19_arg4 m ρ c)

theorem w20_v3 : W20 m ρ c (Proc.devRef .tc main_v3) = Cert.ReferenceIdeal.Read.val_main_v3 (F := Ideal) (x1 m c) :=
  (W20_of_ne m ρ c main_v3 (by decide)).trans (w19_v3 m ρ c)

theorem w20_v27 : W20 m ρ c (Proc.devRef .tc main_v27) = Cert.ReferenceIdeal.Read.val_main_v27 (F := Ideal) (x1 m c) :=
  (W20_of_ne m ρ c main_v27 (by decide)).trans (w19_v27 m ρ c)

theorem w20_arg5 : W20 m ρ c (Proc.devRef .tc main_arg5) = x5 m c :=
  (W20_of_ne m ρ c main_arg5 (by decide)).trans (w19_arg5 m ρ c)

theorem w20_arg6 : W20 m ρ c (Proc.devRef .tc main_arg6) = x6 m c :=
  (W20_of_ne m ρ c main_arg6 (by decide)).trans (w19_arg6 m ρ c)

theorem w20_arg7 : W20 m ρ c (Proc.devRef .tc main_arg7) = x7 m c :=
  (W20_of_ne m ρ c main_arg7 (by decide)).trans (w19_arg7 m ρ c)

end Cert.KernelIdeal.Chain

end
-- ==== Proof.Chain5.lean ====
/-
  The buffers of the idealized kernel program through hidden layer 5, as the reference's stages.

  From the previous layer's activations: the host slices layer 5's weight matrix and bias vector out of the stacked
  arguments; the projection region leaves the reference's projection of the activations by that matrix; the host
  gathers the projected rows along the edges' sources, scales them by the edge norms and adds them up per
  destination node, and lays the bias out as one row; the bias region leaves the maximum of the sum-plus-bias with
  zero.  Each of these buffers holds the reference's stage of the same arguments, and the edge arrays and the
  arguments still needed are carried unchanged.
-/
import proofs.«100903_j60189671686197_1_alg».proof.Proof.Chain4
import proofs.«100903_j60189671686197_1_alg».proof.Proof.RegC
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Regions

variable (m : (ℓ : Loc nD τ sig) → Buf (Elt Ideal) ℓ) (ρ : Dev nD → PrngReg) (c : Dev nD)

/-! ## Boundary 21 -/

theorem w21_v6 : W21 m ρ c (Proc.devRef .tc main_v6) = Cert.ReferenceIdeal.Read.val_main_v6 (F := Ideal) (x1 m c) := by
  show StableHlo.after hostOps10 (W20 m ρ c) (Proc.devRef .tc main_v6) = _
  simp only [hostOps10]
  after_results_simp
  all_goals exact w20_v6 m ρ c

theorem w21_v118 : W21 m ρ c (Proc.devRef .tc main_v118) = Cert.ReferenceIdeal.Read.val_main_v128 (F := Ideal) (x0 m c) (x1 m c) (x2 m c) (x3 m c) (x4 m c) (x5 m c) := by
  show StableHlo.after hostOps10 (W20 m ρ c) (Proc.devRef .tc main_v118) = _
  simp only [hostOps10]
  after_results_simp
  all_goals exact w20_v118 m ρ c

theorem w21_v120 : W21 m ρ c (Proc.devRef .tc main_v120) = Cert.ReferenceIdeal.Read.val_main_v130 (F := Ideal) (x4 m c) := by
  show StableHlo.after hostOps10 (W20 m ρ c) (Proc.devRef .tc main_v120) = _
  simp only [hostOps10]
  after_results_simp
  rw [w20_arg4 m ρ c]
  rfl

theorem w21_v3 : W21 m ρ c (Proc.devRef .tc main_v3) = Cert.ReferenceIdeal.Read.val_main_v3 (F := Ideal) (x1 m c) := by
  show StableHlo.after hostOps10 (W20 m ρ c) (Proc.devRef .tc main_v3) = _
  simp only [hostOps10]
  after_results_simp
  all_goals exact w20_v3 m ρ c

theorem w21_v27 : W21 m ρ c (Proc.devRef .tc main_v27) = Cert.ReferenceIdeal.Read.val_main_v27 (F := Ideal) (x1 m c) := by
  show StableHlo.after hostOps10 (W20 m ρ c) (Proc.devRef .tc main_v27) = _
  simp only [hostOps10]
  after_results_simp
  all_goals exact w20_v27 m ρ c

theorem w21_v122 : W21 m ρ c (Proc.devRef .tc main_v122) = Cert.ReferenceIdeal.Read.val_main_v132 (F := Ideal) (x5 m c) := by
  show StableHlo.after hostOps10 (W20 m ρ c) (Proc.devRef .tc main_v122) = _
  simp only [hostOps10]
  after_results_simp
  rw [w20_arg5 m ρ c]
  rfl

theorem w21_arg4 : W21 m ρ c (Proc.devRef .tc main_arg4) = x4 m c := by
  show StableHlo.after hostOps10 (W20 m ρ c) (Proc.devRef .tc main_arg4) = _
  simp only [hostOps10]
  after_results_simp
  all_goals exact w20_arg4 m ρ c

theorem w21_arg5 : W21 m ρ c (Proc.devRef .tc main_arg5) = x5 m c := by
  show StableHlo.after hostOps10 (W20 m ρ c) (Proc.devRef .tc main_arg5) = _
  simp only [hostOps10]
  after_results_simp
  all_goals exact w20_arg5 m ρ c

theorem w21_arg6 : W21 m ρ c (Proc.devRef .tc main_arg6) = x6 m c := by
  show StableHlo.after hostOps10 (W20 m ρ c) (Proc.devRef .tc main_arg6) = _
  simp only [hostOps10]
  after_results_simp
  all_goals exact w20_arg6 m ρ c

theorem w21_arg7 : W21 m ρ c (Proc.devRef .tc main_arg7) = x7 m c := by
  show StableHlo.after hostOps10 (W20 m ρ c) (Proc.devRef .tc main_arg7) = _
  simp only [hostOps10]
  after_results_simp
  all_goals exact w20_arg7 m ρ c

/-! ## Boundary 22 -/

theorem w22_v6 : W22 m ρ c (Proc.devRef .tc main_v6) = Cert.ReferenceIdeal.Read.val_main_v6 (F := Ideal) (x1 m c) :=
  (W22_of_ne m ρ c main_v6 (by decide)).trans (w21_v6 m ρ c)

theorem w22_v123 : W22 m ρ c (Proc.devRef .tc main_v123) = Cert.ReferenceIdeal.Read.val_main_v133 (F := Ideal) (x0 m c) (x1 m c) (x2 m c) (x3 m c) (x4 m c) (x5 m c) :=
  ((W22_arr m ρ c 2).trans (final10 (V21 m ρ) c)).trans
    (congrArg₂ (Cert.ReferenceIdeal.Layers.proj (F := Ideal)) (w21_v118 m ρ c) (w21_v120 m ρ c))

theorem w22_v3 : W22 m ρ c (Proc.devRef .tc main_v3) = Cert.ReferenceIdeal.Read.val_main_v3 (F := Ideal) (x1 m c) :=
  (W22_of_ne m ρ c main_v3 (by decide)).trans (w21_v3 m ρ c)

theorem w22_v27 : W22 m ρ c (Proc.devRef .tc main_v27) = Cert.ReferenceIdeal.Read.val_main_v27 (F := Ideal) (x1 m c) :=
  (W22_of_ne m ρ c main_v27 (by decide)).trans (w21_v27 m ρ c)

theorem w22_v122 : W22 m ρ c (Proc.devRef .tc main_v122) = Cert.ReferenceIdeal.Read.val_main_v132 (F := Ideal) (x5 m c) :=
  (W22_of_ne m ρ c main_v122 (by decide)).trans (w21_v122 m ρ c)

theorem w22_arg4 : W22 m ρ c (Proc.devRef .tc main_arg4) = x4 m c :=
  (W22_of_ne m ρ c main_arg4 (by decide)).trans (w21_arg4 m ρ c)

theorem w22_arg5 : W22 m ρ c (Proc.devRef .tc main_arg5) = x5 m c :=
  (W22_of_ne m ρ c main_arg5 (by decide)).trans (w21_arg5 m ρ c)

theorem w22_arg6 : W22 m ρ c (Proc.devRef .tc main_arg6) = x6 m c :=
  (W22_of_ne m ρ c main_arg6 (by decide)).trans (w21_arg6 m ρ c)

theorem w22_arg7 : W22 m ρ c (Proc.devRef .tc main_arg7) = x7 m c :=
  (W22_of_ne m ρ c main_arg7 (by decide)).trans (w21_arg7 m ρ c)

/-! ## Boundary 23 -/

theorem w23_v6 : W23 m ρ c (Proc.devRef .tc main_v6) = Cert.ReferenceIdeal.Read.val_main_v6 (F := Ideal) (x1 m c) := by
  show StableHlo.after hostOps11 (W22 m ρ c) (Proc.devRef .tc main_v6) = _
  simp only [hostOps11]
  after_results_simp
  all_goals exact w22_v6 m ρ c

theorem w23_v135 : W23 m ρ c (Proc.devRef .tc main_v135) = Cert.ReferenceIdeal.Read.val_main_v145 (F := Ideal) (x0 m c) (x1 m c) (x2 m c) (x3 m c) (x4 m c) (x5 m c) := by
  show StableHlo.after hostOps11 (W22 m ρ c) (Proc.devRef .tc main_v135) = _
  simp only [hostOps11]
  after_results_simp
  rw [w22_v6 m ρ c, w22_v123 m ρ c, w22_v3 m ρ c, w22_v27 m ρ c]
  rfl

theorem w23_v136 : W23 m ρ c (Proc.devRef .tc main_v136) = Cert.ReferenceIdeal.Read.val_main_v146 (F := Ideal) (x5 m c) := by
  show StableHlo.after hostOps11 (W22 m ρ c) (Proc.devRef .tc main_v136) = _
  simp only [hostOps11]
  after_results_simp
  rw [w22_v122 m ρ c]
  exact Cert.ReferenceIdeal.Layers.row_of_reshape _ _

theorem w23_arg4 : W23 m ρ c (Proc.devRef .tc main_arg4) = x4 m c := by
  show StableHlo.after hostOps11 (W22 m ρ c) (Proc.devRef .tc main_arg4) = _
  simp only [hostOps11]
  after_results_simp
  all_goals exact w22_arg4 m ρ c

theorem w23_v3 : W23 m ρ c (Proc.devRef .tc main_v3) = Cert.ReferenceIdeal.Read.val_main_v3 (F := Ideal) (x1 m c) := by
  show StableHlo.after hostOps11 (W22 m ρ c) (Proc.devRef .tc main_v3) = _
  simp only [hostOps11]
  after_results_simp
  all_goals exact w22_v3 m ρ c

theorem w23_v27 : W23 m ρ c (Proc.devRef .tc main_v27) = Cert.ReferenceIdeal.Read.val_main_v27 (F := Ideal) (x1 m c) := by
  show StableHlo.after hostOps11 (W22 m ρ c) (Proc.devRef .tc main_v27) = _
  simp only [hostOps11]
  after_results_simp
  all_goals exact w22_v27 m ρ c

theorem w23_arg5 : W23 m ρ c (Proc.devRef .tc main_arg5) = x5 m c := by
  show StableHlo.after hostOps11 (W22 m ρ c) (Proc.devRef .tc main_arg5) = _
  simp only [hostOps11]
  after_results_simp
  all_goals exact w22_arg5 m ρ c

theorem w23_arg6 : W23 m ρ c (Proc.devRef .tc main_arg6) = x6 m c := by
  show StableHlo.after hostOps11 (W22 m ρ c) (Proc.devRef .tc main_arg6) = _
  simp only [hostOps11]
  after_results_simp
  all_goals exact w22_arg6 m ρ c

theorem w23_arg7 : W23 m ρ c (Proc.devRef .tc main_arg7) = x7 m c := by
  show StableHlo.after hostOps11 (W22 m ρ c) (Proc.devRef .tc main_arg7) = _
  simp only [hostOps11]
  after_results_simp
  all_goals exact w22_arg7 m ρ c

/-! ## Boundary 24 -/

theorem w24_v6 : W24 m ρ c (Proc.devRef .tc main_v6) = Cert.ReferenceIdeal.Read.val_main_v6 (F := Ideal) (x1 m c) :=
  (W24_of_ne m ρ c main_v6 (by decide)).trans (w23_v6 m ρ c)

theorem w24_v137 : W24 m ρ c (Proc.devRef .tc main_v137) = Cert.ReferenceIdeal.Read.val_main_v149 (F := Ideal) (x0 m c) (x1 m c) (x2 m c) (x3 m c) (x4 m c) (x5 m c) :=
  ((W24_arr m ρ c 2).trans (final11 (V23 m ρ) c)).trans
    (congrArg₂ (Cert.ReferenceIdeal.Layers.biasRelu (F := Ideal)) (w23_v135 m ρ c) (w23_v136 m ρ c))

theorem w24_arg4 : W24 m ρ c (Proc.devRef .tc main_arg4) = x4 m c :=
  (W24_of_ne m ρ c main_arg4 (by decide)).trans (w23_arg4 m ρ c)

theorem w24_v3 : W24 m ρ c (Proc.devRef .tc main_v3) = Cert.ReferenceIdeal.Read.val_main_v3 (F := Ideal) (x1 m c) :=
  (W24_of_ne m ρ c main_v3 (by decide)).trans (w23_v3 m ρ c)

theorem w24_v27 : W24 m ρ c (Proc.devRef .tc main_v27) = Cert.ReferenceIdeal.Read.val_main_v27 (F := Ideal) (x1 m c) :=
  (W24_of_ne m ρ c main_v27 (by decide)).trans (w23_v27 m ρ c)

theorem w24_arg5 : W24 m ρ c (Proc.devRef .tc main_arg5) = x5 m c :=
  (W24_of_ne m ρ c main_arg5 (by decide)).trans (w23_arg5 m ρ c)

theorem w24_arg6 : W24 m ρ c (Proc.devRef .tc main_arg6) = x6 m c :=
  (W24_of_ne m ρ c main_arg6 (by decide)).trans (w23_arg6 m ρ c)

theorem w24_arg7 : W24 m ρ c (Proc.devRef .tc main_arg7) = x7 m c :=
  (W24_of_ne m ρ c main_arg7 (by decide)).trans (w23_arg7 m ρ c)

end Cert.KernelIdeal.Chain

end
-- ==== Proof.RegD.lean ====
/-
  Regions 12–15 of the idealized kernel program, each read as a whole array.

  Every region runs its kernel at ten grid points.  Point `t` reads rows 10000 t … 10000 t + 9999 of the region's
  first operand and the whole of its second, and writes the same rows of the result.  A projection region's
  element [r, c] at point `t` is `∑ k < 64, x[10000 t + r, k] · w[k, c]`; a bias region's is
  `max (a[10000 t + r, c] + b[0, c]) 0` (the last one, of a single column, `a[10000 t + r, 0] + b[0, 0]`).  Each is the
  element [10000 t + r, c] of one function of the two WHOLE operand arrays — the reference's projection, or its
  bias-and-maximum — and the ten blocks tile the result array.  So each region leaves its result array holding that
  function of the two arrays it found on entry, whatever they are.
-/
import proofs.«100903_j60189671686197_1_alg».proof.Proof.Gen.KernelIdeal.Frame
import proofs.«100903_j60189671686197_1_alg».proof.Proof.Mat64
import proofs.«100903_j60189671686197_1_alg».proof.Proof.BiasAct
import proofs.«100903_j60189671686197_1_alg».proof.Proof.RefLayers
import proofs.«100903_j60189671686197_1_alg».proof.Proof.RegCommon
import Idealize.ShloMosaic.Lib.Pipeline.Value

set_option maxRecDepth 16384

noncomputable section

namespace Cert.KernelIdeal.Regions

open Idealize.ShloMosaic Idealize.ShloMosaic.TcCoe Idealize.SL.Sem
open Idealize.ShloMosaic.Pipeline (Dat)
open Cert.KernelIdeal Cert.KernelIdeal.Gen Cert.KernelIdeal.Blocks
open Cert.ReferenceIdeal.Read (lidx_main_v28 ridx_main_v28 lidx_main_v171 ridx_main_v171 idx_main_v42 idx_main_v184)

/-! ## Region 12: a projection by a 64 × 64 weight matrix -/

section Region12
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx12 : ∀ t : Fin cfg12.N, win12_0.index t (0 : Fin 2) = win12_2.index t (0 : Fin 2)
    ∧ win12_0.index t (1 : Fin 2) = 0 ∧ win12_1.index t (0 : Fin 2) = 0 ∧ win12_1.index t (1 : Fin 2) = 0
    ∧ win12_2.index t (1 : Fin 2) = 0 ∧ win12_2.index t (0 : Fin 2) = t.val :=
  (by decide +kernel : ∀ t : Fin grid12.N, _)

/-- What grid point `t` writes back is block `t` of the whole projection of the two arrays the region finds. -/
theorem flushed12 (c : Dev nD) (t : Fin cfg12.N) :
    (dat12 V c).flushed 2 t = ((cfg12.win 2).blk t).view.read (Elt Ideal)
      (Cert.ReferenceIdeal.Layers.proj (F := Ideal) (V c (Pipeline.arrRef spec12 0)) (V c (Pipeline.arrRef spec12 1))) := by
  show (cfg12.win 2).cut (grid12.coords t) ((dat12 V c).after 2 t) = _
  rw [after12_2]
  unfold out12_2
  rw [View.canon_unit_zero hz2]
  simp only [View.ld_unit_zero (S := S10000x64) hz2, View.ld_unit_zero (S := S64x64) hz2]
  obtain ⟨e0, e1, e2, e3, e4, e5⟩ := idx12 t
  funext j
  refine (pay_hidden_apply (iblk12 V c 0 t) (iblk12 V c 1 t) j).trans ?_
  refine Eq.trans ?_ (Cert.ReferenceIdeal.Layers.proj_apply (V c (Pipeline.arrRef spec12 0)) (V c (Pipeline.arrRef spec12 1)) (((cfg12.win 2).blk t).view.emb j)).symm
  refine Finset.sum_congr rfl fun k _ => ?_
  have h0 : ((cfg12.win 0).blk t).view.emb (lrow j k) = lidx_main_v28 (((cfg12.win 2).blk t).view.emb j) k := by
    funext a; apply Fin.ext
    match a with
    | ⟨0, _⟩ => show win12_0.index t (0 : Fin 2) * 10000 + 1 * (j 0).val = win12_2.index t (0 : Fin 2) * 10000 + 1 * (j 0).val; omega
    | ⟨1, _⟩ => show win12_0.index t (1 : Fin 2) * 64 + 1 * k.val = k.val; omega
  have h1 : ((cfg12.win 1).blk t).view.emb (rcol j k) = ridx_main_v28 (((cfg12.win 2).blk t).view.emb j) k := by
    funext a; apply Fin.ext
    match a with
    | ⟨0, _⟩ => show win12_1.index t (0 : Fin 2) * 64 + 1 * k.val = k.val; omega
    | ⟨1, _⟩ => show win12_1.index t (1 : Fin 2) * 64 + 1 * (j 1).val = win12_2.index t (1 : Fin 2) * 64 + 1 * (j 1).val; omega
  exact mul_at (s := S100000x64) (s' := S64x64) (V c (Pipeline.arrRef spec12 0)) (V c (Pipeline.arrRef spec12 1)) h0 h1

/-- An index of the result array lies in point `t`'s block iff each coordinate lies in the block's range. -/
theorem mem_blk12 (t : Fin cfg12.N) (i : S100000x64.Idx) :
    i ∈ ((cfg12.win 2).blk t).view.set ↔ ∀ a : Fin 2, win12_2.index t a * S10000x64.size a ≤ (i a).val ∧ (i a).val < win12_2.index t a * S10000x64.size a + S10000x64.size a := by
  show i ∈ ((View.whole main_v142).slice (win12_2.rect t)).set ↔ _
  rw [View.set_slice_whole, Rect.mem_set_unit]
  exact Iff.rfl

/-- Row `n` is written by grid point `n / 10000`: the ten blocks tile the array. -/
theorem cover12 (i : S100000x64.Idx) : ∃ t : Fin cfg12.N, (cfg12.win 2).flush t = true ∧ i ∈ ((cfg12.win 2).blk t).view.set := by
  have hi0 : (i 0).val < 100000 := (i 0).isLt
  have hi1 : (i 1).val < 64 := (i 1).isLt
  have ht : (i 0).val / 10000 < 10 := by omega
  refine ⟨⟨(i 0).val / 10000, ht⟩, flush12_2 _, ?_⟩
  rw [mem_blk12]
  obtain ⟨e0, e1, e2, e3, e4, e5⟩ := idx12 ⟨(i 0).val / 10000, ht⟩
  have e5' : win12_2.index ⟨(i 0).val / 10000, ht⟩ (0 : Fin 2) = (i 0).val / 10000 := e5
  intro a
  match a with
  | ⟨0, _⟩ => show win12_2.index ⟨(i 0).val / 10000, ht⟩ (0 : Fin 2) * 10000 ≤ (i 0).val ∧ (i 0).val < win12_2.index ⟨(i 0).val / 10000, ht⟩ (0 : Fin 2) * 10000 + 10000; omega
  | ⟨1, _⟩ => show win12_2.index ⟨(i 0).val / 10000, ht⟩ (1 : Fin 2) * 64 ≤ (i 1).val ∧ (i 1).val < win12_2.index ⟨(i 0).val / 10000, ht⟩ (1 : Fin 2) * 64 + 64; omega

/-- The region leaves its result array holding the whole projection of the two arrays it found. -/
theorem final12 (c : Dev nD) : (dat12 V c).arrAt 2 cfg12.N
    = Cert.ReferenceIdeal.Layers.proj (F := Ideal) (V c (Pipeline.arrRef spec12 0)) (V c (Pipeline.arrRef spec12 1)) :=
  (dat12 V c).arrAt_eq_of_cover 2 _ (fun t _ => flushed12 V c t) cover12

end Region12

/-! ## Region 13: a hidden layer's bias and maximum with zero -/

section Region13
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx13 : ∀ t : Fin cfg13.N, win13_0.index t (0 : Fin 2) = win13_2.index t (0 : Fin 2)
    ∧ win13_0.index t (1 : Fin 2) = 0 ∧ win13_1.index t (0 : Fin 2) = 0 ∧ win13_1.index t (1 : Fin 2) = 0
    ∧ win13_2.index t (1 : Fin 2) = 0 ∧ win13_2.index t (0 : Fin 2) = t.val :=
  (by decide +kernel : ∀ t : Fin grid13.N, _)

/-- What grid point `t` writes back is block `t` of the whole bias-and-maximum of the two arrays the region finds. -/
theorem flushed13 (c : Dev nD) (t : Fin cfg13.N) :
    (dat13 V c).flushed 2 t = ((cfg13.win 2).blk t).view.read (Elt Ideal)
      (Cert.ReferenceIdeal.Layers.biasRelu (F := Ideal) (V c (Pipeline.arrRef spec13 0)) (V c (Pipeline.arrRef spec13 1))) := by
  show (cfg13.win 2).cut (grid13.coords t) ((dat13 V c).after 2 t) = _
  rw [after13_2]
  unfold out13_2
  rw [View.canon_unit_zero hz2]
  simp only [View.ld_unit_zero (S := S10000x64) hz2, View.ld_unit_zero (S := S1x64) hz2]
  obtain ⟨e0, e1, e2, e3, e4, e5⟩ := idx13 t
  funext j
  refine (pay_bias_relu_apply (iblk13 V c 0 t) (iblk13 V c 1 t) j).trans ?_
  refine Eq.trans ?_ (Cert.ReferenceIdeal.Layers.biasRelu_apply (V c (Pipeline.arrRef spec13 0)) (V c (Pipeline.arrRef spec13 1)) (((cfg13.win 2).blk t).view.emb j)).symm
  have h0 : ((cfg13.win 0).blk t).view.emb j = ((cfg13.win 2).blk t).view.emb j := by
    funext a; apply Fin.ext
    match a with
    | ⟨0, _⟩ => show win13_0.index t (0 : Fin 2) * 10000 + 1 * (j 0).val = win13_2.index t (0 : Fin 2) * 10000 + 1 * (j 0).val; omega
    | ⟨1, _⟩ => show win13_0.index t (1 : Fin 2) * 64 + 1 * (j 1).val = win13_2.index t (1 : Fin 2) * 64 + 1 * (j 1).val; omega
  have h1 : ((cfg13.win 1).blk t).view.emb (brow j) = idx_main_v42 (((cfg13.win 2).blk t).view.emb j) := by
    funext a; apply Fin.ext
    match a with
    | ⟨0, _⟩ => show win13_1.index t (0 : Fin 2) * 1 + 1 * 0 = 0; omega
    | ⟨1, _⟩ => show win13_1.index t (1 : Fin 2) * 64 + 1 * (j 1).val = win13_2.index t (1 : Fin 2) * 64 + 1 * (j 1).val; omega
  exact max_add_at (s := S100000x64) (s' := S1x64) (V c (Pipeline.arrRef spec13 0)) (V c (Pipeline.arrRef spec13 1)) _ h0 h1

/-- An index of the result array lies in point `t`'s block iff each coordinate lies in the block's range. -/
theorem mem_blk13 (t : Fin cfg13.N) (i : S100000x64.Idx) :
    i ∈ ((cfg13.win 2).blk t).view.set ↔ ∀ a : Fin 2, win13_2.index t a * S10000x64.size a ≤ (i a).val ∧ (i a).val < win13_2.index t a * S10000x64.size a + S10000x64.size a := by
  show i ∈ ((View.whole main_v156).slice (win13_2.rect t)).set ↔ _
  rw [View.set_slice_whole, Rect.mem_set_unit]
  exact Iff.rfl

/-- Row `n` is written by grid point `n / 10000`: the ten blocks tile the array. -/
theorem cover13 (i : S100000x64.Idx) : ∃ t : Fin cfg13.N, (cfg13.win 2).flush t = true ∧ i ∈ ((cfg13.win 2).blk t).view.set := by
  have hi0 : (i 0).val < 100000 := (i 0).isLt
  have hi1 : (i 1).val < 64 := (i 1).isLt
  have ht : (i 0).val / 10000 < 10 := by omega
  refine ⟨⟨(i 0).val / 10000, ht⟩, flush13_2 _, ?_⟩
  rw [mem_blk13]
  obtain ⟨e0, e1, e2, e3, e4, e5⟩ := idx13 ⟨(i 0).val / 10000, ht⟩
  have e5' : win13_2.index ⟨(i 0).val / 10000, ht⟩ (0 : Fin 2) = (i 0).val / 10000 := e5
  intro a
  match a with
  | ⟨0, _⟩ => show win13_2.index ⟨(i 0).val / 10000, ht⟩ (0 : Fin 2) * 10000 ≤ (i 0).val ∧ (i 0).val < win13_2.index ⟨(i 0).val / 10000, ht⟩ (0 : Fin 2) * 10000 + 10000; omega
  | ⟨1, _⟩ => show win13_2.index ⟨(i 0).val / 10000, ht⟩ (1 : Fin 2) * 64 ≤ (i 1).val ∧ (i 1).val < win13_2.index ⟨(i 0).val / 10000, ht⟩ (1 : Fin 2) * 64 + 64; omega

/-- The region leaves its result array holding the whole bias-and-maximum of the two arrays it found. -/
theorem final13 (c : Dev nD) : (dat13 V c).arrAt 2 cfg13.N
    = Cert.ReferenceIdeal.Layers.biasRelu (F := Ideal) (V c (Pipeline.arrRef spec13 0)) (V c (Pipeline.arrRef spec13 1)) :=
  (dat13 V c).arrAt_eq_of_cover 2 _ (fun t _ => flushed13 V c t) cover13

end Region13

/-! ## Region 14: the last layer's projection onto one column -/

section Region14
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx14 : ∀ t : Fin cfg14.N, win14_0.index t (0 : Fin 2) = win14_2.index t (0 : Fin 2)
    ∧ win14_0.index t (1 : Fin 2) = 0 ∧ win14_1.index t (0 : Fin 2) = 0 ∧ win14_1.index t (1 : Fin 2) = 0
    ∧ win14_2.index t (1 : Fin 2) = 0 ∧ win14_2.index t (0 : Fin 2) = t.val :=
  (by decide +kernel : ∀ t : Fin grid14.N, _)

/-- What grid point `t` writes back is block `t` of the whole one-column projection of the two arrays the region finds. -/
theorem flushed14 (c : Dev nD) (t : Fin cfg14.N) :
    (dat14 V c).flushed 2 t = ((cfg14.win 2).blk t).view.read (Elt Ideal)
      (Cert.ReferenceIdeal.Layers.projOut (F := Ideal) (V c (Pipeline.arrRef spec14 0)) (V c (Pipeline.arrRef spec14 1))) := by
  show (cfg14.win 2).cut (grid14.coords t) ((dat14 V c).after 2 t) = _
  rw [after14_2]
  unfold out14_2
  rw [View.canon_unit_zero hz2]
  simp only [View.ld_unit_zero (S := S10000x64) hz2, View.ld_unit_zero (S := S64x1) hz2]
  obtain ⟨e0, e1, e2, e3, e4, e5⟩ := idx14 t
  funext j
  refine (pay_last_apply (iblk14 V c 0 t) (iblk14 V c 1 t) j).trans ?_
  refine Eq.trans ?_ (Cert.ReferenceIdeal.Layers.projOut_apply (V c (Pipeline.arrRef spec14 0)) (V c (Pipeline.arrRef spec14 1)) (((cfg14.win 2).blk t).view.emb j)).symm
  refine Finset.sum_congr rfl fun k _ => ?_
  have h0 : ((cfg14.win 0).blk t).view.emb (lrow1 j k) = lidx_main_v171 (((cfg14.win 2).blk t).view.emb j) k := by
    funext a; apply Fin.ext
    match a with
    | ⟨0, _⟩ => show win14_0.index t (0 : Fin 2) * 10000 + 1 * (j 0).val = win14_2.index t (0 : Fin 2) * 10000 + 1 * (j 0).val; omega
    | ⟨1, _⟩ => show win14_0.index t (1 : Fin 2) * 64 + 1 * k.val = k.val; omega
  have h1 : ((cfg14.win 1).blk t).view.emb (rcol1 j k) = ridx_main_v171 (((cfg14.win 2).blk t).view.emb j) k := by
    funext a; apply Fin.ext
    match a with
    | ⟨0, _⟩ => show win14_1.index t (0 : Fin 2) * 64 + 1 * k.val = k.val; omega
    | ⟨1, _⟩ => show win14_1.index t (1 : Fin 2) * 1 + 1 * (j 1).val = win14_2.index t (1 : Fin 2) * 1 + 1 * (j 1).val; omega
  exact mul_at (s := S100000x64) (s' := S64x1) (V c (Pipeline.arrRef spec14 0)) (V c (Pipeline.arrRef spec14 1)) h0 h1

/-- An index of the result array lies in point `t`'s block iff each coordinate lies in the block's range. -/
theorem mem_blk14 (t : Fin cfg14.N) (i : S100000x1.Idx) :
    i ∈ ((cfg14.win 2).blk t).view.set ↔ ∀ a : Fin 2, win14_2.index t a * S10000x1.size a ≤ (i a).val ∧ (i a).val < win14_2.index t a * S10000x1.size a + S10000x1.size a := by
  show i ∈ ((View.whole main_v157).slice (win14_2.rect t)).set ↔ _
  rw [View.set_slice_whole, Rect.mem_set_unit]
  exact Iff.rfl

/-- Row `n` is written by grid point `n / 10000`: the ten blocks tile the array. -/
theorem cover14 (i : S100000x1.Idx) : ∃ t : Fin cfg14.N, (cfg14.win 2).flush t = true ∧ i ∈ ((cfg14.win 2).blk t).view.set := by
  have hi0 : (i 0).val < 100000 := (i 0).isLt
  have hi1 : (i 1).val < 1 := (i 1).isLt
  have ht : (i 0).val / 10000 < 10 := by omega
  refine ⟨⟨(i 0).val / 10000, ht⟩, flush14_2 _, ?_⟩
  rw [mem_blk14]
  obtain ⟨e0, e1, e2, e3, e4, e5⟩ := idx14 ⟨(i 0).val / 10000, ht⟩
  have e5' : win14_2.index ⟨(i 0).val / 10000, ht⟩ (0 : Fin 2) = (i 0).val / 10000 := e5
  intro a
  match a with
  | ⟨0, _⟩ => show win14_2.index ⟨(i 0).val / 10000, ht⟩ (0 : Fin 2) * 10000 ≤ (i 0).val ∧ (i 0).val < win14_2.index ⟨(i 0).val / 10000, ht⟩ (0 : Fin 2) * 10000 + 10000; omega
  | ⟨1, _⟩ => show win14_2.index ⟨(i 0).val / 10000, ht⟩ (1 : Fin 2) * 1 ≤ (i 1).val ∧ (i 1).val < win14_2.index ⟨(i 0).val / 10000, ht⟩ (1 : Fin 2) * 1 + 1; omega

/-- The region leaves its result array holding the whole one-column projection of the two arrays it found. -/
theorem final14 (c : Dev nD) : (dat14 V c).arrAt 2 cfg14.N
    = Cert.ReferenceIdeal.Layers.projOut (F := Ideal) (V c (Pipeline.arrRef spec14 0)) (V c (Pipeline.arrRef spec14 1)) :=
  (dat14 V c).arrAt_eq_of_cover 2 _ (fun t _ => flushed14 V c t) cover14

end Region14

/-! ## Region 15: the last layer's bias -/

section Region15
variable (V : (c : Dev nD) → (b : Ref sig .tc) → Buf (Elt Ideal) ((c : Thread nD τ).loc b))

/-- The three index maps over the ten grid points: the first operand's and the result's blocks move together
    down the rows (block `t` is rows 10000 t … 10000 t + 9999), the second operand's single block stays. -/
theorem idx15 : ∀ t : Fin cfg15.N, win15_0.index t (0 : Fin 2) = win15_2.index t (0 : Fin 2)
    ∧ win15_0.index t (1 : Fin 2) = 0 ∧ win15_1.index t (0 : Fin 2) = 0 ∧ win15_1.index t (1 : Fin 2) = 0
    ∧ win15_2.index t (1 : Fin 2) = 0 ∧ win15_2.index t (0 : Fin 2) = t.val :=
  (by decide +kernel : ∀ t : Fin grid15.N, _)

/-- What grid point `t` writes back is block `t` of the whole sum with the bias entry of the two arrays the region finds. -/
theorem flushed15 (c : Dev nD) (t : Fin cfg15.N) :
    (dat15 V c).flushed 2 t = ((cfg15.win 2).blk t).view.read (Elt Ideal)
      (Cert.ReferenceIdeal.Layers.biasOut (F := Ideal) (V c (Pipeline.arrRef spec15 0)) (V c (Pipeline.arrRef spec15 1))) := by
  show (cfg15.win 2).cut (grid15.coords t) ((dat15 V c).after 2 t) = _
  rw [after15_2]
  unfold out15_2
  rw [View.canon_unit_zero hz2]
  simp only [View.ld_unit_zero (S := S10000x1) hz2, View.ld_unit_zero (S := S1x1) hz2]
  obtain ⟨e0, e1, e2, e3, e4, e5⟩ := idx15 t
  funext j
  refine (pay_bias_out_apply (iblk15 V c 0 t) (iblk15 V c 1 t) j).trans ?_
  refine Eq.trans ?_ (Cert.ReferenceIdeal.Layers.biasOut_apply (V c (Pipeline.arrRef spec15 0)) (V c (Pipeline.arrRef spec15 1)) (((cfg15.win 2).blk t).view.emb j)).symm
  have h0 : ((cfg15.win 0).blk t).view.emb j = ((cfg15.win 2).blk t).view.emb j := by
    funext a; apply Fin.ext
    match a with
    | ⟨0, _⟩ => show win15_0.index t (0 : Fin 2) * 10000 + 1 * (j 0).val = win15_2.index t (0 : Fin 2) * 10000 + 1 * (j 0).val; omega
    | ⟨1, _⟩ => show win15_0.index t (1 : Fin 2) * 1 + 1 * (j 1).val = win15_2.index t (1 : Fin 2) * 1 + 1 * (j 1).val; omega
  have h1 : ((cfg15.win 1).blk t).view.emb (bone j) = idx_main_v184 (((cfg15.win 2).blk t).view.emb j) := by
    funext a; apply Fin.ext
    match a with
    | ⟨0, _⟩ => show win15_1.index t (0 : Fin 2) * 1 + 1 * 0 = 0; omega
    | ⟨1, _⟩ => show win15_1.index t (1 : Fin 2) * 1 + 1 * 0 = 0; omega
  exact add_at (s := S100000x1) (s' := S1x1) (V c (Pipeline.arrRef spec15 0)) (V c (Pipeline.arrRef spec15 1)) h0 h1

/-- An index of the result array lies in point `t`'s block iff each coordinate lies in the block's range. -/
theorem mem_blk15 (t : Fin cfg15.N) (i : S100000x1.Idx) :
    i ∈ ((cfg15.win 2).blk t).view.set ↔ ∀ a : Fin 2, win15_2.index t a * S10000x1.size a ≤ (i a).val ∧ (i a).val < win15_2.index t a * S10000x1.size a + S10000x1.size a := by
  show i ∈ ((View.whole main_v170).slice (win15_2.rect t)).set ↔ _
  rw [View.set_slice_whole, Rect.mem_set_unit]
  exact Iff.rfl

/-- Row `n` is written by grid point `n / 10000`: the ten blocks tile the array. -/
theorem cover15 (i : S100000x1.Idx) : ∃ t : Fin cfg15.N, (cfg15.win 2).flush t = true ∧ i ∈ ((cfg15.win 2).blk t).view.set := by
  have hi0 : (i 0).val < 100000 := (i 0).isLt
  have hi1 : (i 1).val < 1 := (i 1).isLt
  have ht : (i 0).val / 10000 < 10 := by omega
  refine ⟨⟨(i 0).val / 10000, ht⟩, flush15_2 _, ?_⟩
  rw [mem_blk15]
  obtain ⟨e0, e1, e2, e3, e4, e5⟩ := idx15 ⟨(i 0).val / 10000, ht⟩
  have e5' : win15_2.index ⟨(i 0).val / 10000, ht⟩ (0 : Fin 2) = (i 0).val / 10000 := e5
  intro a
  match a with
  | ⟨0, _⟩ => show win15_2.index ⟨(i 0).val / 10000, ht⟩ (0 : Fin 2) * 10000 ≤ (i 0).val ∧ (i 0).val < win15_2.index ⟨(i 0).val / 10000, ht⟩ (0 : Fin 2) * 10000 + 10000; omega
  | ⟨1, _⟩ => show win15_2.index ⟨(i 0).val / 10000, ht⟩ (1 : Fin 2) * 1 ≤ (i 1).val ∧ (i 1).val < win15_2.index ⟨(i 0).val / 10000, ht⟩ (1 : Fin 2) * 1 + 1; omega

/-- The region leaves its result array holding the whole sum with the bias entry of the two arrays it found. -/
theorem final15 (c : Dev nD) : (dat15 V c).arrAt 2 cfg15.N
    = Cert.ReferenceIdeal.Layers.biasOut (F := Ideal) (V c (Pipeline.arrRef spec15 0)) (V c (Pipeline.arrRef spec15 1)) :=
  (dat15 V c).arrAt_eq_of_cover 2 _ (fun t _ => flushed15 V c t) cover15

end Region15

end Cert.KernelIdeal.Regions

end
-- ==== Proof.Chain6.lean ====
/-
  The buffers of the idealized kernel program through hidden layer 6, as the reference's stages.

  From the previous layer's activations: the host slices layer 6's weight matrix and bias vector out of the stacked
  arguments; the projection region leaves the reference's projection of the activations by that matrix; the host
  gathers the projected rows along the edges' sources, scales them by the edge norms and adds them up per
  destination node, and lays the bias out as one row; the bias region leaves the maximum of the sum-plus-bias with
  zero.  Each of these buffers holds the reference's stage of the same arguments, and the edge arrays and the
  arguments still needed are carried unchanged.
-/
import proofs.«100903_j60189671686197_1_alg».proof.Proof.Chain5
import proofs.«100903_j60189671686197_1_alg».proof.Proof.RegD
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Regions

variable (m : (ℓ : Loc nD τ sig) → Buf (Elt Ideal) ℓ) (ρ : Dev nD → PrngReg) (c : Dev nD)

/-! ## Boundary 25 -/

theorem w25_v6 : W25 m ρ c (Proc.devRef .tc main_v6) = Cert.ReferenceIdeal.Read.val_main_v6 (F := Ideal) (x1 m c) := by
  show StableHlo.after hostOps12 (W24 m ρ c) (Proc.devRef .tc main_v6) = _
  simp only [hostOps12]
  after_results_simp
  all_goals exact w24_v6 m ρ c

theorem w25_v137 : W25 m ρ c (Proc.devRef .tc main_v137) = Cert.ReferenceIdeal.Read.val_main_v149 (F := Ideal) (x0 m c) (x1 m c) (x2 m c) (x3 m c) (x4 m c) (x5 m c) := by
  show StableHlo.after hostOps12 (W24 m ρ c) (Proc.devRef .tc main_v137) = _
  simp only [hostOps12]
  after_results_simp
  all_goals exact w24_v137 m ρ c

theorem w25_v139 : W25 m ρ c (Proc.devRef .tc main_v139) = Cert.ReferenceIdeal.Read.val_main_v151 (F := Ideal) (x4 m c) := by
  show StableHlo.after hostOps12 (W24 m ρ c) (Proc.devRef .tc main_v139) = _
  simp only [hostOps12]
  after_results_simp
  rw [w24_arg4 m ρ c]
  rfl

theorem w25_v3 : W25 m ρ c (Proc.devRef .tc main_v3) = Cert.ReferenceIdeal.Read.val_main_v3 (F := Ideal) (x1 m c) := by
  show StableHlo.after hostOps12 (W24 m ρ c) (Proc.devRef .tc main_v3) = _
  simp only [hostOps12]
  after_results_simp
  all_goals exact w24_v3 m ρ c

theorem w25_v27 : W25 m ρ c (Proc.devRef .tc main_v27) = Cert.ReferenceIdeal.Read.val_main_v27 (F := Ideal) (x1 m c) := by
  show StableHlo.after hostOps12 (W24 m ρ c) (Proc.devRef .tc main_v27) = _
  simp only [hostOps12]
  after_results_simp
  all_goals exact w24_v27 m ρ c

theorem w25_v141 : W25 m ρ c (Proc.devRef .tc main_v141) = Cert.ReferenceIdeal.Read.val_main_v153 (F := Ideal) (x5 m c) := by
  show StableHlo.after hostOps12 (W24 m ρ c) (Proc.devRef .tc main_v141) = _
  simp only [hostOps12]
  after_results_simp
  rw [w24_arg5 m ρ c]
  rfl

theorem w25_arg6 : W25 m ρ c (Proc.devRef .tc main_arg6) = x6 m c := by
  show StableHlo.after hostOps12 (W24 m ρ c) (Proc.devRef .tc main_arg6) = _
  simp only [hostOps12]
  after_results_simp
  all_goals exact w24_arg6 m ρ c

theorem w25_arg7 : W25 m ρ c (Proc.devRef .tc main_arg7) = x7 m c := by
  show StableHlo.after hostOps12 (W24 m ρ c) (Proc.devRef .tc main_arg7) = _
  simp only [hostOps12]
  after_results_simp
  all_goals exact w24_arg7 m ρ c

/-! ## Boundary 26 -/

theorem w26_v6 : W26 m ρ c (Proc.devRef .tc main_v6) = Cert.ReferenceIdeal.Read.val_main_v6 (F := Ideal) (x1 m c) :=
  (W26_of_ne m ρ c main_v6 (by decide)).trans (w25_v6 m ρ c)

theorem w26_v142 : W26 m ρ c (Proc.devRef .tc main_v142) = Cert.ReferenceIdeal.Read.val_main_v154 (F := Ideal) (x0 m c) (x1 m c) (x2 m c) (x3 m c) (x4 m c) (x5 m c) :=
  ((W26_arr m ρ c 2).trans (final12 (V25 m ρ) c)).trans
    (congrArg₂ (Cert.ReferenceIdeal.Layers.proj (F := Ideal)) (w25_v137 m ρ c) (w25_v139 m ρ c))

theorem w26_v3 : W26 m ρ c (Proc.devRef .tc main_v3) = Cert.ReferenceIdeal.Read.val_main_v3 (F := Ideal) (x1 m c) :=
  (W26_of_ne m ρ c main_v3 (by decide)).trans (w25_v3 m ρ c)

theorem w26_v27 : W26 m ρ c (Proc.devRef .tc main_v27) = Cert.ReferenceIdeal.Read.val_main_v27 (F := Ideal) (x1 m c) :=
  (W26_of_ne m ρ c main_v27 (by decide)).trans (w25_v27 m ρ c)

theorem w26_v141 : W26 m ρ c (Proc.devRef .tc main_v141) = Cert.ReferenceIdeal.Read.val_main_v153 (F := Ideal) (x5 m c) :=
  (W26_of_ne m ρ c main_v141 (by decide)).trans (w25_v141 m ρ c)

theorem w26_arg6 : W26 m ρ c (Proc.devRef .tc main_arg6) = x6 m c :=
  (W26_of_ne m ρ c main_arg6 (by decide)).trans (w25_arg6 m ρ c)

theorem w26_arg7 : W26 m ρ c (Proc.devRef .tc main_arg7) = x7 m c :=
  (W26_of_ne m ρ c main_arg7 (by decide)).trans (w25_arg7 m ρ c)

/-! ## Boundary 27 -/

theorem w27_v6 : W27 m ρ c (Proc.devRef .tc main_v6) = Cert.ReferenceIdeal.Read.val_main_v6 (F := Ideal) (x1 m c) := by
  show StableHlo.after hostOps13 (W26 m ρ c) (Proc.devRef .tc main_v6) = _
  simp only [hostOps13]
  after_results_simp
  all_goals exact w26_v6 m ρ c

theorem w27_v154 : W27 m ρ c (Proc.devRef .tc main_v154) = Cert.ReferenceIdeal.Read.val_main_v166 (F := Ideal) (x0 m c) (x1 m c) (x2 m c) (x3 m c) (x4 m c) (x5 m c) := by
  show StableHlo.after hostOps13 (W26 m ρ c) (Proc.devRef .tc main_v154) = _
  simp only [hostOps13]
  after_results_simp
  rw [w26_v6 m ρ c, w26_v142 m ρ c, w26_v3 m ρ c, w26_v27 m ρ c]
  rfl

theorem w27_v155 : W27 m ρ c (Proc.devRef .tc main_v155) = Cert.ReferenceIdeal.Read.val_main_v167 (F := Ideal) (x5 m c) := by
  show StableHlo.after hostOps13 (W26 m ρ c) (Proc.devRef .tc main_v155) = _
  simp only [hostOps13]
  after_results_simp
  rw [w26_v141 m ρ c]
  exact Cert.ReferenceIdeal.Layers.row_of_reshape _ _

theorem w27_arg6 : W27 m ρ c (Proc.devRef .tc main_arg6) = x6 m c := by
  show StableHlo.after hostOps13 (W26 m ρ c) (Proc.devRef .tc main_arg6) = _
  simp only [hostOps13]
  after_results_simp
  all_goals exact w26_arg6 m ρ c

theorem w27_v3 : W27 m ρ c (Proc.devRef .tc main_v3) = Cert.ReferenceIdeal.Read.val_main_v3 (F := Ideal) (x1 m c) := by
  show StableHlo.after hostOps13 (W26 m ρ c) (Proc.devRef .tc main_v3) = _
  simp only [hostOps13]
  after_results_simp
  all_goals exact w26_v3 m ρ c

theorem w27_v27 : W27 m ρ c (Proc.devRef .tc main_v27) = Cert.ReferenceIdeal.Read.val_main_v27 (F := Ideal) (x1 m c) := by
  show StableHlo.after hostOps13 (W26 m ρ c) (Proc.devRef .tc main_v27) = _
  simp only [hostOps13]
  after_results_simp
  all_goals exact w26_v27 m ρ c

theorem w27_arg7 : W27 m ρ c (Proc.devRef .tc main_arg7) = x7 m c := by
  show StableHlo.after hostOps13 (W26 m ρ c) (Proc.devRef .tc main_arg7) = _
  simp only [hostOps13]
  after_results_simp
  all_goals exact w26_arg7 m ρ c

/-! ## Boundary 28 -/

theorem w28_v6 : W28 m ρ c (Proc.devRef .tc main_v6) = Cert.ReferenceIdeal.Read.val_main_v6 (F := Ideal) (x1 m c) :=
  (W28_of_ne m ρ c main_v6 (by decide)).trans (w27_v6 m ρ c)

theorem w28_v156 : W28 m ρ c (Proc.devRef .tc main_v156) = Cert.ReferenceIdeal.Read.val_main_v170 (F := Ideal) (x0 m c) (x1 m c) (x2 m c) (x3 m c) (x4 m c) (x5 m c) :=
  ((W28_arr m ρ c 2).trans (final13 (V27 m ρ) c)).trans
    (congrArg₂ (Cert.ReferenceIdeal.Layers.biasRelu (F := Ideal)) (w27_v154 m ρ c) (w27_v155 m ρ c))

theorem w28_arg6 : W28 m ρ c (Proc.devRef .tc main_arg6) = x6 m c :=
  (W28_of_ne m ρ c main_arg6 (by decide)).trans (w27_arg6 m ρ c)

theorem w28_v3 : W28 m ρ c (Proc.devRef .tc main_v3) = Cert.ReferenceIdeal.Read.val_main_v3 (F := Ideal) (x1 m c) :=
  (W28_of_ne m ρ c main_v3 (by decide)).trans (w27_v3 m ρ c)

theorem w28_v27 : W28 m ρ c (Proc.devRef .tc main_v27) = Cert.ReferenceIdeal.Read.val_main_v27 (F := Ideal) (x1 m c) :=
  (W28_of_ne m ρ c main_v27 (by decide)).trans (w27_v27 m ρ c)

theorem w28_arg7 : W28 m ρ c (Proc.devRef .tc main_arg7) = x7 m c :=
  (W28_of_ne m ρ c main_arg7 (by decide)).trans (w27_arg7 m ρ c)

end Cert.KernelIdeal.Chain

end
-- ==== Proof.Chain7.lean ====
/-
  The buffers of the idealized kernel program through the output layer, and the result.

  From the last hidden layer's activations: the projection region leaves the reference's one-column projection by
  the output weights; the host gathers, scales and scatter-adds it over the edges and lays the output bias out as
  a 1 × 1 array; the last region adds that entry to every node's sum.  So at the last boundary the result buffer
  holds the reference's result stage of the eight arguments.
-/
import proofs.«100903_j60189671686197_1_alg».proof.Proof.Chain6
import proofs.«100903_j60189671686197_1_alg».proof.Proof.RegD
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Regions

variable (m : (ℓ : Loc nD τ sig) → Buf (Elt Ideal) ℓ) (ρ : Dev nD → PrngReg) (c : Dev nD)

/-! ## Boundary 29 -/

theorem w29_v6 : W29 m ρ c (Proc.devRef .tc main_v6) = Cert.ReferenceIdeal.Read.val_main_v6 (F := Ideal) (x1 m c) :=
  (W29_of_ne m ρ c main_v6 (by decide)).trans (w28_v6 m ρ c)

theorem w29_v157 : W29 m ρ c (Proc.devRef .tc main_v157) = Cert.ReferenceIdeal.Read.val_main_v171 (F := Ideal) (x0 m c) (x1 m c) (x2 m c) (x3 m c) (x4 m c) (x5 m c) (x6 m c) :=
  ((W29_arr m ρ c 2).trans (final14 (V28 m ρ) c)).trans
    (congrArg₂ (Cert.ReferenceIdeal.Layers.projOut (F := Ideal)) (w28_v156 m ρ c) (w28_arg6 m ρ c))

theorem w29_v3 : W29 m ρ c (Proc.devRef .tc main_v3) = Cert.ReferenceIdeal.Read.val_main_v3 (F := Ideal) (x1 m c) :=
  (W29_of_ne m ρ c main_v3 (by decide)).trans (w28_v3 m ρ c)

theorem w29_v27 : W29 m ρ c (Proc.devRef .tc main_v27) = Cert.ReferenceIdeal.Read.val_main_v27 (F := Ideal) (x1 m c) :=
  (W29_of_ne m ρ c main_v27 (by decide)).trans (w28_v27 m ρ c)

theorem w29_arg7 : W29 m ρ c (Proc.devRef .tc main_arg7) = x7 m c :=
  (W29_of_ne m ρ c main_arg7 (by decide)).trans (w28_arg7 m ρ c)

/-! ## Boundary 30 -/

theorem w30_v168 : W30 m ρ c (Proc.devRef .tc main_v168) = Cert.ReferenceIdeal.Read.val_main_v182 (F := Ideal) (x0 m c) (x1 m c) (x2 m c) (x3 m c) (x4 m c) (x5 m c) (x6 m c) := by
  show StableHlo.after hostOps15 (W29 m ρ c) (Proc.devRef .tc main_v168) = _
  simp only [hostOps15]
  after_results_simp
  rw [w29_v6 m ρ c, w29_v157 m ρ c, w29_v3 m ρ c, w29_v27 m ρ c]
  rfl

theorem w30_v169 : W30 m ρ c (Proc.devRef .tc main_v169) = Cert.ReferenceIdeal.Read.val_main_v183 (F := Ideal) (x7 m c) := by
  show StableHlo.after hostOps15 (W29 m ρ c) (Proc.devRef .tc main_v169) = _
  simp only [hostOps15]
  after_results_simp
  rw [w29_arg7 m ρ c]
  exact Cert.ReferenceIdeal.Layers.entry_of_reshape _ _

/-! ## Boundary 31 -/

theorem w31_v170 : W31 m ρ c (Proc.devRef .tc main_v170) = Cert.ReferenceIdeal.Read.val_main_v185 (F := Ideal) (x0 m c) (x1 m c) (x2 m c) (x3 m c) (x4 m c) (x5 m c) (x6 m c) (x7 m c) :=
  ((W31_arr m ρ c 2).trans (final15 (V30 m ρ) c)).trans
    (congrArg₂ (Cert.ReferenceIdeal.Layers.biasOut (F := Ideal)) (w30_v168 m ρ c) (w30_v169 m ρ c))

/-! ## The result -/

/-- At the boundary after the last region the result buffer holds the reference's result stage of the arguments. -/
theorem result_eq : W31 m ρ c (Proc.devRef .tc main_v170) = Cert.ReferenceIdeal.Read.val_main_v185 (F := Ideal) (x0 m c) (x1 m c) (x2 m c) (x3 m c) (x4 m c) (x5 m c) (x6 m c) (x7 m c) :=
  w31_v170 m ρ c

end Cert.KernelIdeal.Chain

end
-- ==== Proof.lean ====
/-
  The certificate of the graph-convolution network kernel against its reference.

  Both programs compute eight graph-convolution layers over 100000 nodes and 2000000 edges (plus one self loop per
  node): project the node features by the layer's weights, gather the projected rows along the edges, scale by the
  symmetric degree norms, add them up per destination node, add the bias, and — except in the last layer — take
  the maximum with zero.  The kernel program computes each projection and each bias-and-maximum in a pipelined
  region of ten row blocks (the projection with operands narrowed to bf16) and leaves the gather, scaling and
  scatter-add to the same host operations as the reference.

  On extended reals a change of float format is the identity and a matrix product into a zero accumulator is the
  64-term sum, so each projection region leaves exactly the reference's projection of its operand arrays, each bias
  region exactly the reference's bias-and-maximum, and the host operations between them are the reference's own.
  Following the buffers from the launch to the last boundary, the result buffer holds the reference's result
  stage of the same eight arguments.  No step moves a factor across a sum or cancels anything, so the finiteness
  of the inputs is never used.

  The three frames: the two kernel programs' are the generated frame certificates; the reference's is its generated
  run with the result dropped.  The idealization rewrote no operation, so there is nothing to preserve.
-/
import proofs.«100903_j60189671686197_1_alg».proof.Defs
import proofs.«100903_j60189671686197_1_alg».proof.Proof.Gen.Kernel
import proofs.«100903_j60189671686197_1_alg».proof.Proof.Gen.Kernel.Skeleton
import proofs.«100903_j60189671686197_1_alg».proof.Proof.Gen.Kernel.Launch
import proofs.«100903_j60189671686197_1_alg».proof.Proof.Gen.Kernel.Points
import proofs.«100903_j60189671686197_1_alg».proof.Proof.Gen.Kernel.Frame
import proofs.«100903_j60189671686197_1_alg».proof.Proof.Gen.KernelIdeal
import proofs.«100903_j60189671686197_1_alg».proof.Proof.Gen.KernelIdeal.Skeleton
import proofs.«100903_j60189671686197_1_alg».proof.Proof.Gen.KernelIdeal.Launch
import proofs.«100903_j60189671686197_1_alg».proof.Proof.Gen.KernelIdeal.Points
import proofs.«100903_j60189671686197_1_alg».proof.Proof.Gen.KernelIdeal.Frame
import proofs.«100903_j60189671686197_1_alg».proof.Proof.Gen.ReferenceIdeal
import proofs.«100903_j60189671686197_1_alg».proof.Proof.Gen.Pre_finite_inputs
import proofs.«100903_j60189671686197_1_alg».proof.Proof.Gen.ReferenceIdeal.Run
import proofs.«100903_j60189671686197_1_alg».proof.Proof.Gen.ReferenceIdeal.Read
import proofs.«100903_j60189671686197_1_alg».proof.Proof.KRun
import proofs.«100903_j60189671686197_1_alg».proof.Proof.Chain7
import Idealize.ShloMosaic.Adequacy
import Idealize.ShloMosaic.Init

noncomputable section

namespace Cert.Proof

open Idealize.ShloMosaic Idealize.ShloMosaic.TcCoe Idealize.SL.Sem

/-- The two idealized programs, run from memories that agree on the arguments, end with equal results: the kernel
    program's result buffer holds the reference's result stage of its arguments (the chain of boundaries), the
    reference's holds the same stage of its own (its generated run), and the arguments agree. -/
theorem algebraic : Cert.algebraic_KernelIdeal_ReferenceIdeal := by
  intro m ρ m' ρ' _ hagree
  refine ⟨fun c => Cert.ReferenceIdeal.Read.val_main_v185 (F := Ideal) (Cert.KernelIdeal.Chain.x0 m c) (Cert.KernelIdeal.Chain.x1 m c) (Cert.KernelIdeal.Chain.x2 m c) (Cert.KernelIdeal.Chain.x3 m c) (Cert.KernelIdeal.Chain.x4 m c) (Cert.KernelIdeal.Chain.x5 m c) (Cert.KernelIdeal.Chain.x6 m c) (Cert.KernelIdeal.Chain.x7 m c), ?_, ?_⟩
  · exact (θ_run Cert.KernelIdeal.defs _ _).mono (fun r h c => ⟨(h c).1.trans (Cert.KernelIdeal.Chain.result_eq m ρ c), (h c).2⟩)
      (Cert.KernelIdeal.Whole.run_last (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v185_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
